-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x512 : Shape := ⟨3, ![4, 8192, 512]⟩
abbrev S20x512 : Shape := ⟨2, ![20, 512]⟩
abbrev S20 : Shape := ⟨1, ![20]⟩
abbrev S512x512 : Shape := ⟨2, ![512, 512]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S20x512 : S_.BroadcastsInDim S20x512 (![] : Fin 0 → Fin S20x512.rank)
  reducesTo_S20x512_S_d0_1 : S20x512.ReducesTo [0, 1] S_
  bcast_S_S20 : S_.BroadcastsInDim S20 (![] : Fin 0 → Fin S20.rank)
  reducesTo_S20_S_d0 : S20.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512x512 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  main_v28

def fn {F : FTy → Type} [FloatOps F] (main_arg0 : FVec F S4x8192x512 .f32) (main_arg1 : FVec F S20x512 .f32) (main_arg2 : FVec F S20 .f32) (main_arg3 : FVec F S20 .f32) (main_arg4 : FVec F S512x512 .f32) (main_arg5 : FVec F S512x512 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S20x512 .f32 := Host.absf main_arg1
  let main_cst_0 : FVec F S_ .f32 := constant S_ .f32 0x7F800000#32
  let main_v5 : FVec F S20x512 .f32 := broadcastInDim S20x512 ![] bcast_S_S20x512 main_cst_0
  let main_v6 : IVec S20x512 1 := cmpf .olt main_v4 main_v5
  let main_c_1 : IVec S_ 1 := constantI S_ 1 1#1
  let main_v7 : IVec S_ 1 := (fun x v => Host.reduce IntOp.andi x v reducesTo_S20x512_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20 .f32 := Host.absf main_arg3
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg4 main_arg5 main_v13 main_v16
-- ==== Kernel.lean ====
abbrev S4x8192x512 : Shape := ⟨3, ![4, 8192, 512]⟩
abbrev S20x512 : Shape := ⟨2, ![20, 512]⟩
abbrev S20 : Shape := ⟨1, ![20]⟩
abbrev S512x512 : Shape := ⟨2, ![512, 512]⟩
abbrev S1x20 : Shape := ⟨2, ![1, 20]⟩
abbrev S_ : Shape := ⟨0, ![]⟩
abbrev S512x20 : Shape := ⟨2, ![512, 20]⟩
abbrev S4x8192x20 : Shape := ⟨3, ![4, 8192, 20]⟩
abbrev S4x20x512 : Shape := ⟨3, ![4, 20, 512]⟩
abbrev S1x1024x512 : Shape := ⟨3, ![1, 1024, 512]⟩
abbrev S1x1024x20 : Shape := ⟨3, ![1, 1024, 20]⟩
abbrev S1x20x512 : Shape := ⟨3, ![1, 20, 512]⟩
abbrev S1024x512 : Shape := ⟨2, ![1024, 512]⟩
abbrev S1024x20 : Shape := ⟨2, ![1024, 20]⟩
abbrev S1024 : Shape := ⟨1, ![1024]⟩
abbrev S1024x1 : Shape := ⟨2, ![1024, 1]⟩

abbrev nBuf : Space → Nat
  | .hbm => 20
  | .vmem => 19
  | .smem => 0
  | _ => 0

abbrev bufTy : (tb : Table) → Fin (tcTables nBuf tb) → BufTy
  | .hbm, ⟨0, _⟩ => ⟨S4x8192x512, .f32⟩
  | .hbm, ⟨1, _⟩ => ⟨S20x512, .f32⟩
  | .hbm, ⟨2, _⟩ => ⟨S20, .f32⟩
  | .hbm, ⟨3, _⟩ => ⟨S20, .f32⟩
  | .hbm, ⟨4, _⟩ => ⟨S512x512, .f32⟩
  | .hbm, ⟨5, _⟩ => ⟨S512x512, .f32⟩
  | .hbm, ⟨6, _⟩ => ⟨S20, .f32⟩
  | .hbm, ⟨7, _⟩ => ⟨S20, .f32⟩
  | .hbm, ⟨8, _⟩ => ⟨S1x20, .f32⟩
  | .hbm, ⟨9, _⟩ => ⟨S20x512, .f32⟩
  | .hbm, ⟨10, _⟩ => ⟨S_, .f32⟩
  | .hbm, ⟨11, _⟩ => ⟨S20, .f32⟩
  | .hbm, ⟨12, _⟩ => ⟨S1x20, .f32⟩
  | .hbm, ⟨13, _⟩ => ⟨S1x20, .f32⟩
  | .hbm, ⟨14, _⟩ => ⟨S512x20, .f32⟩
  | .hbm, ⟨15, _⟩ => ⟨S512x512, .f32⟩
  | .hbm, ⟨16, _⟩ => ⟨S512x512, .f32⟩
  | .hbm, ⟨17, _⟩ => ⟨S4x8192x20, .f32⟩
  | .hbm, ⟨18, _⟩ => ⟨S4x20x512, .f32⟩
  | .hbm, ⟨19, _⟩ => ⟨S4x8192x512, .f32⟩
  | .local _ .vmem, ⟨0, _⟩ => ⟨S1x1024x512, .f32⟩
  | .local _ .vmem, ⟨1, _⟩ => ⟨S1x1024x512, .f32⟩
  | .local _ .vmem, ⟨2, _⟩ => ⟨S512x20, .f32⟩
  | .local _ .vmem, ⟨3, _⟩ => ⟨S1x20, .f32⟩
  | .local _ .vmem, ⟨4, _⟩ => ⟨S1x20, .f32⟩
  | .local _ .vmem, ⟨5, _⟩ => ⟨S1x20, .f32⟩
  | .local _ .vmem, ⟨6, _⟩ => ⟨S512x512, .f32⟩
  | .local _ .vmem, ⟨7, _⟩ => ⟨S1x1024x20, .f32⟩
  | .local _ .vmem, ⟨8, _⟩ => ⟨S1x1024x20, .f32⟩
  | .local _ .vmem, ⟨9, _⟩ => ⟨S1x20x512, .f32⟩
  | .local _ .vmem, ⟨10, _⟩ => ⟨S1x20x512, .f32⟩
  | .local _ .vmem, ⟨11, _⟩ => ⟨S20x512, .f32⟩
  | .local _ .vmem, ⟨12, _⟩ => ⟨S1x1024x20, .f32⟩
  | .local _ .vmem, ⟨13, _⟩ => ⟨S1x1024x20, .f32⟩
  | .local _ .vmem, ⟨14, _⟩ => ⟨S1x20x512, .f32⟩
  | .local _ .vmem, ⟨15, _⟩ => ⟨S1x20x512, .f32⟩
  | .local _ .vmem, ⟨16, _⟩ => ⟨S512x512, .f32⟩
  | .local _ .vmem, ⟨17, _⟩ => ⟨S1x1024x512, .f32⟩
  | .local _ .vmem, ⟨18, _⟩ => ⟨S1x1024x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x20x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x20x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S20_S1x20 : S20.ShapeCasts S1x20
  reducesTo_S20x512_S20_d1 : S20x512.ReducesTo [1] S20
  h_S_ : 0 < S_.numel
  transposes_S20x512_S512x20_1_0 : S20x512.Transposes [1, 0] S512x20
  transposes_S512x512_S512x512_1_0 : S512x512.Transposes [1, 0] S512x512
  inb_S20x512_S20x512_0_0 : ∀ a, (![0, 0] : Fin 2 → Nat) a + S20x512.size a ≤ S20x512.size a
  h_S20x512 : 0 < S20x512.numel
  shapeCasts_S20x512_S20x512 : S20x512.ShapeCasts S20x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x20_S512x20_0_0 : ∀ a, (![0, 0] : Fin 2 → Nat) a + S512x20.size a ≤ S512x20.size a
  h_S512x20 : 0 < S512x20.numel
  shapeCasts_S512x20_S512x20 : S512x20.ShapeCasts S512x20
  reduces_S1024x512_S1024 : S1024x512.Reduces [1] S1024
  shapeCasts_S1024_S1024x1 : S1024.ShapeCasts S1024x1
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1024x1_S1024x20 : S1024x1.Broadcasts S1024x20
  broadcasts_S1x20_S1024x20 : S1x20.Broadcasts S1024x20
  reduces_S1024x20_S1024 : S1024x20.Reduces [1] S1024
  inb_S1x1024x20_S1x1024x20_0_0_0 : ∀ a, (![0, 0, 0] : Fin 3 → Nat) a + S1x1024x20.size a ≤ S1x1024x20.size a
  h_S1x1024x20 : 0 < S1x1024x20.numel
  shapeCasts_S1x1024x20_S1024x20 : S1x1024x20.ShapeCasts S1024x20
  shapeCasts_S1024x20_S1x1024x20 : S1024x20.ShapeCasts S1x1024x20
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x20x512_S1x20x512_0_0_0 : ∀ a, (![0, 0, 0] : Fin 3 → Nat) a + S1x20x512.size a ≤ S1x20x512.size a
  h_S1x20x512 : 0 < S1x20x512.numel
  shapeCasts_S1x20x512_S20x512 : S1x20x512.ShapeCasts S20x512
  shapeCasts_S20x512_S1x20x512 : S20x512.ShapeCasts S1x20x512
  shapeCasts_S1024x512_S1x1024x512 : S1024x512.ShapeCasts S1x1024x512
  dot_S1024x512_S512x20_S1024x20_1_0_0_1_n_n_wf : DotDims.WF S1024x512 S512x20 S1024x20 [1] [0] [0] [1] [] []
  dot_S1024x512_S512x512_S1024x512_1_0_0_1_n_n_wf : DotDims.WF S1024x512 S512x512 S1024x512 [1] [0] [0] [1] [] []
  dot_S1024x20_S1024x512_S20x512_0_0_1_1_n_n_wf : DotDims.WF S1024x20 S1024x512 S20x512 [0] [0] [1] [1] [] []
  dot_S1024x20_S20x512_S1024x512_1_0_0_1_n_n_wf : DotDims.WF S1024x20 S20x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S4x8192x512.size a
  hwx0_0 : ∀ i : grid0.Coords, EltTy.bits .f32 = 32 ∨ (Rect.block (s := S4x8192x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x20.size a ≤ S512x20.size a
  hwx0_1 : ∀ i : grid0.Coords, EltTy.bits .f32 = 32 ∨ (Rect.block (s := S512x20) S512x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20.size a ≤ S1x20.size a
  hwx0_3 : ∀ i : grid0.Coords, EltTy.bits .f32 = 32 ∨ (Rect.block (s := S1x20) S1x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x20.size a ≤ S1x20.size a
  hwx0_4 : ∀ i : grid0.Coords, EltTy.bits .f32 = 32 ∨ (Rect.block (s := S1x20) S1x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x20.size a ≤ S4x8192x20.size a
  hwx0_6 : ∀ i : grid0.Coords, EltTy.bits .f32 = 32 ∨ (Rect.block (s := S4x8192x20) S1x1024x20.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x20x512.size a ≤ S4x20x512.size a
  hwx0_7 : ∀ i : grid0.Coords, EltTy.bits .f32 = 32 ∨ (Rect.block (s := S4x20x512) S1x20x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x20.size a ≤ S4x8192x20.size a
  hwx1_0 : ∀ i : grid1.Coords, EltTy.bits .f32 = 32 ∨ (Rect.block (s := S4x8192x20) S1x1024x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x20x512.size a ≤ S4x20x512.size a
  hwx1_1 : ∀ i : grid1.Coords, EltTy.bits .f32 = 32 ∨ (Rect.block (s := S4x20x512) S1x20x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S4x8192x512.size a
  hwx1_3 : ∀ i : grid1.Coords, EltTy.bits .f32 = 32 ∨ (Rect.block (s := S4x8192x512) S1x1024x512.size (cc1_transform_3 i) (hinb1_3 i)).WholeWords (EltTy.packing .f32)

variable [Facts₀]

def dot_S1024x512_S512x20_S1024x20_1_0_0_1_n_n : DotDims S1024x512 S512x20 S1024x20 where
  lhsContracting := [1]
  rhsContracting := [0]
  lhsNonContracting := [0]
  rhsNonContracting := [1]
  lhsBatch := []
  rhsBatch := []
  wf := dot_S1024x512_S512x20_S1024x20_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x20_S1024x512_S20x512_0_0_1_1_n_n : DotDims S1024x20 S1024x512 S20x512 where
  lhsContracting := [0]
  rhsContracting := [0]
  lhsNonContracting := [1]
  rhsNonContracting := [1]
  lhsBatch := []
  rhsBatch := []
  wf := dot_S1024x20_S1024x512_S20x512_0_0_1_1_n_n_wf
def dot_S1024x20_S20x512_S1024x512_1_0_0_1_n_n : DotDims S1024x20 S20x512 S1024x512 where
  lhsContracting := [1]
  rhsContracting := [0]
  lhsNonContracting := [0]
  rhsNonContracting := [1]
  lhsBatch := []
  rhsBatch := []
  wf := dot_S1024x20_S20x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S1x1024x20.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S1x20x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v10_0) S1x1024x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S1x20x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x8192x512 : Shape := ⟨3, ![4, 8192, 512]⟩
abbrev S20x512 : Shape := ⟨2, ![20, 512]⟩
abbrev S20 : Shape := ⟨1, ![20]⟩
abbrev S512x512 : Shape := ⟨2, ![512, 512]⟩
abbrev S_ : Shape := ⟨0, ![]⟩
abbrev S4x8192 : Shape := ⟨2, ![4, 8192]⟩
abbrev S4x8192x1 : Shape := ⟨3, ![4, 8192, 1]⟩
abbrev S4x8192x20 : Shape := ⟨3, ![4, 8192, 20]⟩
abbrev S1x1x20 : Shape := ⟨3, ![1, 1, 20]⟩
abbrev S4x20x512 : Shape := ⟨3, ![4, 20, 512]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S20x512, .f32⟩
  | .hbm, ⟨2, _⟩ => ⟨S20, .f32⟩
  | .hbm, ⟨3, _⟩ => ⟨S20, .f32⟩
  | .hbm, ⟨4, _⟩ => ⟨S512x512, .f32⟩
  | .hbm, ⟨5, _⟩ => ⟨S512x512, .f32⟩
  | .hbm, ⟨6, _⟩ => ⟨S20, .f32⟩
  | .hbm, ⟨7, _⟩ => ⟨S4x8192x512, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S20x512, .f32⟩
  | .hbm, ⟨12, _⟩ => ⟨S_, .f32⟩
  | .hbm, ⟨13, _⟩ => ⟨S20, .f32⟩
  | .hbm, ⟨14, _⟩ => ⟨S4x8192x20, .f32⟩
  | .hbm, ⟨15, _⟩ => ⟨S_, .f32⟩
  | .hbm, ⟨16, _⟩ => ⟨S4x8192x20, .f32⟩
  | .hbm, ⟨17, _⟩ => ⟨S4x8192x20, .f32⟩
  | .hbm, ⟨18, _⟩ => ⟨S4x8192x20, .f32⟩
  | .hbm, ⟨19, _⟩ => ⟨S4x8192x20, .f32⟩
  | .hbm, ⟨20, _⟩ => ⟨S1x1x20, .f32⟩
  | .hbm, ⟨21, _⟩ => ⟨S4x8192x20, .f32⟩
  | .hbm, ⟨22, _⟩ => ⟨S4x8192x20, .f32⟩
  | .hbm, ⟨23, _⟩ => ⟨S_, .f32⟩
  | .hbm, ⟨24, _⟩ => ⟨S4x8192x20, .f32⟩
  | .hbm, ⟨25, _⟩ => ⟨S4x8192x20, .f32⟩
  | .hbm, ⟨26, _⟩ => ⟨S_, .f32⟩
  | .hbm, ⟨27, _⟩ => ⟨S4x8192x20, .f32⟩
  | .hbm, ⟨28, _⟩ => ⟨S4x8192x20, .f32⟩
  | .hbm, ⟨29, _⟩ => ⟨S20, .f32⟩
  | .hbm, ⟨30, _⟩ => ⟨S1x1x20, .f32⟩
  | .hbm, ⟨31, _⟩ => ⟨S4x8192x20, .f32⟩
  | .hbm, ⟨32, _⟩ => ⟨S4x8192x20, .f32⟩
  | .hbm, ⟨33, _⟩ => ⟨S4x8192x20, .f32⟩
  | .hbm, ⟨34, _⟩ => ⟨S1x1x20, .f32⟩
  | .hbm, ⟨35, _⟩ => ⟨S4x8192x20, .f32⟩
  | .hbm, ⟨36, _⟩ => ⟨S4x8192x20, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S_, .f32⟩
  | .hbm, ⟨41, _⟩ => ⟨S4x8192x1, .f32⟩
  | .hbm, ⟨42, _⟩ => ⟨S4x8192x1, .f32⟩
  | .hbm, ⟨43, _⟩ => ⟨S4x8192x20, .f32⟩
  | .hbm, ⟨44, _⟩ => ⟨S4x8192x20, .f32⟩
  | .hbm, ⟨45, _⟩ => ⟨S4x8192x512, .f32⟩
  | .hbm, ⟨46, _⟩ => ⟨S4x20x512, .f32⟩
  | .hbm, ⟨47, _⟩ => ⟨S4x8192x512, .f32⟩
  | .hbm, ⟨48, _⟩ => ⟨S4x8192x512, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  reducesTo_S4x8192x512_S4x8192_d2 : S4x8192x512.ReducesTo [2] S4x8192
  h_S_ : 0 < S_.numel
  bcast_S4x8192_S4x8192x1_0_1 : S4x8192.BroadcastsInDim S4x8192x1 (![0, 1] : Fin 2 → Fin S4x8192x1.rank)
  reducesTo_S20x512_S20_d1 : S20x512.ReducesTo [1] S20
  bcast_S_S4x8192x20 : S_.BroadcastsInDim S4x8192x20 (![] : Fin 0 → Fin S4x8192x20.rank)
  bcast_S4x8192x1_S4x8192x20_0_1_2 : S4x8192x1.BroadcastsInDim S4x8192x20 (![0, 1, 2] : Fin 3 → Fin S4x8192x20.rank)
  bcast_S20_S1x1x20_2 : S20.BroadcastsInDim S1x1x20 (![2] : Fin 1 → Fin S1x1x20.rank)
  bcast_S1x1x20_S4x8192x20_0_1_2 : S1x1x20.BroadcastsInDim S4x8192x20 (![0, 1, 2] : Fin 3 → Fin S4x8192x20.rank)
  reducesTo_S4x8192x20_S4x8192_d2 : S4x8192x20.ReducesTo [2] S4x8192
  bcast_S_S4x8192x1 : S_.BroadcastsInDim S4x8192x1 (![] : Fin 0 → Fin S4x8192x1.rank)
  dot_S4x8192x512_S20x512_S4x8192x20_2_1_01_0_n_n_wf : DotDims.WF S4x8192x512 S20x512 S4x8192x20 [2] [1] [0, 1] [0] [] []
  dot_S4x8192x512_S512x512_S4x8192x512_2_1_01_0_n_n_wf : DotDims.WF S4x8192x512 S512x512 S4x8192x512 [2] [1] [0, 1] [0] [] []
  dot_S4x8192x20_S4x8192x512_S4x20x512_1_1_2_2_0_0_wf : DotDims.WF S4x8192x20 S4x8192x512 S4x20x512 [1] [1] [2] [2] [0] [0]
  dot_S4x8192x20_S4x20x512_S4x8192x512_2_1_1_2_0_0_wf : DotDims.WF S4x8192x20 S4x20x512 S4x8192x512 [2] [1] [1] [2] [0] [0]

variable [Facts₀]

def dot_S4x8192x512_S20x512_S4x8192x20_2_1_01_0_n_n : DotDims S4x8192x512 S20x512 S4x8192x20 where
  lhsContracting := [2]
  rhsContracting := [1]
  lhsNonContracting := [0, 1]
  rhsNonContracting := [0]
  lhsBatch := []
  rhsBatch := []
  wf := dot_S4x8192x512_S20x512_S4x8192x20_2_1_01_0_n_n_wf
def dot_S4x8192x512_S512x512_S4x8192x512_2_1_01_0_n_n : DotDims S4x8192x512 S512x512 S4x8192x512 where
  lhsContracting := [2]
  rhsContracting := [1]
  lhsNonContracting := [0, 1]
  rhsNonContracting := [0]
  lhsBatch := []
  rhsBatch := []
  wf := dot_S4x8192x512_S512x512_S4x8192x512_2_1_01_0_n_n_wf
def dot_S4x8192x20_S4x8192x512_S4x20x512_1_1_2_2_0_0 : DotDims S4x8192x20 S4x8192x512 S4x20x512 where
  lhsContracting := [1]
  rhsContracting := [1]
  lhsNonContracting := [2]
  rhsNonContracting := [2]
  lhsBatch := [0]
  rhsBatch := [0]
  wf := dot_S4x8192x20_S4x8192x512_S4x20x512_1_1_2_2_0_0_wf
def dot_S4x8192x20_S4x20x512_S4x8192x512_2_1_1_2_0_0 : DotDims S4x8192x20 S4x20x512 S4x8192x512 where
  lhsContracting := [2]
  rhsContracting := [1]
  lhsNonContracting := [1]
  rhsNonContracting := [2]
  lhsBatch := [0]
  rhsBatch := [0]
  wf := dot_S4x8192x20_S4x20x512_S4x8192x512_2_1_1_2_0_0_wf

class Facts : Prop extends Facts₀ where

variable [Facts]
-- ==== Proof.BitsRegion0.lean ====
/-
  The first kernel region (the normalised weights of a tile of 1024 tokens, and the running sum of
  weightsᵀ · values kept in a scratch buffer), at any float instance and at any contents `V` of the core's
  buffers when the region is entered.

  The grid is 4 batch rows × 8 tiles. At the first tile of a row the body zeroes the scratch; at every tile it
  writes the weights block whole, adds the tile's contribution to the scratch, and copies the scratch into the
  splat block. So the weights block after the body is one function of the input blocks, while the scratch and the
  splat block after the body at a point are a function of the input blocks and of what the scratch held after the
  point before: a recursion over the grid's points, reset at every eighth point.
-/
import proofs.«161355_j43224550867593_1_alg».proof.Proof.Gen.Kernel.Launch
import proofs.«161355_j43224550867593_1_alg».proof.Proof.Gen.Kernel.Skeleton
import proofs.«161355_j43224550867593_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch: the scratch is zeroed at the first tile of a batch row -/

/-- The condition of the body's one branch, from the grid coordinates. -/
abbrev cond0 (i : grid0.Coords) : Prop := (Scalar.cmpi .ne (Scalar.extui (Scalar.cmpi .eq (BitVec.ofNat 32 (i 1).val) 0#32)) 0#32) = 1#1
/-- It holds at the points ≡ 0 (mod 8): the first tile of each batch row. -/
theorem hcond0 : ∀ t : Fin cfg0.N, cond0 (grid0.coords t) ↔ t.val % 8 = 0 :=
  (by decide +kernel : ∀ t : Fin grid0.N, cond0 (grid0.coords t) ↔ t.val % 8 = 0)

/-! ## The body's accesses: each buffer is read or written whole -/

abbrev rA_x : Rect S1x1024x512 := Rect.unit (s := S1x1024x512) ![0, 0, 0] S1x1024x512.size inb_S1x1024x512_S1x1024x512_0_0_0
abbrev rA_p : Rect S512x20 := Rect.unit (s := S512x20) ![0, 0] S512x20.size inb_S512x20_S512x20_0_0
abbrev rA_r : Rect S1x20 := Rect.unit (s := S1x20) ![0, 0] S1x20.size inb_S1x20_S1x20_0_0
abbrev rA_w : Rect S512x512 := Rect.unit (s := S512x512) ![0, 0] S512x512.size inb_S512x512_S512x512_0_0
abbrev rA_a : Rect S1x1024x20 := Rect.unit (s := S1x1024x20) ![0, 0, 0] S1x1024x20.size inb_S1x1024x20_S1x1024x20_0_0_0
abbrev rA_o : Rect S1x20x512 := Rect.unit (s := S1x20x512) ![0, 0, 0] S1x20x512.size inb_S1x20x512_S1x20x512_0_0_0
abbrev rA_s : Rect S20x512 := Rect.unit (s := S20x512) ![0, 0] S20x512.size inb_S20x512_S20x512_0_0

/-! ## What the body leaves, as functions of the input blocks -/

/-- The normalised weights the body stores, from the five blocks it depends on. -/
def attnPay (x0 : Vec F S1x1024x512 .f32) (x1 : Vec F S512x20 .f32) (x2 x3 x4 : Vec F S1x20 .f32) : FVec F S1x1024x20 .f32 :=
  k0_pay2 (k0_pay8 (View.ld x0 rA_x) (View.ld x1 rA_p) (View.ld x2 rA_r) (View.ld x3 rA_r) (View.ld x4 rA_r))
    (k0_pay9 (View.ld x0 rA_x) (View.ld x1 rA_p) (View.ld x2 rA_r) (View.ld x3 rA_r) (View.ld x4 rA_r)) k0_pay10

/-- The scratch's new contents: what it held, `a`, plus the tile's weightsᵀ · values. -/
def accPay (x0 : Vec F S1x1024x512 .f32) (x1 : Vec F S512x20 .f32) (x2 x3 x4 : Vec F S1x20 .f32) (x5 : Vec F S512x512 .f32) (a : Vec F S20x512 .f32) : FVec F S20x512 .f32 :=
  k0_pay3 (k0_pay7 (View.ld x0 rA_x))
    (k0_pay8 (View.ld x0 rA_x) (View.ld x1 rA_p) (View.ld x2 rA_r) (View.ld x3 rA_r) (View.ld x4 rA_r))
    (k0_pay9 (View.ld x0 rA_x) (View.ld x1 rA_p) (View.ld x2 rA_r) (View.ld x3 rA_r) (View.ld x4 rA_r)) k0_pay10
    (View.ld x5 rA_w) a

/-- The weights block after the body: its one store. -/
def attnOut (x0 : Vec F S1x1024x512 .f32) (x1 : Vec F S512x20 .f32) (x2 x3 x4 : Vec F S1x20 .f32) : Vec F S1x1024x20 .f32 :=
  View.canon [⟨rA_a, attnPay x0 x1 x2 x3 x4⟩]
/-- The scratch after the body at a row's first tile: zeroed, then the contribution added. -/
def accFirst (x0 : Vec F S1x1024x512 .f32) (x1 : Vec F S512x20 .f32) (x2 x3 x4 : Vec F S1x20 .f32) (x5 : Vec F S512x512 .f32) : Vec F S20x512 .f32 :=
  View.canon [⟨rA_s, accPay x0 x1 x2 x3 x4 x5 (k0_pay5 (F := F))⟩, ⟨rA_s, k0_pay5 (F := F)⟩]
/-- The scratch after the body at a later tile, from what it held (`a`). -/
def accNext (x0 : Vec F S1x1024x512 .f32) (x1 : Vec F S512x20 .f32) (x2 x3 x4 : Vec F S1x20 .f32) (x5 : Vec F S512x512 .f32) (a : Vec F S20x512 .f32) : Vec F S20x512 .f32 :=
  View.canon [⟨rA_s, accPay x0 x1 x2 x3 x4 x5 (View.ld a rA_s)⟩]
/-- The splat block after the body: the scratch's new contents copied. -/
def splatFirst (x0 : Vec F S1x1024x512 .f32) (x1 : Vec F S512x20 .f32) (x2 x3 x4 : Vec F S1x20 .f32) (x5 : Vec F S512x512 .f32) : Vec F S1x20x512 .f32 :=
  View.canon [⟨rA_o, k0_pay4 (accPay x0 x1 x2 x3 x4 x5 (k0_pay5 (F := F)))⟩]
def splatNext (x0 : Vec F S1x1024x512 .f32) (x1 : Vec F S512x20 .f32) (x2 x3 x4 : Vec F S1x20 .f32) (x5 : Vec F S512x512 .f32) (a : Vec F S20x512 .f32) : Vec F S1x20x512 .f32 :=
  View.canon [⟨rA_o, k0_pay4 (accPay x0 x1 x2 x3 x4 x5 (View.ld a rA_s))⟩]

theorem List.mem_cons_of_mem_singleton {α : Type} {a b : α} {L : List α} (h : a ∈ [b]) : a ∈ b :: L := by
  rw [List.mem_singleton] at h; subst h; exact List.mem_cons.mpr (Or.inl rfl)

/-- Every index of a buffer lies in its whole rectangle. -/
theorem cover_a (p0 : Vec F S1x1024x20 .f32) (y : S1x1024x20.Idx) :
    ∃ pc ∈ ([⟨rA_a, p0⟩] : List (View.Piece (Elt F) S1x1024x20 .f32)), y ∈ pc.1.set :=
  View.cover_of_tiled [⟨rA_a, p0⟩] S1x1024x20.size (by rfl) y
theorem cover_o (p0 : Vec F S1x20x512 .f32) (y : S1x20x512.Idx) :
    ∃ pc ∈ ([⟨rA_o, p0⟩] : List (View.Piece (Elt F) S1x20x512 .f32)), y ∈ pc.1.set :=
  View.cover_of_tiled [⟨rA_o, p0⟩] S1x20x512.size (by rfl) y
theorem cover_s1 (p0 : Vec F S20x512 .f32) (y : S20x512.Idx) :
    ∃ pc ∈ ([⟨rA_s, p0⟩] : List (View.Piece (Elt F) S20x512 .f32)), y ∈ pc.1.set :=
  View.cover_of_tiled [⟨rA_s, p0⟩] S20x512.size (by rfl) y
theorem cover_s (p0 : Vec F S20x512 .f32) (L : List (View.Piece (Elt F) S20x512 .f32)) (y : S20x512.Idx) :
    ∃ pc ∈ ((⟨rA_s, p0⟩ : View.Piece (Elt F) S20x512 .f32) :: L), y ∈ pc.1.set := by
  obtain ⟨pc, hm, hy⟩ := cover_s1 p0 y
  exact ⟨pc, List.mem_cons_of_mem_singleton hm, hy⟩

/-! ## The body's triples: the first tile of a row, and a later tile -/

set_option maxHeartbeats 2000000 in
/-- At a row's first tile: on whole memrefs, the inputs' at their contents, the outputs' and the scratch at anything,
    the body runs to the continuation holding the inputs' as they were, the weights block at `attnOut`, the splat block
    at `splatFirst` and the scratch at `accFirst`. -/
theorem sound_kernel0_first (c : Dev nD) (E : Set ℕ) (i : grid0.Coords) (hc : cond0 i) (arg2 : Memref sig .tc .vmem S1x1024x512 .f32) (harg2 : arg2.IsWhole) (arg3 : Memref sig .tc .vmem S512x20 .f32) (harg3 : arg3.IsWhole) (arg4 : Memref sig .tc .vmem S1x20 .f32) (harg4 : arg4.IsWhole) (arg5 : Memref sig .tc .vmem S1x20 .f32) (harg5 : arg5.IsWhole) (arg6 : Memref sig .tc .vmem S1x20 .f32) (harg6 : arg6.IsWhole) (arg7 : Memref sig .tc .vmem S512x512 .f32) (harg7 : arg7.IsWhole) (arg8 : Memref sig .tc .vmem S1x1024x20 .f32) (harg8 : arg8.IsWhole) (arg9 : Memref sig .tc .vmem S1x20x512 .f32) (harg9 : arg9.IsWhole) (arg10 : Memref sig .tc .vmem S20x512 .f32) (harg10 : arg10.IsWhole)
    (x0 : Vec F S1x1024x512 .f32) (x1 : Vec F S512x20 .f32) (x2 x3 x4 : Vec F S1x20 .f32) (x5 : Vec F S512x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (attnOut x0 x1 x2 x3 x4) ∗ owns (c : Thread nD τ) arg9 fullShare (splatFirst x0 x1 x2 x3 x4 x5)
            ∗ owns (c : Thread nD τ) arg10 fullShare (accFirst x0 x1 x2 x3 x4 x5)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_a (F := F) _)
  isplitl [H7]
  · iexists _; isplitr
    swap; · iexact H7
    ipureintro
    rw [View.read_writes_eq_canon _ _ _ (cover_o (F := F) _)]
    simp only [View.readCov_cons_toLoadRect]
    rfl
  iexists _; isplitr
  swap; · iexact H8
  ipureintro
  rw [View.read_writes_eq_canon _ _ _ (cover_s (F := F) _ _)]
  simp only [View.readCov_cons_toLoadRect]
  rfl

set_option maxHeartbeats 2000000 in
/-- At a later tile: the same with the scratch handed over at `a`, what the point before left, and given back at
    `accNext … a`. -/
theorem sound_kernel0_next (c : Dev nD) (E : Set ℕ) (i : grid0.Coords) (hc : ¬cond0 i) (arg2 : Memref sig .tc .vmem S1x1024x512 .f32) (harg2 : arg2.IsWhole) (arg3 : Memref sig .tc .vmem S512x20 .f32) (harg3 : arg3.IsWhole) (arg4 : Memref sig .tc .vmem S1x20 .f32) (harg4 : arg4.IsWhole) (arg5 : Memref sig .tc .vmem S1x20 .f32) (harg5 : arg5.IsWhole) (arg6 : Memref sig .tc .vmem S1x20 .f32) (harg6 : arg6.IsWhole) (arg7 : Memref sig .tc .vmem S512x512 .f32) (harg7 : arg7.IsWhole) (arg8 : Memref sig .tc .vmem S1x1024x20 .f32) (harg8 : arg8.IsWhole) (arg9 : Memref sig .tc .vmem S1x20x512 .f32) (harg9 : arg9.IsWhole) (arg10 : Memref sig .tc .vmem S20x512 .f32) (harg10 : arg10.IsWhole)
    (x0 : Vec F S1x1024x512 .f32) (x1 : Vec F S512x20 .f32) (x2 x3 x4 : Vec F S1x20 .f32) (x5 : Vec F S512x512 .f32) (a : Vec F S20x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ owns (c : Thread nD τ) arg10 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (attnOut x0 x1 x2 x3 x4) ∗ owns (c : Thread nD τ) arg9 fullShare (splatNext x0 x1 x2 x3 x4 x5 a)
            ∗ owns (c : Thread nD τ) arg10 fullShare (accNext x0 x1 x2 x3 x4 x5 a)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  subst hf0; subst hf1; subst hf2; subst hf3; subst hf4; subst hf5; subst hf8
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_a (F := F) _)
  isplitl [H7]
  · iexists _; isplitr
    swap; · iexact H7
    ipureintro
    rw [View.read_writes_eq_canon _ _ _ (cover_o (F := F) _)]
    simp only [View.readCov_cons_toLoadRect]
    rfl
  iexists _; isplitr
  swap; · iexact H8
  ipureintro
  rw [View.read_writes_eq_canon _ _ _ (cover_s (F := F) _ _)]
  rfl

end Cert.Kernel.Hand

end
-- ==== Proof.BitsRegion0Dat.lean ====
/-
  The first kernel region's proof data: what the two output blocks and the carried scratch hold after each grid
  point, by recursion over the points (reset at the first tile of every batch row), the region invariant that
  carries the scratch from one point to the next, and the body obligation at every point.
-/
import proofs.«161355_j43224550867593_1_alg».proof.Proof.BitsRegion0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the splat block and the scratch hold after each point -/

/-- The splat block and the scratch after the body at position `n`: at a row's first tile (`n ≡ 0 mod 8`) from the
    input blocks alone, at a later tile from the blocks and what the scratch held after position `n - 1`. -/
def outsAt0 (c : Dev nD) : (n : ℕ) → n < cfg0.N → Vec F S1x20x512 .f32 × Vec F S20x512 .f32
  | 0, hn => (splatFirst (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), accFirst (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if (n + 1) % 8 = 0 then
      (splatFirst (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), accFirst (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      (splatNext (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2,
       accNext (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)

/-- At a row's first tile. -/
theorem outsAt0_first (c : Dev nD) (t : Fin cfg0.N) (h0 : t.val % 8 = 0) :
    outsAt0 V c t.val t.isLt = (splatFirst (iblk0 V c 0 t) (iblk0 V c 1 t) (iblk0 V c 2 t) (iblk0 V c 3 t) (iblk0 V c 4 t) (iblk0 V c 5 t), accFirst (iblk0 V c 0 t) (iblk0 V c 1 t) (iblk0 V c 2 t) (iblk0 V c 3 t) (iblk0 V c 4 t) (iblk0 V c 5 t)) := by
  obtain ⟨n, hn⟩ := t
  cases n with
  | zero => rfl
  | succ n => exact if_pos h0

/-- At a later tile. -/
theorem outsAt0_next (c : Dev nD) (t : Fin cfg0.N) (h0 : ¬t.val % 8 = 0) :
    outsAt0 V c t.val t.isLt = (splatNext (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2,
      accNext (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact absurd (Nat.zero_mod _) h0
  | succ n => exact if_neg h0

/-! ## The region invariant: the scratch carried between points -/

/-- The scratch operand: a whole scoped buffer of the kernel's own. -/
abbrev scM0 : Memref sig .tc .vmem S20x512 .f32 := Memref.whole cc0_scratch0

/-- The core's scoped buffers that are neither this region's staging buffers nor its scratch, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant with the scratch held as `S`: the scratch, the other scoped buffers, the generator register. -/
def phiWith (c : Dev nD) (S : sProp 𝕄) : sProp 𝕄 :=
  iprop(iprop(S ∗ others0 (F := F) c) ∗ (∃ r, prngReg c r))

/-- The class invariant (every scoped buffer the region does not stage at anything, the generator register at some
    state) is `phiWith` of the scratch at anything. -/
theorem PhiA0_eq (c : Dev nD) :
    (Pipeline.ΦA spec0 c : sProp 𝕄) = phiWith c iprop(∃ d, owns (c : Thread nD τ) scM0 fullShare d) := by
  unfold Pipeline.ΦA phiWith others0; rw [scopedRest0_eq]; simp only [scM0, owns_whole]; try rfl

/-- The invariant before position `n`: before the first point the class's; afterwards the scratch at what the point
    before left in it. -/
def PhiS (c : Dev nD) : (n : ℕ) → n ≤ cfg0.N → sProp 𝕄
  | 0, _ => Pipeline.ΦA spec0 c
  | n + 1, hn => phiWith c (owns (c : Thread nD τ) scM0 fullShare ((outsAt0 V c n hn).2))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = phiWith c (owns (c : Thread nD τ) scM0 fullShare ((outsAt0 V c n hn).2)) := rfl
theorem PhiS_pos (c : Dev nD) (n : ℕ) (h : n ≤ cfg0.N) (hz : n ≠ 0) :
    PhiS V c n h = phiWith c (owns (c : Thread nD τ) scM0 fullShare ((outsAt0 V c (n - 1) (by omega)).2)) := by
  cases n with
  | zero => exact absurd rfl hz
  | succ n => rfl

/-! ## The region's proof data -/

/-- After the body at point `t`: each input's buffer at its block, the weights block at `attnOut` of the input
    blocks, the splat block at the recursion's first component; the invariant carries the scratch; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => attnOut (iblk0 V c 0 t) (iblk0 V c 1 t) (iblk0 V c 2 t) (iblk0 V c 3 t) (iblk0 V c 4 t)
    | ⟨7, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = attnOut (iblk0 V c 0 t) (iblk0 V c 1 t) (iblk0 V c 2 t) (iblk0 V c 3 t) (iblk0 V c 4 t) := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks; the closed form says whether the point is a row's
    first tile; the invariant hands the body the scratch (at anything before the very first point, else at what the
    point before left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5, after0_6, after0_7]
  by_cases h0 : t.val % 8 = 0
  · rw [outsAt0_first V c t h0]
    by_cases hz : t.val = 0
    · rw [PhiS_castSucc V c t, PhiS_zero V c _ _ hz, PhiA0_eq]
      unfold phiWith
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel0_first c Set.univ (grid0.coords t) ((hcond0 t).mpr h0) _ _ _ _ _ _ _ _ _ _ _ _ _ _ _ _ _ _ (iblk0 V c 0 t) (iblk0 V c 1 t) (iblk0 V c 2 t) (iblk0 V c 3 t) (iblk0 V c 4 t) (iblk0 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc V c t, PhiS_pos V c _ _ hz]
      unfold phiWith
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel0_first c Set.univ (grid0.coords t) ((hcond0 t).mpr h0) _ _ _ _ _ _ _ _ _ _ _ _ _ _ _ _ _ _ (iblk0 V c 0 t) (iblk0 V c 1 t) (iblk0 V c 2 t) (iblk0 V c 3 t) (iblk0 V c 4 t) (iblk0 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexists _; iexact HS
      iintro ⟨H0, H1, H2, H3, H4, H5, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · rw [outsAt0_next V c t h0]
    have hz : t.val ≠ 0 := fun h => h0 (by rw [h])
    rw [PhiS_castSucc V c t, PhiS_pos V c _ _ hz]
    unfold phiWith
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_next c Set.univ (grid0.coords t) (fun h => h0 ((hcond0 t).mp h)) _ _ _ _ _ _ _ _ _ _ _ _ _ _ _ _ _ _ (iblk0 V c 0 t) (iblk0 V c 1 t) (iblk0 V c 2 t) (iblk0 V c 3 t) (iblk0 V c 4 t) (iblk0 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  unfold phiWith
  iintro ⟨⟨HS, Hoth⟩, Hg⟩
  isplitl [HS Hoth]
  · isplitl [HS]; · iexists _; iexact HS
    iexact Hoth
  iexact Hg

end Cert.Kernel.Hand

end
-- ==== Proof.BitsRegion1.lean ====
/-
  The second kernel region (the tokens' projection), at any float instance and at any contents `V` of the
  core's buffers when the region is entered: at each grid point the body reads the three input blocks whole and
  writes the output block whole, so what the output's staging buffer holds after the body is one function of the
  three blocks; the region keeps nothing between points.
-/
import proofs.«161355_j43224550867593_1_alg».proof.Proof.Gen.Kernel.Launch
import proofs.«161355_j43224550867593_1_alg».proof.Proof.Gen.Kernel.Skeleton
import proofs.«161355_j43224550867593_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev rB_a : Rect S1x1024x20 := Rect.unit (s := S1x1024x20) ![0, 0, 0] S1x1024x20.size inb_S1x1024x20_S1x1024x20_0_0_0
abbrev rB_s : Rect S1x20x512 := Rect.unit (s := S1x20x512) ![0, 0, 0] S1x20x512.size inb_S1x20x512_S1x20x512_0_0_0
abbrev rB_w : Rect S512x512 := Rect.unit (s := S512x512) ![0, 0] S512x512.size inb_S512x512_S512x512_0_0
abbrev rB_o : Rect S1x1024x512 := Rect.unit (s := S1x1024x512) ![0, 0, 0] S1x1024x512.size inb_S1x1024x512_S1x1024x512_0_0_0

/-- The output's staging buffer after the body, from the three input blocks: its one store. -/
def out1_3 (x0 : Vec F S1x1024x20 .f32) (x1 : Vec F S1x20x512 .f32) (x2 : Vec F S512x512 .f32) : Vec F S1x1024x512 .f32 :=
  View.canon [⟨rB_o, k1_pay1 (View.ld x0 rB_a) (View.ld x1 rB_s) (View.ld x2 rB_w)⟩]

/-- The store covers the buffer. -/
theorem cover1_3 (p0 : Vec F S1x1024x512 .f32) (y : S1x1024x512.Idx) :
    ∃ pc ∈ ([⟨rB_o, p0⟩] : List (View.Piece (Elt F) S1x1024x512 .f32)), y ∈ pc.1.set :=
  View.cover_of_tiled [⟨rB_o, p0⟩] S1x1024x512.size (by rfl) y

/-! ## The body's triple -/

set_option maxHeartbeats 1000000 in
/-- On whole staging memrefs, the inputs' at contents `x0 x1 x2` and the output's at anything, the body runs to the
    continuation holding the inputs' as they were and the output's at `out1_3` of them. -/
theorem sound_kernel1 (c : Dev nD) (E : Set ℕ) (i : grid1.Coords) (arg2 : Memref sig .tc .vmem S1x1024x20 .f32) (harg2 : arg2.IsWhole) (arg3 : Memref sig .tc .vmem S1x20x512 .f32) (harg3 : arg3.IsWhole) (arg4 : Memref sig .tc .vmem S512x512 .f32) (harg4 : arg4.IsWhole) (arg5 : Memref sig .tc .vmem S1x1024x512 .f32) (harg5 : arg5.IsWhole)
    (x0 : Vec F S1x1024x20 .f32) (x1 : Vec F S1x20x512 .f32) (x2 : Vec F S512x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__kernel_b i arg2 harg2 arg3 harg3 arg4 harg4 arg5 harg5) K := by
  simp only [cc1__kernel_b_eq_skeleton]; unfold cc1__kernel_b_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- After the body at point `t` each input's buffer holds its block and the output's `out1_3` of the input
    blocks; the invariant is the scoped rest and the generator register, untouched; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole run of the program: one stretch of host operations, then the two kernel regions. The contents of the
  core's buffers at each boundary are a fold from the launch memory: after the host stretch; after the first
  region (its arrays at what its write-backs leave, every other buffer as entered); after the second region.
  Every weakly fair execution terminates with every unscoped buffer at the last boundary's contents.
-/
import proofs.«161355_j43224550867593_1_alg».proof.Proof.BitsRegion0Dat
import proofs.«161355_j43224550867593_1_alg».proof.Proof.BitsRegion1
import proofs.«161355_j43224550867593_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- After the host stretch (the first region's entry). -/
abbrev Wh : Dev nD → Valuation τ sig (Elt F) := fun c => StableHlo.after hostOps0 (fun b => m (c, b))
abbrev Vh : (c : Dev nD) → (b : Ref sig .tc) → Buf (Elt F) ((c : Thread nD τ).loc b) := fun c b => Wh m c b
/-- After the first region (the second region's entry). -/
def Wa (c : Dev nD) : Valuation τ sig (Elt F) :=
  Pipeline.withArrays spec0 c (Wh m c) fun w => (dat0 (Vh m) c).arrAt w cfg0.N
theorem Wa_arr (c : Dev nD) (w : Fin cfg0.W) :
    Wa m c (Proc.devRef .tc (Pipeline.arrRef spec0 w)) = (dat0 (Vh m) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m c (Proc.devRef .tc b) = Wh m c (Proc.devRef .tc b) := by
  unfold Wa; exact Pipeline.withArrays_of_ne spec0 c _ _ b hb
abbrev Va : (c : Dev nD) → (b : Ref sig .tc) → Buf (Elt F) ((c : Thread nD τ).loc b) := fun c b => Wa m c b
theorem hF0 (c : Dev nD) (w : Fin cfg0.W) : (dat0 (Vh m) c).arrAt w cfg0.N = Va m c (Pipeline.arrRef spec0 w) :=
  (Wa_arr m c w).symm
theorem hrest0 (c : Dev nD) : ∀ b, b ∉ Finset.univ.image (Pipeline.arrRef spec0) → Va m c b = Vh m c b :=
  fun b hb => Wa_of_ne m c b fun w e => hb (Finset.mem_image.mpr ⟨w, Finset.mem_univ _, e⟩)
/-- After the second region (the end). -/
def Wb (c : Dev nD) : Valuation τ sig (Elt F) :=
  Pipeline.withArrays spec1 c (Wa m c) fun w => (dat1 (Va m) c).arrAt w cfg1.N
theorem Wb_arr (c : Dev nD) (w : Fin cfg1.W) :
    Wb m c (Proc.devRef .tc (Pipeline.arrRef spec1 w)) = (dat1 (Va m) c).arrAt w cfg1.N := by
  unfold Wb; exact Pipeline.withArrays_arr spec1 launch1.win.arr_inj c _ _ w
theorem Wb_of_ne (c : Dev nD) (b : Ref sig .tc) (hb : ∀ w, Pipeline.arrRef spec1 w ≠ b) :
    Wb m c (Proc.devRef .tc b) = Wa m c (Proc.devRef .tc b) := by
  unfold Wb; exact Pipeline.withArrays_of_ne spec1 c _ _ b hb
abbrev Vb : (c : Dev nD) → (b : Ref sig .tc) → Buf (Elt F) ((c : Thread nD τ).loc b) := fun c b => Wb m c b
theorem hF1 (c : Dev nD) (w : Fin cfg1.W) : (dat1 (Va m) c).arrAt w cfg1.N = Vb m c (Pipeline.arrRef spec1 w) :=
  (Wb_arr m c w).symm
theorem hrest1 (c : Dev nD) : ∀ b, b ∉ Finset.univ.image (Pipeline.arrRef spec1) → Vb m c b = Va m c b :=
  fun b hb => Wb_of_ne m c b fun w e => hb (Finset.mem_image.mpr ⟨w, Finset.mem_univ _, e⟩)

/-! ## The arguments end as launched -/

/-- The first argument is the first region's first input window: read back through both regions and the host
    stretch it holds its launch contents. -/
theorem Wb_main_arg0 (c : Dev nD) : Wb m c (Proc.devRef .tc main_arg0) = m ((c : Thread nD τ).loc main_arg0) :=
  calc Wb m c (Proc.devRef .tc main_arg0)
    _ = Wa m c (Proc.devRef .tc main_arg0) := Wb_of_ne m c main_arg0 (by decide)
    _ = Wh m c (Proc.devRef .tc main_arg0) := (Wa_arr m c 0).trans (((dat0 (Vh m) c).arrAt_in 0 rfl _).trans (A_eq0 (Vh m) c 0))
    _ = m ((c : Thread nD τ).loc main_arg0) := V1_of m c main_arg0 (by decide)
/-- No region stages argument 1 and no host operation writes it. -/
theorem Wb_main_arg1 (c : Dev nD) : Wb m c (Proc.devRef .tc main_arg1) = m ((c : Thread nD τ).loc main_arg1) :=
  calc Wb m c (Proc.devRef .tc main_arg1)
    _ = Wa m c (Proc.devRef .tc main_arg1) := Wb_of_ne m c main_arg1 (by decide)
    _ = Wh m c (Proc.devRef .tc main_arg1) := Wa_of_ne m c main_arg1 (by decide)
    _ = m ((c : Thread nD τ).loc main_arg1) := V1_of m c main_arg1 (by decide)
/-- No region stages argument 2 and no host operation writes it. -/
theorem Wb_main_arg2 (c : Dev nD) : Wb m c (Proc.devRef .tc main_arg2) = m ((c : Thread nD τ).loc main_arg2) :=
  calc Wb m c (Proc.devRef .tc main_arg2)
    _ = Wa m c (Proc.devRef .tc main_arg2) := Wb_of_ne m c main_arg2 (by decide)
    _ = Wh m c (Proc.devRef .tc main_arg2) := Wa_of_ne m c main_arg2 (by decide)
    _ = m ((c : Thread nD τ).loc main_arg2) := V1_of m c main_arg2 (by decide)
/-- No region stages argument 3 and no host operation writes it. -/
theorem Wb_main_arg3 (c : Dev nD) : Wb m c (Proc.devRef .tc main_arg3) = m ((c : Thread nD τ).loc main_arg3) :=
  calc Wb m c (Proc.devRef .tc main_arg3)
    _ = Wa m c (Proc.devRef .tc main_arg3) := Wb_of_ne m c main_arg3 (by decide)
    _ = Wh m c (Proc.devRef .tc main_arg3) := Wa_of_ne m c main_arg3 (by decide)
    _ = m ((c : Thread nD τ).loc main_arg3) := V1_of m c main_arg3 (by decide)
/-- No region stages argument 4 and no host operation writes it. -/
theorem Wb_main_arg4 (c : Dev nD) : Wb m c (Proc.devRef .tc main_arg4) = m ((c : Thread nD τ).loc main_arg4) :=
  calc Wb m c (Proc.devRef .tc main_arg4)
    _ = Wa m c (Proc.devRef .tc main_arg4) := Wb_of_ne m c main_arg4 (by decide)
    _ = Wh m c (Proc.devRef .tc main_arg4) := Wa_of_ne m c main_arg4 (by decide)
    _ = m ((c : Thread nD τ).loc main_arg4) := V1_of m c main_arg4 (by decide)
/-- No region stages argument 5 and no host operation writes it. -/
theorem Wb_main_arg5 (c : Dev nD) : Wb m c (Proc.devRef .tc main_arg5) = m ((c : Thread nD τ).loc main_arg5) :=
  calc Wb m c (Proc.devRef .tc main_arg5)
    _ = Wa m c (Proc.devRef .tc main_arg5) := Wb_of_ne m c main_arg5 (by decide)
    _ = Wh m c (Proc.devRef .tc main_arg5) := Wa_of_ne m c main_arg5 (by decide)
    _ = m ((c : Thread nD τ).loc main_arg5) := V1_of m c main_arg5 (by decide)

/-- The result is the second region's output array at what its write-backs leave. -/
theorem Wb_main_v11 (c : Dev nD) : Wb m c (Proc.devRef .tc main_v11) = (dat1 (Va m) c).arrAt 3 cfg1.N :=
  Wb_arr m c 3

/-! ## The proof data family and the thread state -/

/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vh m) c
  | ⟨1, _⟩ => fun c => dat1 (Va m) c
abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every segment: the generator register at some state and nothing owed. -/
abbrev Rh (c : Dev nD) : sProp 𝕄 := iprop((∃ r, prngReg c r) ∗ ∃ W, owes (c : Thread nD τ) (0 : CellTallies nD τ sig Unit) W)
/-- The host stretch as a segment. -/
abbrev hsegh : Pipeline.HostSeg (Name := ℕ) (U := UR sig nD τ) (pcfgs (F := F)) defs₀ 𝒱h Lh lvh :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) Rh
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tlast (c : Dev nD) : sProp 𝕄 := iprop(StableHlo.held (c : Thread nD τ) (Pipeline.ucRefs τ sig) (Wb m c) ∗ ∃ r, prngReg c r)

/-! ## The regions as segments -/

set_option backward.isDefEq.respectTransparency.types false in
/-- Region 0 as a segment: entered from every unscoped buffer at the boundary's contents before it and left at the
    contents after it; its arrays split out of the unscoped buffers and put back at what the write-backs leave; the
    generator register into the invariant and out; nothing owed; no semaphore of the kernel's own. -/
def reg0 : Pipeline.RegionSeg (pcfgs (F := F)) adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Vh m) c).loose
  hwaits := Pipeline.hwaits_of_owed_zero _ _ _ _ Lh lvh 0 fun _ _ => rfl
  pre c := iprop(StableHlo.held (c : Thread nD τ) (Pipeline.ucRefs τ sig) (Wh m c) ∗ Rh c)
  post c := iprop(StableHlo.held (c : Thread nD τ) (Pipeline.ucRefs τ sig) (Wa m c) ∗ Rh c)
  X c := iprop(∃ r, prngReg c r)
  Y c := iprop(∃ r, prngReg c r)
  Z c := Pipeline.unscopedRest (Ix := Unit) (Name := ℕ) (U := UR sig nD τ) (Lvl := ℕ) spec0 c (Vh m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (Vh m) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vh m c) (Va m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the boundary's contents before it and left at the
    contents after it; its arrays split out of the unscoped buffers and put back at what the write-backs leave; the
    generator register into the invariant and out; nothing owed; no semaphore of the kernel's own. -/
def reg1 : Pipeline.RegionSeg (pcfgs (F := F)) adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Va m) c).loose
  hwaits := Pipeline.hwaits_of_owed_zero _ _ _ _ Lh lvh 1 fun _ _ => rfl
  pre c := iprop(StableHlo.held (c : Thread nD τ) (Pipeline.ucRefs τ sig) (Wa m c) ∗ Rh c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Va m c) (Vb m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsh : List (Pipeline.Seg (pcfgs (F := F)) adm (pdats m) () defs₀ 𝒱h Lh lvh) :=
  [ .host (hsegh m), .region (reg0 m), .region (reg1 m) ]
theorem main_run (c : Dev nD) : main (F := F) c = Pipeline.Seg.run (segsh m) := (main_chain c).trans (by chain_rfl)

variable (ρ : Dev nD → PrngReg)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb m c b) :=
  Pipeline.θ_run_regions_kit (pcfgs (F := F)) adm (pdats m) () cellOf_inj emb₁ defs₀ 𝒱h Lh lvh m ρ main (segsh m)
    (fun c Q => by rw [main_run m c])
    (by simp only [segsh, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ Rh c)) (Tₙ := Tlast m)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb m c b)
    (hfin := fun c s' => by
      iintro ⟨⟨Hh, -⟩, HSI⟩
      unfold StableHlo.held
      imodintro
      iapply (pointsTo_read_all (Pipeline.ucRefs τ sig) (fun b => (((c : Thread nD τ)).1, b)) (Wb m c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Wb_main_arg0 m c),
     (h c _ (mem_uc main_arg1 (by decide))).trans (Wb_main_arg1 m c),
     (h c _ (mem_uc main_arg2 (by decide))).trans (Wb_main_arg2 m c),
     (h c _ (mem_uc main_arg3 (by decide))).trans (Wb_main_arg3 m c),
     (h c _ (mem_uc main_arg4 (by decide))).trans (Wb_main_arg4 m c),
     (h c _ (mem_uc main_arg5 (by decide))).trans (Wb_main_arg5 m c)⟩) (run_all m ρ)

/-- The run with the result named: the result array ends at what the second region's write-backs leave, and every
    argument array at its launch contents. -/
theorem run_result : θ_run defs (onTc (τ := τ) (main (F := F))) ⟨m, fun _ => 0, ρ⟩ (fun r => ∀ c : Dev nD,
      r.2.mem ((c.tc : Thread nD τ).loc main_v11) = (dat1 (Va m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v11 (by decide))).trans (Wb_main_v11 m c),
     (h c _ (mem_uc main_arg0 (by decide))).trans (Wb_main_arg0 m c),
     (h c _ (mem_uc main_arg1 (by decide))).trans (Wb_main_arg1 m c),
     (h c _ (mem_uc main_arg2 (by decide))).trans (Wb_main_arg2 m c),
     (h c _ (mem_uc main_arg3 (by decide))).trans (Wb_main_arg3 m c),
     (h c _ (mem_uc main_arg4 (by decide))).trans (Wb_main_arg4 m c),
     (h c _ (mem_uc main_arg5 (by decide))).trans (Wb_main_arg5 m c)⟩) (run_all m ρ)

end Cert.Kernel.Hand

end
-- ==== Proof.IdealRegion0.lean ====
/-
  The first kernel region (the normalised weights of a tile of 1024 tokens, and the running sum of
  weightsᵀ · values kept in a scratch buffer), at any float instance and at any contents `V` of the core's
  buffers when the region is entered.

  The grid is 4 batch rows × 8 tiles. At the first tile of a row the body zeroes the scratch; at every tile it
  writes the weights block whole, adds the tile's contribution to the scratch, and copies the scratch into the
  splat block. So the weights block after the body is one function of the input blocks, while the scratch and the
  splat block after the body at a point are a function of the input blocks and of what the scratch held after the
  point before: a recursion over the grid's points, reset at every eighth point.
-/
import proofs.«161355_j43224550867593_1_alg».proof.Proof.Gen.KernelIdeal.Launch
import proofs.«161355_j43224550867593_1_alg».proof.Proof.Gen.KernelIdeal.Skeleton
import proofs.«161355_j43224550867593_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch: the scratch is zeroed at the first tile of a batch row -/

/-- The condition of the body's one branch, from the grid coordinates. -/
abbrev cond0 (i : grid0.Coords) : Prop := (Scalar.cmpi .ne (Scalar.extui (Scalar.cmpi .eq (BitVec.ofNat 32 (i 1).val) 0#32)) 0#32) = 1#1
/-- It holds at the points ≡ 0 (mod 8): the first tile of each batch row. -/
theorem hcond0 : ∀ t : Fin cfg0.N, cond0 (grid0.coords t) ↔ t.val % 8 = 0 :=
  (by decide +kernel : ∀ t : Fin grid0.N, cond0 (grid0.coords t) ↔ t.val % 8 = 0)

/-! ## The body's accesses: each buffer is read or written whole -/

abbrev rA_x : Rect S1x1024x512 := Rect.unit (s := S1x1024x512) ![0, 0, 0] S1x1024x512.size inb_S1x1024x512_S1x1024x512_0_0_0
abbrev rA_p : Rect S512x20 := Rect.unit (s := S512x20) ![0, 0] S512x20.size inb_S512x20_S512x20_0_0
abbrev rA_r : Rect S1x20 := Rect.unit (s := S1x20) ![0, 0] S1x20.size inb_S1x20_S1x20_0_0
abbrev rA_w : Rect S512x512 := Rect.unit (s := S512x512) ![0, 0] S512x512.size inb_S512x512_S512x512_0_0
abbrev rA_a : Rect S1x1024x20 := Rect.unit (s := S1x1024x20) ![0, 0, 0] S1x1024x20.size inb_S1x1024x20_S1x1024x20_0_0_0
abbrev rA_o : Rect S1x20x512 := Rect.unit (s := S1x20x512) ![0, 0, 0] S1x20x512.size inb_S1x20x512_S1x20x512_0_0_0
abbrev rA_s : Rect S20x512 := Rect.unit (s := S20x512) ![0, 0] S20x512.size inb_S20x512_S20x512_0_0

/-! ## What the body leaves, as functions of the input blocks -/

/-- The normalised weights the body stores, from the five blocks it depends on. -/
def attnPay (x0 : Vec F S1x1024x512 .f32) (x1 : Vec F S512x20 .f32) (x2 x3 x4 : Vec F S1x20 .f32) : FVec F S1x1024x20 .f32 :=
  k0_pay2 (k0_pay8 (View.ld x0 rA_x) (View.ld x1 rA_p) (View.ld x2 rA_r) (View.ld x3 rA_r) (View.ld x4 rA_r))
    (k0_pay9 (View.ld x0 rA_x) (View.ld x1 rA_p) (View.ld x2 rA_r) (View.ld x3 rA_r) (View.ld x4 rA_r)) k0_pay10

/-- The scratch's new contents: what it held, `a`, plus the tile's weightsᵀ · values. -/
def accPay (x0 : Vec F S1x1024x512 .f32) (x1 : Vec F S512x20 .f32) (x2 x3 x4 : Vec F S1x20 .f32) (x5 : Vec F S512x512 .f32) (a : Vec F S20x512 .f32) : FVec F S20x512 .f32 :=
  k0_pay3 (k0_pay7 (View.ld x0 rA_x))
    (k0_pay8 (View.ld x0 rA_x) (View.ld x1 rA_p) (View.ld x2 rA_r) (View.ld x3 rA_r) (View.ld x4 rA_r))
    (k0_pay9 (View.ld x0 rA_x) (View.ld x1 rA_p) (View.ld x2 rA_r) (View.ld x3 rA_r) (View.ld x4 rA_r)) k0_pay10
    (View.ld x5 rA_w) a

/-- The weights block after the body: its one store. -/
def attnOut (x0 : Vec F S1x1024x512 .f32) (x1 : Vec F S512x20 .f32) (x2 x3 x4 : Vec F S1x20 .f32) : Vec F S1x1024x20 .f32 :=
  View.canon [⟨rA_a, attnPay x0 x1 x2 x3 x4⟩]
/-- The scratch after the body at a row's first tile: zeroed, then the contribution added. -/
def accFirst (x0 : Vec F S1x1024x512 .f32) (x1 : Vec F S512x20 .f32) (x2 x3 x4 : Vec F S1x20 .f32) (x5 : Vec F S512x512 .f32) : Vec F S20x512 .f32 :=
  View.canon [⟨rA_s, accPay x0 x1 x2 x3 x4 x5 (k0_pay5 (F := F))⟩, ⟨rA_s, k0_pay5 (F := F)⟩]
/-- The scratch after the body at a later tile, from what it held (`a`). -/
def accNext (x0 : Vec F S1x1024x512 .f32) (x1 : Vec F S512x20 .f32) (x2 x3 x4 : Vec F S1x20 .f32) (x5 : Vec F S512x512 .f32) (a : Vec F S20x512 .f32) : Vec F S20x512 .f32 :=
  View.canon [⟨rA_s, accPay x0 x1 x2 x3 x4 x5 (View.ld a rA_s)⟩]
/-- The splat block after the body: the scratch's new contents copied. -/
def splatFirst (x0 : Vec F S1x1024x512 .f32) (x1 : Vec F S512x20 .f32) (x2 x3 x4 : Vec F S1x20 .f32) (x5 : Vec F S512x512 .f32) : Vec F S1x20x512 .f32 :=
  View.canon [⟨rA_o, k0_pay4 (accPay x0 x1 x2 x3 x4 x5 (k0_pay5 (F := F)))⟩]
def splatNext (x0 : Vec F S1x1024x512 .f32) (x1 : Vec F S512x20 .f32) (x2 x3 x4 : Vec F S1x20 .f32) (x5 : Vec F S512x512 .f32) (a : Vec F S20x512 .f32) : Vec F S1x20x512 .f32 :=
  View.canon [⟨rA_o, k0_pay4 (accPay x0 x1 x2 x3 x4 x5 (View.ld a rA_s))⟩]

theorem List.mem_cons_of_mem_singleton {α : Type} {a b : α} {L : List α} (h : a ∈ [b]) : a ∈ b :: L := by
  rw [List.mem_singleton] at h; subst h; exact List.mem_cons.mpr (Or.inl rfl)

/-- Every index of a buffer lies in its whole rectangle. -/
theorem cover_a (p0 : Vec F S1x1024x20 .f32) (y : S1x1024x20.Idx) :
    ∃ pc ∈ ([⟨rA_a, p0⟩] : List (View.Piece (Elt F) S1x1024x20 .f32)), y ∈ pc.1.set :=
  View.cover_of_tiled [⟨rA_a, p0⟩] S1x1024x20.size (by rfl) y
theorem cover_o (p0 : Vec F S1x20x512 .f32) (y : S1x20x512.Idx) :
    ∃ pc ∈ ([⟨rA_o, p0⟩] : List (View.Piece (Elt F) S1x20x512 .f32)), y ∈ pc.1.set :=
  View.cover_of_tiled [⟨rA_o, p0⟩] S1x20x512.size (by rfl) y
theorem cover_s1 (p0 : Vec F S20x512 .f32) (y : S20x512.Idx) :
    ∃ pc ∈ ([⟨rA_s, p0⟩] : List (View.Piece (Elt F) S20x512 .f32)), y ∈ pc.1.set :=
  View.cover_of_tiled [⟨rA_s, p0⟩] S20x512.size (by rfl) y
theorem cover_s (p0 : Vec F S20x512 .f32) (L : List (View.Piece (Elt F) S20x512 .f32)) (y : S20x512.Idx) :
    ∃ pc ∈ ((⟨rA_s, p0⟩ : View.Piece (Elt F) S20x512 .f32) :: L), y ∈ pc.1.set := by
  obtain ⟨pc, hm, hy⟩ := cover_s1 p0 y
  exact ⟨pc, List.mem_cons_of_mem_singleton hm, hy⟩

/-! ## The body's triples: the first tile of a row, and a later tile -/

set_option maxHeartbeats 2000000 in
/-- At a row's first tile: on whole memrefs, the inputs' at their contents, the outputs' and the scratch at anything,
    the body runs to the continuation holding the inputs' as they were, the weights block at `attnOut`, the splat block
    at `splatFirst` and the scratch at `accFirst`. -/
theorem sound_kernel0_first (c : Dev nD) (E : Set ℕ) (i : grid0.Coords) (hc : cond0 i) (arg2 : Memref sig .tc .vmem S1x1024x512 .f32) (harg2 : arg2.IsWhole) (arg3 : Memref sig .tc .vmem S512x20 .f32) (harg3 : arg3.IsWhole) (arg4 : Memref sig .tc .vmem S1x20 .f32) (harg4 : arg4.IsWhole) (arg5 : Memref sig .tc .vmem S1x20 .f32) (harg5 : arg5.IsWhole) (arg6 : Memref sig .tc .vmem S1x20 .f32) (harg6 : arg6.IsWhole) (arg7 : Memref sig .tc .vmem S512x512 .f32) (harg7 : arg7.IsWhole) (arg8 : Memref sig .tc .vmem S1x1024x20 .f32) (harg8 : arg8.IsWhole) (arg9 : Memref sig .tc .vmem S1x20x512 .f32) (harg9 : arg9.IsWhole) (arg10 : Memref sig .tc .vmem S20x512 .f32) (harg10 : arg10.IsWhole)
    (x0 : Vec F S1x1024x512 .f32) (x1 : Vec F S512x20 .f32) (x2 x3 x4 : Vec F S1x20 .f32) (x5 : Vec F S512x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (attnOut x0 x1 x2 x3 x4) ∗ owns (c : Thread nD τ) arg9 fullShare (splatFirst x0 x1 x2 x3 x4 x5)
            ∗ owns (c : Thread nD τ) arg10 fullShare (accFirst x0 x1 x2 x3 x4 x5)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0; subst hf1; subst hf2; subst hf3; subst hf4; subst hf5
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_a (F := F) _)
  isplitl [H7]
  · iexists _; isplitr
    swap; · iexact H7
    ipureintro
    rw [View.read_writes_eq_canon _ _ _ (cover_o (F := F) _)]
    simp only [View.readCov_cons_toLoadRect]
    rfl
  iexists _; isplitr
  swap; · iexact H8
  ipureintro
  rw [View.read_writes_eq_canon _ _ _ (cover_s (F := F) _ _)]
  simp only [View.readCov_cons_toLoadRect]
  rfl

set_option maxHeartbeats 2000000 in
/-- At a later tile: the same with the scratch handed over at `a`, what the point before left, and given back at
    `accNext … a`. -/
theorem sound_kernel0_next (c : Dev nD) (E : Set ℕ) (i : grid0.Coords) (hc : ¬cond0 i) (arg2 : Memref sig .tc .vmem S1x1024x512 .f32) (harg2 : arg2.IsWhole) (arg3 : Memref sig .tc .vmem S512x20 .f32) (harg3 : arg3.IsWhole) (arg4 : Memref sig .tc .vmem S1x20 .f32) (harg4 : arg4.IsWhole) (arg5 : Memref sig .tc .vmem S1x20 .f32) (harg5 : arg5.IsWhole) (arg6 : Memref sig .tc .vmem S1x20 .f32) (harg6 : arg6.IsWhole) (arg7 : Memref sig .tc .vmem S512x512 .f32) (harg7 : arg7.IsWhole) (arg8 : Memref sig .tc .vmem S1x1024x20 .f32) (harg8 : arg8.IsWhole) (arg9 : Memref sig .tc .vmem S1x20x512 .f32) (harg9 : arg9.IsWhole) (arg10 : Memref sig .tc .vmem S20x512 .f32) (harg10 : arg10.IsWhole)
    (x0 : Vec F S1x1024x512 .f32) (x1 : Vec F S512x20 .f32) (x2 x3 x4 : Vec F S1x20 .f32) (x5 : Vec F S512x512 .f32) (a : Vec F S20x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ owns (c : Thread nD τ) arg10 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (attnOut x0 x1 x2 x3 x4) ∗ owns (c : Thread nD τ) arg9 fullShare (splatNext x0 x1 x2 x3 x4 x5 a)
            ∗ owns (c : Thread nD τ) arg10 fullShare (accNext x0 x1 x2 x3 x4 x5 a)) -∗ K ⟨⟩))
      ⊢ wp frame (wpE (defs₀ (F := F)) Variants.none c none) E (cc0__kernel_a i arg2 harg2 arg3 harg3 arg4 harg4 arg5 harg5 arg6 harg6 arg7 harg7 arg8 harg8 arg9 harg9 arg10 harg10) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  subst hf0; subst hf1; subst hf2; subst hf3; subst hf4; subst hf5; subst hf8
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_a (F := F) _)
  isplitl [H7]
  · iexists _; isplitr
    swap; · iexact H7
    ipureintro
    rw [View.read_writes_eq_canon _ _ _ (cover_o (F := F) _)]
    simp only [View.readCov_cons_toLoadRect]
    rfl
  iexists _; isplitr
  swap; · iexact H8
  ipureintro
  rw [View.read_writes_eq_canon _ _ _ (cover_s (F := F) _ _)]
  rfl

end Cert.KernelIdeal.Hand

end
-- ==== Proof.IdealRegion0Dat.lean ====
/-
  The first kernel region's proof data: what the two output blocks and the carried scratch hold after each grid
  point, by recursion over the points (reset at the first tile of every batch row), the region invariant that
  carries the scratch from one point to the next, and the body obligation at every point.
-/
import proofs.«161355_j43224550867593_1_alg».proof.Proof.IdealRegion0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the splat block and the scratch hold after each point -/

/-- The splat block and the scratch after the body at position `n`: at a row's first tile (`n ≡ 0 mod 8`) from the
    input blocks alone, at a later tile from the blocks and what the scratch held after position `n - 1`. -/
def outsAt0 (c : Dev nD) : (n : ℕ) → n < cfg0.N → Vec F S1x20x512 .f32 × Vec F S20x512 .f32
  | 0, hn => (splatFirst (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), accFirst (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if (n + 1) % 8 = 0 then
      (splatFirst (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), accFirst (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      (splatNext (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2,
       accNext (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)

/-- At a row's first tile. -/
theorem outsAt0_first (c : Dev nD) (t : Fin cfg0.N) (h0 : t.val % 8 = 0) :
    outsAt0 V c t.val t.isLt = (splatFirst (iblk0 V c 0 t) (iblk0 V c 1 t) (iblk0 V c 2 t) (iblk0 V c 3 t) (iblk0 V c 4 t) (iblk0 V c 5 t), accFirst (iblk0 V c 0 t) (iblk0 V c 1 t) (iblk0 V c 2 t) (iblk0 V c 3 t) (iblk0 V c 4 t) (iblk0 V c 5 t)) := by
  obtain ⟨n, hn⟩ := t
  cases n with
  | zero => rfl
  | succ n => exact if_pos h0

/-- At a later tile. -/
theorem outsAt0_next (c : Dev nD) (t : Fin cfg0.N) (h0 : ¬t.val % 8 = 0) :
    outsAt0 V c t.val t.isLt = (splatNext (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2,
      accNext (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact absurd (Nat.zero_mod _) h0
  | succ n => exact if_neg h0

/-! ## The region invariant: the scratch carried between points -/

/-- The scratch operand: a whole scoped buffer of the kernel's own. -/
abbrev scM0 : Memref sig .tc .vmem S20x512 .f32 := Memref.whole cc0_scratch0

/-- The core's scoped buffers that are neither this region's staging buffers nor its scratch, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant with the scratch held as `S`: the scratch, the other scoped buffers, the generator register. -/
def phiWith (c : Dev nD) (S : sProp 𝕄) : sProp 𝕄 :=
  iprop(iprop(S ∗ others0 (F := F) c) ∗ (∃ r, prngReg c r))

/-- The class invariant (every scoped buffer the region does not stage at anything, the generator register at some
    state) is `phiWith` of the scratch at anything. -/
theorem PhiA0_eq (c : Dev nD) :
    (Pipeline.ΦA spec0 c : sProp 𝕄) = phiWith c iprop(∃ d, owns (c : Thread nD τ) scM0 fullShare d) := by
  unfold Pipeline.ΦA phiWith others0; rw [scopedRest0_eq]; simp only [scM0, owns_whole]; try rfl

/-- The invariant before position `n`: before the first point the class's; afterwards the scratch at what the point
    before left in it. -/
def PhiS (c : Dev nD) : (n : ℕ) → n ≤ cfg0.N → sProp 𝕄
  | 0, _ => Pipeline.ΦA spec0 c
  | n + 1, hn => phiWith c (owns (c : Thread nD τ) scM0 fullShare ((outsAt0 V c n hn).2))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = phiWith c (owns (c : Thread nD τ) scM0 fullShare ((outsAt0 V c n hn).2)) := rfl
theorem PhiS_pos (c : Dev nD) (n : ℕ) (h : n ≤ cfg0.N) (hz : n ≠ 0) :
    PhiS V c n h = phiWith c (owns (c : Thread nD τ) scM0 fullShare ((outsAt0 V c (n - 1) (by omega)).2)) := by
  cases n with
  | zero => exact absurd rfl hz
  | succ n => rfl

/-! ## The region's proof data -/

/-- After the body at point `t`: each input's buffer at its block, the weights block at `attnOut` of the input
    blocks, the splat block at the recursion's first component; the invariant carries the scratch; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => attnOut (iblk0 V c 0 t) (iblk0 V c 1 t) (iblk0 V c 2 t) (iblk0 V c 3 t) (iblk0 V c 4 t)
    | ⟨7, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = attnOut (iblk0 V c 0 t) (iblk0 V c 1 t) (iblk0 V c 2 t) (iblk0 V c 3 t) (iblk0 V c 4 t) := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks; the closed form says whether the point is a row's
    first tile; the invariant hands the body the scratch (at anything before the very first point, else at what the
    point before left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5, after0_6, after0_7]
  by_cases h0 : t.val % 8 = 0
  · rw [outsAt0_first V c t h0]
    by_cases hz : t.val = 0
    · rw [PhiS_castSucc V c t, PhiS_zero V c _ _ hz, PhiA0_eq]
      unfold phiWith
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel0_first c Set.univ (grid0.coords t) ((hcond0 t).mpr h0) _ _ _ _ _ _ _ _ _ _ _ _ _ _ _ _ _ _ (iblk0 V c 0 t) (iblk0 V c 1 t) (iblk0 V c 2 t) (iblk0 V c 3 t) (iblk0 V c 4 t) (iblk0 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc V c t, PhiS_pos V c _ _ hz]
      unfold phiWith
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel0_first c Set.univ (grid0.coords t) ((hcond0 t).mpr h0) _ _ _ _ _ _ _ _ _ _ _ _ _ _ _ _ _ _ (iblk0 V c 0 t) (iblk0 V c 1 t) (iblk0 V c 2 t) (iblk0 V c 3 t) (iblk0 V c 4 t) (iblk0 V c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexists _; iexact HS
      iintro ⟨H0, H1, H2, H3, H4, H5, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · rw [outsAt0_next V c t h0]
    have hz : t.val ≠ 0 := fun h => h0 (by rw [h])
    rw [PhiS_castSucc V c t, PhiS_pos V c _ _ hz]
    unfold phiWith
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_next c Set.univ (grid0.coords t) (fun h => h0 ((hcond0 t).mp h)) _ _ _ _ _ _ _ _ _ _ _ _ _ _ _ _ _ _ (iblk0 V c 0 t) (iblk0 V c 1 t) (iblk0 V c 2 t) (iblk0 V c 3 t) (iblk0 V c 4 t) (iblk0 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  unfold phiWith
  iintro ⟨⟨HS, Hoth⟩, Hg⟩
  isplitl [HS Hoth]
  · isplitl [HS]; · iexists _; iexact HS
    iexact Hoth
  iexact Hg

end Cert.KernelIdeal.Hand

end
-- ==== Proof.IdealRegion1.lean ====
/-
  The second kernel region (the tokens' projection), at any float instance and at any contents `V` of the
  core's buffers when the region is entered: at each grid point the body reads the three input blocks whole and
  writes the output block whole, so what the output's staging buffer holds after the body is one function of the
  three blocks; the region keeps nothing between points.
-/
import proofs.«161355_j43224550867593_1_alg».proof.Proof.Gen.KernelIdeal.Launch
import proofs.«161355_j43224550867593_1_alg».proof.Proof.Gen.KernelIdeal.Skeleton
import proofs.«161355_j43224550867593_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev rB_a : Rect S1x1024x20 := Rect.unit (s := S1x1024x20) ![0, 0, 0] S1x1024x20.size inb_S1x1024x20_S1x1024x20_0_0_0
abbrev rB_s : Rect S1x20x512 := Rect.unit (s := S1x20x512) ![0, 0, 0] S1x20x512.size inb_S1x20x512_S1x20x512_0_0_0
abbrev rB_w : Rect S512x512 := Rect.unit (s := S512x512) ![0, 0] S512x512.size inb_S512x512_S512x512_0_0
abbrev rB_o : Rect S1x1024x512 := Rect.unit (s := S1x1024x512) ![0, 0, 0] S1x1024x512.size inb_S1x1024x512_S1x1024x512_0_0_0

/-- The output's staging buffer after the body, from the three input blocks: its one store. -/
def out1_3 (x0 : Vec F S1x1024x20 .f32) (x1 : Vec F S1x20x512 .f32) (x2 : Vec F S512x512 .f32) : Vec F S1x1024x512 .f32 :=
  View.canon [⟨rB_o, k1_pay1 (View.ld x0 rB_a) (View.ld x1 rB_s) (View.ld x2 rB_w)⟩]

/-- The store covers the buffer. -/
theorem cover1_3 (p0 : Vec F S1x1024x512 .f32) (y : S1x1024x512.Idx) :
    ∃ pc ∈ ([⟨rB_o, p0⟩] : List (View.Piece (Elt F) S1x1024x512 .f32)), y ∈ pc.1.set :=
  View.cover_of_tiled [⟨rB_o, p0⟩] S1x1024x512.size (by rfl) y

/-! ## The body's triple -/

set_option maxHeartbeats 1000000 in
/-- On whole staging memrefs, the inputs' at contents `x0 x1 x2` and the output's at anything, the body runs to the
    continuation holding the inputs' as they were and the output's at `out1_3` of them. -/
theorem sound_kernel1 (c : Dev nD) (E : Set ℕ) (i : grid1.Coords) (arg2 : Memref sig .tc .vmem S1x1024x20 .f32) (harg2 : arg2.IsWhole) (arg3 : Memref sig .tc .vmem S1x20x512 .f32) (harg3 : arg3.IsWhole) (arg4 : Memref sig .tc .vmem S512x512 .f32) (harg4 : arg4.IsWhole) (arg5 : Memref sig .tc .vmem S1x1024x512 .f32) (harg5 : arg5.IsWhole)
    (x0 : Vec F S1x1024x20 .f32) (x1 : Vec F S1x20x512 .f32) (x2 : Vec F S512x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__kernel_b i arg2 harg2 arg3 harg3 arg4 harg4 arg5 harg5) K := by
  simp only [cc1__kernel_b_eq_skeleton]; unfold cc1__kernel_b_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- After the body at point `t` each input's buffer holds its block and the output's `out1_3` of the input
    blocks; the invariant is the scoped rest and the generator register, untouched; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole run of the program: one stretch of host operations, then the two kernel regions. The contents of the
  core's buffers at each boundary are a fold from the launch memory: after the host stretch; after the first
  region (its arrays at what its write-backs leave, every other buffer as entered); after the second region.
  Every weakly fair execution terminates with every unscoped buffer at the last boundary's contents.
-/
import proofs.«161355_j43224550867593_1_alg».proof.Proof.IdealRegion0Dat
import proofs.«161355_j43224550867593_1_alg».proof.Proof.IdealRegion1
import proofs.«161355_j43224550867593_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- After the host stretch (the first region's entry). -/
abbrev Wh : Dev nD → Valuation τ sig (Elt F) := fun c => StableHlo.after hostOps0 (fun b => m (c, b))
abbrev Vh : (c : Dev nD) → (b : Ref sig .tc) → Buf (Elt F) ((c : Thread nD τ).loc b) := fun c b => Wh m c b
/-- After the first region (the second region's entry). -/
def Wa (c : Dev nD) : Valuation τ sig (Elt F) :=
  Pipeline.withArrays spec0 c (Wh m c) fun w => (dat0 (Vh m) c).arrAt w cfg0.N
theorem Wa_arr (c : Dev nD) (w : Fin cfg0.W) :
    Wa m c (Proc.devRef .tc (Pipeline.arrRef spec0 w)) = (dat0 (Vh m) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m c (Proc.devRef .tc b) = Wh m c (Proc.devRef .tc b) := by
  unfold Wa; exact Pipeline.withArrays_of_ne spec0 c _ _ b hb
abbrev Va : (c : Dev nD) → (b : Ref sig .tc) → Buf (Elt F) ((c : Thread nD τ).loc b) := fun c b => Wa m c b
theorem hF0 (c : Dev nD) (w : Fin cfg0.W) : (dat0 (Vh m) c).arrAt w cfg0.N = Va m c (Pipeline.arrRef spec0 w) :=
  (Wa_arr m c w).symm
theorem hrest0 (c : Dev nD) : ∀ b, b ∉ Finset.univ.image (Pipeline.arrRef spec0) → Va m c b = Vh m c b :=
  fun b hb => Wa_of_ne m c b fun w e => hb (Finset.mem_image.mpr ⟨w, Finset.mem_univ _, e⟩)
/-- After the second region (the end). -/
def Wb (c : Dev nD) : Valuation τ sig (Elt F) :=
  Pipeline.withArrays spec1 c (Wa m c) fun w => (dat1 (Va m) c).arrAt w cfg1.N
theorem Wb_arr (c : Dev nD) (w : Fin cfg1.W) :
    Wb m c (Proc.devRef .tc (Pipeline.arrRef spec1 w)) = (dat1 (Va m) c).arrAt w cfg1.N := by
  unfold Wb; exact Pipeline.withArrays_arr spec1 launch1.win.arr_inj c _ _ w
theorem Wb_of_ne (c : Dev nD) (b : Ref sig .tc) (hb : ∀ w, Pipeline.arrRef spec1 w ≠ b) :
    Wb m c (Proc.devRef .tc b) = Wa m c (Proc.devRef .tc b) := by
  unfold Wb; exact Pipeline.withArrays_of_ne spec1 c _ _ b hb
abbrev Vb : (c : Dev nD) → (b : Ref sig .tc) → Buf (Elt F) ((c : Thread nD τ).loc b) := fun c b => Wb m c b
theorem hF1 (c : Dev nD) (w : Fin cfg1.W) : (dat1 (Va m) c).arrAt w cfg1.N = Vb m c (Pipeline.arrRef spec1 w) :=
  (Wb_arr m c w).symm
theorem hrest1 (c : Dev nD) : ∀ b, b ∉ Finset.univ.image (Pipeline.arrRef spec1) → Vb m c b = Va m c b :=
  fun b hb => Wb_of_ne m c b fun w e => hb (Finset.mem_image.mpr ⟨w, Finset.mem_univ _, e⟩)

/-! ## The arguments end as launched -/

/-- The first argument is the first region's first input window: read back through both regions and the host
    stretch it holds its launch contents. -/
theorem Wb_main_arg0 (c : Dev nD) : Wb m c (Proc.devRef .tc main_arg0) = m ((c : Thread nD τ).loc main_arg0) :=
  calc Wb m c (Proc.devRef .tc main_arg0)
    _ = Wa m c (Proc.devRef .tc main_arg0) := Wb_of_ne m c main_arg0 (by decide)
    _ = Wh m c (Proc.devRef .tc main_arg0) := (Wa_arr m c 0).trans (((dat0 (Vh m) c).arrAt_in 0 rfl _).trans (A_eq0 (Vh m) c 0))
    _ = m ((c : Thread nD τ).loc main_arg0) := V1_of m c main_arg0 (by decide)
/-- No region stages argument 1 and no host operation writes it. -/
theorem Wb_main_arg1 (c : Dev nD) : Wb m c (Proc.devRef .tc main_arg1) = m ((c : Thread nD τ).loc main_arg1) :=
  calc Wb m c (Proc.devRef .tc main_arg1)
    _ = Wa m c (Proc.devRef .tc main_arg1) := Wb_of_ne m c main_arg1 (by decide)
    _ = Wh m c (Proc.devRef .tc main_arg1) := Wa_of_ne m c main_arg1 (by decide)
    _ = m ((c : Thread nD τ).loc main_arg1) := V1_of m c main_arg1 (by decide)
/-- No region stages argument 2 and no host operation writes it. -/
theorem Wb_main_arg2 (c : Dev nD) : Wb m c (Proc.devRef .tc main_arg2) = m ((c : Thread nD τ).loc main_arg2) :=
  calc Wb m c (Proc.devRef .tc main_arg2)
    _ = Wa m c (Proc.devRef .tc main_arg2) := Wb_of_ne m c main_arg2 (by decide)
    _ = Wh m c (Proc.devRef .tc main_arg2) := Wa_of_ne m c main_arg2 (by decide)
    _ = m ((c : Thread nD τ).loc main_arg2) := V1_of m c main_arg2 (by decide)
/-- No region stages argument 3 and no host operation writes it. -/
theorem Wb_main_arg3 (c : Dev nD) : Wb m c (Proc.devRef .tc main_arg3) = m ((c : Thread nD τ).loc main_arg3) :=
  calc Wb m c (Proc.devRef .tc main_arg3)
    _ = Wa m c (Proc.devRef .tc main_arg3) := Wb_of_ne m c main_arg3 (by decide)
    _ = Wh m c (Proc.devRef .tc main_arg3) := Wa_of_ne m c main_arg3 (by decide)
    _ = m ((c : Thread nD τ).loc main_arg3) := V1_of m c main_arg3 (by decide)
/-- No region stages argument 4 and no host operation writes it. -/
theorem Wb_main_arg4 (c : Dev nD) : Wb m c (Proc.devRef .tc main_arg4) = m ((c : Thread nD τ).loc main_arg4) :=
  calc Wb m c (Proc.devRef .tc main_arg4)
    _ = Wa m c (Proc.devRef .tc main_arg4) := Wb_of_ne m c main_arg4 (by decide)
    _ = Wh m c (Proc.devRef .tc main_arg4) := Wa_of_ne m c main_arg4 (by decide)
    _ = m ((c : Thread nD τ).loc main_arg4) := V1_of m c main_arg4 (by decide)
/-- No region stages argument 5 and no host operation writes it. -/
theorem Wb_main_arg5 (c : Dev nD) : Wb m c (Proc.devRef .tc main_arg5) = m ((c : Thread nD τ).loc main_arg5) :=
  calc Wb m c (Proc.devRef .tc main_arg5)
    _ = Wa m c (Proc.devRef .tc main_arg5) := Wb_of_ne m c main_arg5 (by decide)
    _ = Wh m c (Proc.devRef .tc main_arg5) := Wa_of_ne m c main_arg5 (by decide)
    _ = m ((c : Thread nD τ).loc main_arg5) := V1_of m c main_arg5 (by decide)

/-- The result is the second region's output array at what its write-backs leave. -/
theorem Wb_main_v11 (c : Dev nD) : Wb m c (Proc.devRef .tc main_v11) = (dat1 (Va m) c).arrAt 3 cfg1.N :=
  Wb_arr m c 3

/-! ## The proof data family and the thread state -/

/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vh m) c
  | ⟨1, _⟩ => fun c => dat1 (Va m) c
abbrev 𝒱h : Variants := Variants.none
/-- No core owes another anything: no level is assigned. -/
abbrev Lh : GSem nD τ sig → Finset Unit := fun _ => ∅
abbrev lvh : GSem nD τ sig → Unit → ℕ := fun _ _ => 0
/-- What rides beside the buffers through every segment: the generator register at some state and nothing owed. -/
abbrev Rh (c : Dev nD) : sProp 𝕄 := iprop((∃ r, prngReg c r) ∗ ∃ W, owes (c : Thread nD τ) (0 : CellTallies nD τ sig Unit) W)
/-- The host stretch as a segment. -/
abbrev hsegh : Pipeline.HostSeg (Name := ℕ) (U := UR sig nD τ) (pcfgs (F := F)) defs₀ 𝒱h Lh lvh :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (fun c b => m (c, b)) Rh
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tlast (c : Dev nD) : sProp 𝕄 := iprop(StableHlo.held (c : Thread nD τ) (Pipeline.ucRefs τ sig) (Wb m c) ∗ ∃ r, prngReg c r)

/-! ## The regions as segments -/

set_option backward.isDefEq.respectTransparency.types false in
/-- Region 0 as a segment: entered from every unscoped buffer at the boundary's contents before it and left at the
    contents after it; its arrays split out of the unscoped buffers and put back at what the write-backs leave; the
    generator register into the invariant and out; nothing owed; no semaphore of the kernel's own. -/
def reg0 : Pipeline.RegionSeg (pcfgs (F := F)) adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Vh m) c).loose
  hwaits := Pipeline.hwaits_of_owed_zero _ _ _ _ Lh lvh 0 fun _ _ => rfl
  pre c := iprop(StableHlo.held (c : Thread nD τ) (Pipeline.ucRefs τ sig) (Wh m c) ∗ Rh c)
  post c := iprop(StableHlo.held (c : Thread nD τ) (Pipeline.ucRefs τ sig) (Wa m c) ∗ Rh c)
  X c := iprop(∃ r, prngReg c r)
  Y c := iprop(∃ r, prngReg c r)
  Z c := Pipeline.unscopedRest (Ix := Unit) (Name := ℕ) (U := UR sig nD τ) (Lvl := ℕ) spec0 c (Vh m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (Vh m) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vh m c) (Va m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the boundary's contents before it and left at the
    contents after it; its arrays split out of the unscoped buffers and put back at what the write-backs leave; the
    generator register into the invariant and out; nothing owed; no semaphore of the kernel's own. -/
def reg1 : Pipeline.RegionSeg (pcfgs (F := F)) adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Va m) c).loose
  hwaits := Pipeline.hwaits_of_owed_zero _ _ _ _ Lh lvh 1 fun _ _ => rfl
  pre c := iprop(StableHlo.held (c : Thread nD τ) (Pipeline.ucRefs τ sig) (Wa m c) ∗ Rh c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Va m c) (Vb m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsh : List (Pipeline.Seg (pcfgs (F := F)) adm (pdats m) () defs₀ 𝒱h Lh lvh) :=
  [ .host (hsegh m), .region (reg0 m), .region (reg1 m) ]
theorem main_run (c : Dev nD) : main (F := F) c = Pipeline.Seg.run (segsh m) := (main_chain c).trans (by chain_rfl)

variable (ρ : Dev nD → PrngReg)

set_option backward.isDefEq.respectTransparency.types false in
/-- THE RUN: from any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb m c b) :=
  Pipeline.θ_run_regions_kit (pcfgs (F := F)) adm (pdats m) () cellOf_inj emb₁ defs₀ 𝒱h Lh lvh m ρ main (segsh m)
    (fun c Q => by rw [main_run m c])
    (by simp only [segsh, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ Rh c)) (Tₙ := Tlast m)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb m c b)
    (hfin := fun c s' => by
      iintro ⟨⟨Hh, -⟩, HSI⟩
      unfold StableHlo.held
      imodintro
      iapply (pointsTo_read_all (Pipeline.ucRefs τ sig) (fun b => (((c : Thread nD τ)).1, b)) (Wb m c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Wb_main_arg0 m c),
     (h c _ (mem_uc main_arg1 (by decide))).trans (Wb_main_arg1 m c),
     (h c _ (mem_uc main_arg2 (by decide))).trans (Wb_main_arg2 m c),
     (h c _ (mem_uc main_arg3 (by decide))).trans (Wb_main_arg3 m c),
     (h c _ (mem_uc main_arg4 (by decide))).trans (Wb_main_arg4 m c),
     (h c _ (mem_uc main_arg5 (by decide))).trans (Wb_main_arg5 m c)⟩) (run_all m ρ)

/-- The run with the result named: the result array ends at what the second region's write-backs leave, and every
    argument array at its launch contents. -/
theorem run_result : θ_run defs (onTc (τ := τ) (main (F := F))) ⟨m, fun _ => 0, ρ⟩ (fun r => ∀ c : Dev nD,
      r.2.mem ((c.tc : Thread nD τ).loc main_v11) = (dat1 (Va m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v11 (by decide))).trans (Wb_main_v11 m c),
     (h c _ (mem_uc main_arg0 (by decide))).trans (Wb_main_arg0 m c),
     (h c _ (mem_uc main_arg1 (by decide))).trans (Wb_main_arg1 m c),
     (h c _ (mem_uc main_arg2 (by decide))).trans (Wb_main_arg2 m c),
     (h c _ (mem_uc main_arg3 (by decide))).trans (Wb_main_arg3 m c),
     (h c _ (mem_uc main_arg4 (by decide))).trans (Wb_main_arg4 m c),
     (h c _ (mem_uc main_arg5 (by decide))).trans (Wb_main_arg5 m c)⟩) (run_all m ρ)

end Cert.KernelIdeal.Hand

end
-- ==== Proof.Spec.lean ====
/-
  Gaussian-splat attention over the extended reals, as one function of the six argument arrays.

  For a token x[b, s, ·] and K = 20 centres p[k, ·] with log-scales and amplitudes:
    the squared distance  d2[b,s,k] = max (|x[b,s]|^2 - 2 * <x[b,s], p[k]> + |p[k]|^2) 0,
    the weight            g[b,s,k]  = amp[k] * exp ((-1/2 * d2[b,s,k]) / (exp ls[k] * exp ls[k])),
    the normalised weight a[b,s,k]  = g[b,s,k] / (sum over k' of g[b,s,k'] + eps),
    the token values      v[b,s,e]  = sum over d of x[b,s,d] * wv[e,d],
    the splat states      S[b,k,d]  = sum over s of a[b,s,k] * v[b,s,d],
    the tokens mixed back o[b,s,d]  = sum over k of a[b,s,k] * S[b,k,d],
    the result            r[b,s,e]  = sum over d of o[b,s,d] * wo[e,d].
  The four literals (0, 2, -1/2 and the small eps) are kept as the words both programs print.
-/
import Idealize.ShloMosaic.PureOps.Ideal
import Idealize.ShloMosaic.Lib.ValueIdx

noncomputable section

open scoped BigOperators

namespace Cert.SplatAttention

open Idealize.ShloMosaic Idealize.ShloMosaic.ValueIdx

/-- Arrays of extended reals of rank one, two and three over literal extents. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

/-- The literals, as the words both programs print. -/
def two : EReal := Ideal.ofBits .f32 0x40000000#32
def negHalf : EReal := Ideal.ofBits .f32 0xBF000000#32
def eps : EReal := Ideal.ofBits .f32 0x322BCC77#32

/-- Token `r` of the `j`-th group of 1024 consecutive tokens. -/
def tok (j : Fin 8) (r : Fin 1024) : Fin 8192 := ⟨j.val * 1024 + r.val, by omega⟩

variable (x : A3 4 8192 512) (pos : A2 20 512) (ls amp : A1 20) (wv wo : A2 512 512)

/-- The squared scale of centre `k`: `exp ls[k] * exp ls[k]`. -/
def scale2 (k : Fin 20) : EReal := Ideal.exp (ls (ix1 k)) * Ideal.exp (ls (ix1 k))
/-- The squared norm of centre `k`. -/
def centre2 (k : Fin 20) : EReal := ∑ d : Fin 512, pos (ix2 k d) * pos (ix2 k d)
/-- The squared norm of token `(b, s)`. -/
def norm2 (b : Fin 4) (s : Fin 8192) : EReal := ∑ d : Fin 512, x (ix3 b s d) * x (ix3 b s d)
/-- The inner product of token `(b, s)` with centre `k`. -/
def cross (b : Fin 4) (s : Fin 8192) (k : Fin 20) : EReal := ∑ d : Fin 512, x (ix3 b s d) * pos (ix2 k d)
/-- The squared distance, clamped at zero. -/
def dist2 (b : Fin 4) (s : Fin 8192) (k : Fin 20) : EReal :=
  max (norm2 x b s - two * cross x pos b s k + centre2 pos k) 0
/-- The Gaussian weight of centre `k` at token `(b, s)`. -/
def gauss (b : Fin 4) (s : Fin 8192) (k : Fin 20) : EReal :=
  amp (ix1 k) * Ideal.exp (Ideal.div (negHalf * dist2 x pos b s k) (scale2 ls k))
/-- The normaliser of token `(b, s)`. -/
def denom (b : Fin 4) (s : Fin 8192) : EReal := (∑ k : Fin 20, gauss x pos ls amp b s k) + eps
/-- The normalised weight. -/
def attn (b : Fin 4) (s : Fin 8192) (k : Fin 20) : EReal :=
  Ideal.div (gauss x pos ls amp b s k) (denom x pos ls amp b s)
/-- The token's value vector `x[b,s] · wvᵀ`. -/
def value (b : Fin 4) (s : Fin 8192) (e : Fin 512) : EReal := ∑ d : Fin 512, x (ix3 b s d) * wv (ix2 e d)
/-- The splat states: the values gathered at the centres, over all 8192 tokens of the batch row. -/
def splat (b : Fin 4) (k : Fin 20) (d : Fin 512) : EReal :=
  ∑ s : Fin 8192, attn x pos ls amp b s k * value x wv b s d
/-- The splat states scattered back to the tokens. -/
def mixed (b : Fin 4) (s : Fin 8192) (d : Fin 512) : EReal :=
  ∑ k : Fin 20, attn x pos ls amp b s k * splat x pos ls amp wv b k d
/-- The output projection `mixed[b,s] · woᵀ`. -/
def result (b : Fin 4) (s : Fin 8192) (e : Fin 512) : EReal :=
  ∑ d : Fin 512, mixed x pos ls amp wv b s d * wo (ix2 e d)

/-- The result as an array. -/
def resultArr : A3 4 8192 512 := fun i => result x pos ls amp wv wo (i 0) (i 1) (i 2)
/-- The normalised weights as an array. -/
def attnArr : A3 4 8192 20 := fun i => attn x pos ls amp (i 0) (i 1) (i 2)
/-- The splat states as an array. -/
def splatArr : A3 4 20 512 := fun i => splat x pos ls amp wv (i 0) (i 1) (i 2)

end Cert.SplatAttention

end
-- ==== Proof.PayloadDots.lean ====
/-
  The four matrix products of the two kernel bodies, read at an index of the result. Into the zero
  accumulator a matrix product over the extended reals is the plain sum, over the one contracted
  axis, of the products of the two operands' entries: rows times columns for three of them, and
  for the fourth (both operands contracted along their first axis) the sum over the shared row
  index, that is the product of the transposed left operand with the right one.
-/
import proofs.«161355_j43224550867593_1_alg».proof.Proof.Gen.KernelIdeal.Skeleton
import Idealize.ShloMosaic.Lib.ValueIdx
import Idealize.ShloMosaic.PureOps.Ideal.Laws

noncomputable section

open scoped BigOperators

namespace Cert.SplatAttention.Payload

open Idealize.ShloMosaic Idealize.ShloMosaic.ValueIdx Cert.KernelIdeal Cert.KernelIdeal.Gen

variable {φ₁ φ₂ : FTy}

theorem dot_cross_lhs_free (i : S1024x20.Idx) (c : dot_S1024x512_S512x20_S1024x20_1_0_0_1_n_n.contr.Idx) :
    (dot_S1024x512_S512x20_S1024x20_1_0_0_1_n_n.lhsIdx i c 0).val = (i 0).val := by
  unfold DotDims.lhsIdx
  rw [dif_neg (show ¬(0 : Fin S1024x512.rank) ∈ dot_S1024x512_S512x20_S1024x20_1_0_0_1_n_n.lhsBatch by decide),
    dif_pos (show (0 : Fin S1024x512.rank) ∈ dot_S1024x512_S512x20_S1024x20_1_0_0_1_n_n.lhsNonContracting by decide)]
  rfl
theorem dot_cross_lhs_contr (i : S1024x20.Idx) (c : dot_S1024x512_S512x20_S1024x20_1_0_0_1_n_n.contr.Idx) :
    (dot_S1024x512_S512x20_S1024x20_1_0_0_1_n_n.lhsIdx i c 1).val = (c ⟨0, by decide⟩).val :=
  dot_S1024x512_S512x20_S1024x20_1_0_0_1_n_n.lhsIdx_val_of_single rfl i c
theorem dot_cross_rhs_free (i : S1024x20.Idx) (c : dot_S1024x512_S512x20_S1024x20_1_0_0_1_n_n.contr.Idx) :
    (dot_S1024x512_S512x20_S1024x20_1_0_0_1_n_n.rhsIdx i c 1).val = (i 1).val := by
  unfold DotDims.rhsIdx
  rw [dif_neg (show ¬(1 : Fin S512x20.rank) ∈ dot_S1024x512_S512x20_S1024x20_1_0_0_1_n_n.rhsBatch by decide),
    dif_pos (show (1 : Fin S512x20.rank) ∈ dot_S1024x512_S512x20_S1024x20_1_0_0_1_n_n.rhsNonContracting by decide)]
  rfl
theorem dot_cross_rhs_contr (i : S1024x20.Idx) (c : dot_S1024x512_S512x20_S1024x20_1_0_0_1_n_n.contr.Idx) :
    (dot_S1024x512_S512x20_S1024x20_1_0_0_1_n_n.rhsIdx i c 0).val = (c ⟨0, by decide⟩).val :=
  dot_S1024x512_S512x20_S1024x20_1_0_0_1_n_n.rhsIdx_val_of_single rfl i c

/-- A `[1024, 512]` by `[512, 20]` product at `(p, q)`: the sum over the 512 shared coordinates. -/
theorem dot_cross_apply (l : FVec Ideal S1024x512 φ₁) (r : FVec Ideal S512x20 φ₂) (p : Fin 1024) (q : Fin 20) :
    matmul dot_S1024x512_S512x20_S1024x20_1_0_0_1_n_n none l r (constant (F := Ideal) S1024x20 .f32 0x00000000#32) (ix2 p q)
      = ∑ k : Fin 512, l (ix2 p k) * r (ix2 k q) := by
  simp only [matmul]
  rw [Ideal.matmul_constant_zero_apply, ← Equiv.sum_comp (contrEquiv1 dot_S1024x512_S512x20_S1024x20_1_0_0_1_n_n 512 rfl rfl).symm]
  refine Finset.sum_congr rfl fun k _ => ?_
  have hk := contrEquiv1_symm_val dot_S1024x512_S512x20_S1024x20_1_0_0_1_n_n 512 rfl rfl k
  have el : dot_S1024x512_S512x20_S1024x20_1_0_0_1_n_n.lhsIdx (ix2 p q) ((contrEquiv1 dot_S1024x512_S512x20_S1024x20_1_0_0_1_n_n 512 rfl rfl).symm k) = ix2 p k :=
    funext fun a => Fin.ext (by
      match a with
      | ⟨0, _⟩ => exact dot_cross_lhs_free _ _
      | ⟨1, _⟩ => exact (dot_cross_lhs_contr _ _).trans hk)
  have er : dot_S1024x512_S512x20_S1024x20_1_0_0_1_n_n.rhsIdx (ix2 p q) ((contrEquiv1 dot_S1024x512_S512x20_S1024x20_1_0_0_1_n_n 512 rfl rfl).symm k) = ix2 k q :=
    funext fun a => Fin.ext (by
      match a with
      | ⟨0, _⟩ => exact (dot_cross_rhs_contr _ _).trans hk
      | ⟨1, _⟩ => exact dot_cross_rhs_free _ _)
  rw [el, er]

theorem dot_proj_lhs_free (i : S1024x512.Idx) (c : dot_S1024x512_S512x512_S1024x512_1_0_0_1_n_n.contr.Idx) :
    (dot_S1024x512_S512x512_S1024x512_1_0_0_1_n_n.lhsIdx i c 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
theorem dot_proj_lhs_contr (i : S1024x512.Idx) (c : dot_S1024x512_S512x512_S1024x512_1_0_0_1_n_n.contr.Idx) :
    (dot_S1024x512_S512x512_S1024x512_1_0_0_1_n_n.lhsIdx i c 1).val = (c ⟨0, by decide⟩).val :=
  dot_S1024x512_S512x512_S1024x512_1_0_0_1_n_n.lhsIdx_val_of_single rfl i c
theorem dot_proj_rhs_free (i : S1024x512.Idx) (c : dot_S1024x512_S512x512_S1024x512_1_0_0_1_n_n.contr.Idx) :
    (dot_S1024x512_S512x512_S1024x512_1_0_0_1_n_n.rhsIdx i c 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl
theorem dot_proj_rhs_contr (i : S1024x512.Idx) (c : dot_S1024x512_S512x512_S1024x512_1_0_0_1_n_n.contr.Idx) :
    (dot_S1024x512_S512x512_S1024x512_1_0_0_1_n_n.rhsIdx i c 0).val = (c ⟨0, by decide⟩).val :=
  dot_S1024x512_S512x512_S1024x512_1_0_0_1_n_n.rhsIdx_val_of_single rfl i c

/-- A `[1024, 512]` by `[512, 512]` product at `(p, q)`: the sum over the 512 shared coordinates. -/
theorem dot_proj_apply (l : FVec Ideal S1024x512 φ₁) (r : FVec Ideal S512x512 φ₂) (p : Fin 1024) (q : Fin 512) :
    matmul dot_S1024x512_S512x512_S1024x512_1_0_0_1_n_n none l r (constant (F := Ideal) S1024x512 .f32 0x00000000#32) (ix2 p q)
      = ∑ k : Fin 512, l (ix2 p k) * r (ix2 k q) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k :=
    funext fun a => Fin.ext (by
      match a with
      | ⟨0, _⟩ => exact dot_proj_lhs_free _ _
      | ⟨1, _⟩ => exact (dot_proj_lhs_contr _ _).trans hk)
  have er : dot_S1024x512_S512x512_S1024x512_1_0_0_1_n_n.rhsIdx (ix2 p q) ((contrEquiv1 dot_S1024x512_S512x512_S1024x512_1_0_0_1_n_n 512 rfl rfl).symm k) = ix2 k q :=
    funext fun a => Fin.ext (by
      match a with
      | ⟨0, _⟩ => exact (dot_proj_rhs_contr _ _).trans hk
      | ⟨1, _⟩ => exact dot_proj_rhs_free _ _)
  rw [el, er]

theorem dot_mix_lhs_free (i : S1024x512.Idx) (c : dot_S1024x20_S20x512_S1024x512_1_0_0_1_n_n.contr.Idx) :
    (dot_S1024x20_S20x512_S1024x512_1_0_0_1_n_n.lhsIdx i c 0).val = (i 0).val := by
  unfold DotDims.lhsIdx
  rw [dif_neg (show ¬(0 : Fin S1024x20.rank) ∈ dot_S1024x20_S20x512_S1024x512_1_0_0_1_n_n.lhsBatch by decide),
    dif_pos (show (0 : Fin S1024x20.rank) ∈ dot_S1024x20_S20x512_S1024x512_1_0_0_1_n_n.lhsNonContracting by decide)]
  rfl
theorem dot_mix_lhs_contr (i : S1024x512.Idx) (c : dot_S1024x20_S20x512_S1024x512_1_0_0_1_n_n.contr.Idx) :
    (dot_S1024x20_S20x512_S1024x512_1_0_0_1_n_n.lhsIdx i c 1).val = (c ⟨0, by decide⟩).val :=
  dot_S1024x20_S20x512_S1024x512_1_0_0_1_n_n.lhsIdx_val_of_single rfl i c
theorem dot_mix_rhs_free (i : S1024x512.Idx) (c : dot_S1024x20_S20x512_S1024x512_1_0_0_1_n_n.contr.Idx) :
    (dot_S1024x20_S20x512_S1024x512_1_0_0_1_n_n.rhsIdx i c 1).val = (i 1).val := by
  unfold DotDims.rhsIdx
  rw [dif_neg (show ¬(1 : Fin S20x512.rank) ∈ dot_S1024x20_S20x512_S1024x512_1_0_0_1_n_n.rhsBatch by decide),
    dif_pos (show (1 : Fin S20x512.rank) ∈ dot_S1024x20_S20x512_S1024x512_1_0_0_1_n_n.rhsNonContracting by decide)]
  rfl
theorem dot_mix_rhs_contr (i : S1024x512.Idx) (c : dot_S1024x20_S20x512_S1024x512_1_0_0_1_n_n.contr.Idx) :
    (dot_S1024x20_S20x512_S1024x512_1_0_0_1_n_n.rhsIdx i c 0).val = (c ⟨0, by decide⟩).val :=
  dot_S1024x20_S20x512_S1024x512_1_0_0_1_n_n.rhsIdx_val_of_single rfl i c

/-- A `[1024, 20]` by `[20, 512]` product at `(p, q)`: the sum over the 20 shared coordinates. -/
theorem dot_mix_apply (l : FVec Ideal S1024x20 φ₁) (r : FVec Ideal S20x512 φ₂) (p : Fin 1024) (q : Fin 512) :
    matmul dot_S1024x20_S20x512_S1024x512_1_0_0_1_n_n none l r (constant (F := Ideal) S1024x512 .f32 0x00000000#32) (ix2 p q)
      = ∑ k : Fin 20, l (ix2 p k) * r (ix2 k q) := by
  simp only [matmul]
  rw [Ideal.matmul_constant_zero_apply, ← Equiv.sum_comp (contrEquiv1 dot_S1024x20_S20x512_S1024x512_1_0_0_1_n_n 20 rfl rfl).symm]
  refine Finset.sum_congr rfl fun k _ => ?_
  have hk := contrEquiv1_symm_val dot_S1024x20_S20x512_S1024x512_1_0_0_1_n_n 20 rfl rfl k
  have el : dot_S1024x20_S20x512_S1024x512_1_0_0_1_n_n.lhsIdx (ix2 p q) ((contrEquiv1 dot_S1024x20_S20x512_S1024x512_1_0_0_1_n_n 20 rfl rfl).symm k) = ix2 p k :=
    funext fun a => Fin.ext (by
      match a with
      | ⟨0, _⟩ => exact dot_mix_lhs_free _ _
      | ⟨1, _⟩ => exact (dot_mix_lhs_contr _ _).trans hk)
  have er : dot_S1024x20_S20x512_S1024x512_1_0_0_1_n_n.rhsIdx (ix2 p q) ((contrEquiv1 dot_S1024x20_S20x512_S1024x512_1_0_0_1_n_n 20 rfl rfl).symm k) = ix2 k q :=
    funext fun a => Fin.ext (by
      match a with
      | ⟨0, _⟩ => exact (dot_mix_rhs_contr _ _).trans hk
      | ⟨1, _⟩ => exact dot_mix_rhs_free _ _)
  rw [el, er]

theorem dot_tl_lhs_free (i : S20x512.Idx) (c : dot_S1024x20_S1024x512_S20x512_0_0_1_1_n_n.contr.Idx) :
    (dot_S1024x20_S1024x512_S20x512_0_0_1_1_n_n.lhsIdx i c 1).val = (i 0).val := by
  unfold DotDims.lhsIdx
  rw [dif_neg (show ¬(1 : Fin S1024x20.rank) ∈ dot_S1024x20_S1024x512_S20x512_0_0_1_1_n_n.lhsBatch by decide),
    dif_pos (show (1 : Fin S1024x20.rank) ∈ dot_S1024x20_S1024x512_S20x512_0_0_1_1_n_n.lhsNonContracting by decide)]
  rfl
theorem dot_tl_lhs_contr (i : S20x512.Idx) (c : dot_S1024x20_S1024x512_S20x512_0_0_1_1_n_n.contr.Idx) :
    (dot_S1024x20_S1024x512_S20x512_0_0_1_1_n_n.lhsIdx i c 0).val = (c ⟨0, by decide⟩).val :=
  dot_S1024x20_S1024x512_S20x512_0_0_1_1_n_n.lhsIdx_val_of_single rfl i c
theorem dot_tl_rhs_free (i : S20x512.Idx) (c : dot_S1024x20_S1024x512_S20x512_0_0_1_1_n_n.contr.Idx) :
    (dot_S1024x20_S1024x512_S20x512_0_0_1_1_n_n.rhsIdx i c 1).val = (i 1).val := by
  unfold DotDims.rhsIdx
  rw [dif_neg (show ¬(1 : Fin S1024x512.rank) ∈ dot_S1024x20_S1024x512_S20x512_0_0_1_1_n_n.rhsBatch by decide),
    dif_pos (show (1 : Fin S1024x512.rank) ∈ dot_S1024x20_S1024x512_S20x512_0_0_1_1_n_n.rhsNonContracting by decide)]
  rfl
theorem dot_tl_rhs_contr (i : S20x512.Idx) (c : dot_S1024x20_S1024x512_S20x512_0_0_1_1_n_n.contr.Idx) :
    (dot_S1024x20_S1024x512_S20x512_0_0_1_1_n_n.rhsIdx i c 0).val = (c ⟨0, by decide⟩).val :=
  dot_S1024x20_S1024x512_S20x512_0_0_1_1_n_n.rhsIdx_val_of_single rfl i c

/-- Both operands contracted along their first axis: entry `(p, q)` of the result is the sum over the shared row index `k` of `l (k, p) * r (k, q)`, the product of the transposed left operand with the right one. -/
theorem dot_tl_apply (l : FVec Ideal S1024x20 φ₁) (r : FVec Ideal S1024x512 φ₂) (p : Fin 20) (q : Fin 512) :
    matmul dot_S1024x20_S1024x512_S20x512_0_0_1_1_n_n none l r (constant (F := Ideal) S20x512 .f32 0x00000000#32) (ix2 p q)
      = ∑ k : Fin 1024, l (ix2 k p) * r (ix2 k q) := by
  simp only [matmul]
  rw [Ideal.matmul_constant_zero_apply, ← Equiv.sum_comp (contrEquiv1 dot_S1024x20_S1024x512_S20x512_0_0_1_1_n_n 1024 rfl rfl).symm]
  refine Finset.sum_congr rfl fun k _ => ?_
  have hk := contrEquiv1_symm_val dot_S1024x20_S1024x512_S20x512_0_0_1_1_n_n 1024 rfl rfl k
  have el : dot_S1024x20_S1024x512_S20x512_0_0_1_1_n_n.lhsIdx (ix2 p q) ((contrEquiv1 dot_S1024x20_S1024x512_S20x512_0_0_1_1_n_n 1024 rfl rfl).symm k) = ix2 k p :=
    funext fun a => Fin.ext (by
      match a with
      | ⟨1, _⟩ => exact dot_tl_lhs_free _ _
      | ⟨0, _⟩ => exact (dot_tl_lhs_contr _ _).trans hk)
  have er : dot_S1024x20_S1024x512_S20x512_0_0_1_1_n_n.rhsIdx (ix2 p q) ((contrEquiv1 dot_S1024x20_S1024x512_S20x512_0_0_1_1_n_n 1024 rfl rfl).symm k) = ix2 k q :=
    funext fun a => Fin.ext (by
      match a with
      | ⟨0, _⟩ => exact (dot_tl_rhs_contr _ _).trans hk
      | ⟨1, _⟩ => exact dot_tl_rhs_free _ _)
  rw [el, er]

end Cert.SplatAttention.Payload

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.PayloadA.lean ====
/-
  The first kernel's arithmetic read at an index. For one batch row `b` and one tile of 1024
  consecutive tokens, the body computes, for token `r` of the tile and centre `k`: the token's squared
  norm (a sum over the 512 features of the square), its inner product with the centre (a matrix
  product with the transposed centres), the squared distance clamped at zero, the Gaussian weight, the
  sum of the weights over the 20 centres, and the normalised weight; then the token's value vector (a
  matrix product with the transposed value matrix) and, contracting both over the tile's tokens, the
  product of the transposed weights with the values, added to the accumulator. Over the extended reals
  every change of float format is the identity, a matrix product into the zero accumulator is a plain
  sum, and a sum along an axis is a plain sum; so each of these is the specification's function of the
  same name at token `tok j r`.
-/
import proofs.«161355_j43224550867593_1_alg».proof.Proof.Gen.KernelIdeal.Skeleton
import proofs.«161355_j43224550867593_1_alg».proof.Proof.Spec
import proofs.«161355_j43224550867593_1_alg».proof.Proof.PayloadDots
import proofs.«161355_j43224550867593_1_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.SplatAttention.Payload

open Idealize.ShloMosaic Idealize.ShloMosaic.ValueIdx Cert.KernelIdeal Cert.KernelIdeal.Gen Cert.LibColumn

/-- The exponential of a vector at an index is the exponential of the entry. -/
theorem exp_apply {s : Shape} {φ : FTy} (a : FVec Ideal s φ) (i : s.Idx) : exp a i = Ideal.exp (a i) := rfl

/-- A `[1024, 512]` array summed along its second axis reads, at `r`, the sum of row `r`. -/
theorem rowsum512_apply (src : FVec Ideal S1024x512 .f32) (h : S1024x512.Reduces [1] S1024) (hφ : FKind.Formats .f32)
    (hacc : (0x00000000#32 : BitVec 32) = 0x00000000#32) (r : Fin 1024) :
    multiReduction .add [1] S1024 src 0x00000000#32 h hφ hacc (ix1 r) = ∑ d : Fin 512, src (ix2 r d) :=
  (Ideal.multiReduction_add_single src 0x00000000#32 h hφ hacc (ix1 r)).trans
    (Finset.sum_congr rfl fun d _ => congrArg src (funext fun a => Fin.ext (by
      match a with
      | ⟨0, _⟩ => rfl
      | ⟨1, _⟩ => rfl)))

/-- A `[1024, 20]` array summed along its second axis reads, at `r`, the sum of row `r`. -/
theorem rowsum20_apply (src : FVec Ideal S1024x20 .f32) (h : S1024x20.Reduces [1] S1024) (hφ : FKind.Formats .f32)
    (hacc : (0x00000000#32 : BitVec 32) = 0x00000000#32) (r : Fin 1024) :
    multiReduction .add [1] S1024 src 0x00000000#32 h hφ hacc (ix1 r) = ∑ k : Fin 20, src (ix2 r k) :=
  (Ideal.multiReduction_add_single src 0x00000000#32 h hφ hacc (ix1 r)).trans
    (Finset.sum_congr rfl fun k _ => congrArg src (funext fun a => Fin.ext (by
      match a with
      | ⟨0, _⟩ => rfl
      | ⟨1, _⟩ => rfl)))

/-- The tile with its leading unit axis dropped. -/
theorem tile_apply (xt : Vec Ideal S1x1024x512 .f32) (r : Fin 1024) (d : Fin 512) :
    k0_pay6 xt (ix2 r d) = xt (ix3 (0 : Fin 1) r d) := by
  unfold k0_pay6
  rw [shapeCast_1ab_ab_apply]

/-- The same tile after the change of format. -/
theorem tile16_apply (xt : Vec Ideal S1x1024x512 .f32) (r : Fin 1024) (d : Fin 512) :
    k0_pay7 xt (ix2 r d) = xt (ix3 (0 : Fin 1) r d) := by
  unfold k0_pay7
  rw [truncf_apply, tile_apply]

/-- The weights of the tile: entry `(r, k)` is the Gaussian weight of centre `k` at token `tok j r`. The squared
    norm is the row sum of the squares, the inner product the matrix product with the transposed centres; the three
    literals are the specification's words, and the clamp's zero word is the real `0`. -/
theorem gauss_tile (x : A3 4 8192 512) (pos : A2 20 512) (ls amp : A1 20) (b : Fin 4) (j : Fin 8)
    (xt : Vec Ideal S1x1024x512 .f32) (pT : Vec Ideal S512x20 .f32) (c2v sc2v amv : Vec Ideal S1x20 .f32)
    (hx : ∀ (r : Fin 1024) (d : Fin 512), xt (ix3 (0 : Fin 1) r d) = x (ix3 b (tok j r) d))
    (hp : ∀ (d : Fin 512) (k : Fin 20), pT (ix2 d k) = pos (ix2 k d))
    (hc : ∀ k : Fin 20, c2v (ix2 (0 : Fin 1) k) = centre2 pos k)
    (hs : ∀ k : Fin 20, sc2v (ix2 (0 : Fin 1) k) = scale2 ls k)
    (ha : ∀ k : Fin 20, amv (ix2 (0 : Fin 1) k) = amp (ix1 k))
    (r : Fin 1024) (k : Fin 20) :
    k0_pay8 xt pT c2v sc2v amv (ix2 r k) = gauss x pos ls amp b (tok j r) k := by
  have hn := rowsum512_apply (mulf (k0_pay6 xt) (k0_pay6 xt)) reduces_S1024x512_S1024 (.inl rfl) rfl r
  unfold k0_pay8
  simp only [mulf_apply, addf_apply, subf_apply, divf_apply, maximumf_apply, exp_apply, broadcast_apply,
    broadcastTo_1b_ab_apply, broadcastTo_a1_ab_apply, shapeCast_a_a1_apply, shapeCast_self, hn,
    dot_cross_apply, truncf_apply, tile_apply, tile16_apply, hx, hp, hc, hs, ha]
  rw [Ideal.ofBits_def, Ideal.ofBits_def, Ideal.ofBits_def, Ideal.ofBits_zero_f32]
  rfl

/-- The sum of a token's weights over the 20 centres, kept as a column. -/
theorem gsum_tile (x : A3 4 8192 512) (pos : A2 20 512) (ls amp : A1 20) (b : Fin 4) (j : Fin 8)
    (xt : Vec Ideal S1x1024x512 .f32) (pT : Vec Ideal S512x20 .f32) (c2v sc2v amv : Vec Ideal S1x20 .f32)
    (hx : ∀ (r : Fin 1024) (d : Fin 512), xt (ix3 (0 : Fin 1) r d) = x (ix3 b (tok j r) d))
    (hp : ∀ (d : Fin 512) (k : Fin 20), pT (ix2 d k) = pos (ix2 k d))
    (hc : ∀ k : Fin 20, c2v (ix2 (0 : Fin 1) k) = centre2 pos k)
    (hs : ∀ k : Fin 20, sc2v (ix2 (0 : Fin 1) k) = scale2 ls k)
    (ha : ∀ k : Fin 20, amv (ix2 (0 : Fin 1) k) = amp (ix1 k))
    (r : Fin 1024) :
    k0_pay9 xt pT c2v sc2v amv (ix2 r (0 : Fin 1)) = ∑ k : Fin 20, gauss x pos ls amp b (tok j r) k := by
  have hn := rowsum20_apply (k0_pay8 xt pT c2v sc2v amv) reduces_S1024x20_S1024 (.inl rfl) rfl r
  unfold k0_pay9
  rw [shapeCast_a_a1_apply, hn]
  exact Finset.sum_congr rfl fun k _ => gauss_tile x pos ls amp b j xt pT c2v sc2v amv hx hp hc hs ha r k

/-- The normalised weights of the tile as a `[1024, 20]` matrix. -/
theorem attn_mat (x : A3 4 8192 512) (pos : A2 20 512) (ls amp : A1 20) (b : Fin 4) (j : Fin 8)
    (xt : Vec Ideal S1x1024x512 .f32) (pT : Vec Ideal S512x20 .f32) (c2v sc2v amv : Vec Ideal S1x20 .f32)
    (hx : ∀ (r : Fin 1024) (d : Fin 512), xt (ix3 (0 : Fin 1) r d) = x (ix3 b (tok j r) d))
    (hp : ∀ (d : Fin 512) (k : Fin 20), pT (ix2 d k) = pos (ix2 k d))
    (hc : ∀ k : Fin 20, c2v (ix2 (0 : Fin 1) k) = centre2 pos k)
    (hs : ∀ k : Fin 20, sc2v (ix2 (0 : Fin 1) k) = scale2 ls k)
    (ha : ∀ k : Fin 20, amv (ix2 (0 : Fin 1) k) = amp (ix1 k))
    (r : Fin 1024) (k : Fin 20) :
    k0_pay1 (k0_pay8 xt pT c2v sc2v amv) (k0_pay9 xt pT c2v sc2v amv) k0_pay10 (ix2 r k)
      = attn x pos ls amp b (tok j r) k := by
  unfold k0_pay1
  rw [divf_apply, broadcastTo_a1_ab_apply, addf_apply, gauss_tile x pos ls amp b j xt pT c2v sc2v amv hx hp hc hs ha r k, gsum_tile x pos ls amp b j xt pT c2v sc2v amv hx hp hc hs ha r]
  unfold k0_pay10
  rw [broadcast_apply]
  rfl

/-- The normalised weights of the tile as the kernel stores them, a `[1, 1024, 20]` block. -/
theorem attn_tile (x : A3 4 8192 512) (pos : A2 20 512) (ls amp : A1 20) (b : Fin 4) (j : Fin 8)
    (xt : Vec Ideal S1x1024x512 .f32) (pT : Vec Ideal S512x20 .f32) (c2v sc2v amv : Vec Ideal S1x20 .f32)
    (hx : ∀ (r : Fin 1024) (d : Fin 512), xt (ix3 (0 : Fin 1) r d) = x (ix3 b (tok j r) d))
    (hp : ∀ (d : Fin 512) (k : Fin 20), pT (ix2 d k) = pos (ix2 k d))
    (hc : ∀ k : Fin 20, c2v (ix2 (0 : Fin 1) k) = centre2 pos k)
    (hs : ∀ k : Fin 20, sc2v (ix2 (0 : Fin 1) k) = scale2 ls k)
    (ha : ∀ k : Fin 20, amv (ix2 (0 : Fin 1) k) = amp (ix1 k))
    (r : Fin 1024) (k : Fin 20) :
    k0_pay2 (k0_pay8 xt pT c2v sc2v amv) (k0_pay9 xt pT c2v sc2v amv) k0_pay10 (ix3 (0 : Fin 1) r k)
      = attn x pos ls amp b (tok j r) k := by
  unfold k0_pay2
  rw [shapeCast_ab_1ab_apply]
  exact attn_mat x pos ls amp b j xt pT c2v sc2v amv hx hp hc hs ha r k

/-- The tile's value vectors: the matrix product of the tile with the transposed value matrix. -/
theorem value_tile (x : A3 4 8192 512) (wv : A2 512 512) (b : Fin 4) (j : Fin 8)
    (xt : Vec Ideal S1x1024x512 .f32) (wvT : Vec Ideal S512x512 .f32)
    (hx : ∀ (r : Fin 1024) (d : Fin 512), xt (ix3 (0 : Fin 1) r d) = x (ix3 b (tok j r) d))
    (hw : ∀ (d e : Fin 512), wvT (ix2 d e) = wv (ix2 e d))
    (r : Fin 1024) (d : Fin 512) :
    matmul dot_S1024x512_S512x512_S1024x512_1_0_0_1_n_n none (k0_pay7 xt)
        (truncf .bf16 (shapeCast S512x512 wvT shapeCasts_S512x512_S512x512) bitsLt_bf16_f32)
        (constant (F := Ideal) S1024x512 .f32 0x00000000#32) (ix2 r d)
      = value x wv b (tok j r) d := by
  rw [dot_proj_apply]
  unfold value
  exact Finset.sum_congr rfl fun e _ => by rw [tile16_apply, hx, truncf_apply, shapeCast_self, hw]

/-- The tile's contribution to the splat states: the accumulator plus, contracted over the tile's 1024 tokens, the
    normalised weight of centre `k` times the token's value at feature `d`. -/
theorem contrib_tile (x : A3 4 8192 512) (pos : A2 20 512) (ls amp : A1 20) (b : Fin 4) (j : Fin 8)
    (xt : Vec Ideal S1x1024x512 .f32) (pT : Vec Ideal S512x20 .f32) (c2v sc2v amv : Vec Ideal S1x20 .f32)
    (hx : ∀ (r : Fin 1024) (d : Fin 512), xt (ix3 (0 : Fin 1) r d) = x (ix3 b (tok j r) d))
    (hp : ∀ (d : Fin 512) (k : Fin 20), pT (ix2 d k) = pos (ix2 k d))
    (hc : ∀ k : Fin 20, c2v (ix2 (0 : Fin 1) k) = centre2 pos k)
    (hs : ∀ k : Fin 20, sc2v (ix2 (0 : Fin 1) k) = scale2 ls k)
    (ha : ∀ k : Fin 20, amv (ix2 (0 : Fin 1) k) = amp (ix1 k))
    (wv : A2 512 512) (wvT : Vec Ideal S512x512 .f32) (acc : Vec Ideal S20x512 .f32)
    (hw : ∀ (d e : Fin 512), wvT (ix2 d e) = wv (ix2 e d))
    (k : Fin 20) (d : Fin 512) :
    k0_pay3 (k0_pay7 xt) (k0_pay8 xt pT c2v sc2v amv) (k0_pay9 xt pT c2v sc2v amv) k0_pay10 wvT acc (ix2 k d)
      = acc (ix2 k d) + ∑ r : Fin 1024, attn x pos ls amp b (tok j r) k * value x wv b (tok j r) d := by
  unfold k0_pay3
  rw [shapeCast_self, addf_apply, dot_tl_apply]
  refine congrArg (acc (ix2 k d) + ·) (Finset.sum_congr rfl fun r _ => ?_)
  rw [truncf_apply, truncf_apply, attn_mat x pos ls amp b j xt pT c2v sc2v amv hx hp hc hs ha r k, value_tile x wv b j xt wvT hx hw r d]

end Cert.SplatAttention.Payload

end
-- ==== Proof.PayloadB.lean ====
/-
  The second kernel's payload read at an index, and the two layout payloads of the first kernel.
  The second kernel drops the leading unit axis of a tile of normalised weights `[1, 1024, 20]` and of
  the splat states `[1, 20, 512]`, multiplies the two matrices, multiplies the result with a
  `[512, 512]` matrix, and puts the unit axis back: entry `(0, r, e)` is the sum over `d` of
  (the sum over `k` of weight `(r, k)` times state `(k, d)`) times the matrix entry `(d, e)`. Over the
  extended reals every change of float format is the identity.
-/
import proofs.«161355_j43224550867593_1_alg».proof.Proof.Gen.KernelIdeal.Skeleton
import proofs.«161355_j43224550867593_1_alg».proof.Proof.Spec
import proofs.«161355_j43224550867593_1_alg».proof.Proof.PayloadDots
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.SplatAttention.Payload

open Idealize.ShloMosaic Idealize.ShloMosaic.ValueIdx Cert.KernelIdeal Cert.KernelIdeal.Gen

/-- The second kernel's stored tile at `(0, r, e)`. -/
theorem out_tile (a0 : Vec Ideal S1x1024x20 .f32) (s0 : Vec Ideal S1x20x512 .f32) (woT : Vec Ideal S512x512 .f32)
    (r : Fin 1024) (e : Fin 512) :
    k1_pay1 a0 s0 woT (ix3 (0 : Fin 1) r e)
      = ∑ d : Fin 512, (∑ k : Fin 20, a0 (ix3 (0 : Fin 1) r k) * s0 (ix3 (0 : Fin 1) k d)) * woT (ix2 d e) := by
  unfold k1_pay1
  rw [shapeCast_ab_1ab_apply, dot_proj_apply]
  refine Finset.sum_congr rfl fun d _ => ?_
  rw [truncf_apply, dot_mix_apply, truncf_apply, shapeCast_self]
  refine congrArg (· * woT (ix2 d e)) (Finset.sum_congr rfl fun k _ => ?_)
  rw [truncf_apply, truncf_apply, shapeCast_1ab_ab_apply, shapeCast_1ab_ab_apply]

/-- The first kernel's initial accumulator: the zero word spread over `[20, 512]`. -/
theorem zero_tile (k : Fin 20) (d : Fin 512) : k0_pay5 (F := Ideal) (ix2 k d) = 0 := by
  unfold k0_pay5
  rw [shapeCast_self, broadcast_apply]
  exact Ideal.ofBits_zero_f32

/-- The accumulator stored as a `[1, 20, 512]` block: entry `(0, k, d)` is the accumulator's `(k, d)`. -/
theorem splat_cast (acc : Vec Ideal S20x512 .f32) (k : Fin 20) (d : Fin 512) :
    k0_pay4 acc (ix3 (0 : Fin 1) k d) = acc (ix2 k d) := by
  unfold k0_pay4
  rw [shapeCast_ab_1ab_apply]

end Cert.SplatAttention.Payload

end
-- ==== Proof.LibGroupSum.lean ====
/-
  A sum over `G * R` consecutive positions, read as `G` groups of `R`: when every term outside one group vanishes, the
  sum is the sum over that group. In any additive commutative monoid, for any `G` and `R`.
-/
import Mathlib.Algebra.BigOperators.Fin
import Mathlib.Algebra.BigOperators.Group.Finset.Basic
import Mathlib.Logic.Equiv.Fin.Basic

namespace Cert.LibGroupSum

open Finset

/-- Position `R * g + r` of `G * R`: place `r` of group `g`. -/
def pos {G R : Nat} (g : Fin G) (r : Fin R) : Fin (G * R) := finProdFinEquiv (g, r)

theorem pos_val {G R : Nat} (g : Fin G) (r : Fin R) : (pos g r).val = r.val + R * g.val := rfl

/-- A sum over `G * R` positions is the sum over the groups of the sums over their places. -/
theorem sum_groups {M : Type*} [AddCommMonoid M] {G R : Nat} (f : Fin (G * R) → M) :
    ∑ j : Fin (G * R), f j = ∑ g : Fin G, ∑ r : Fin R, f (pos g r) := by
  rw [← Fintype.sum_prod_type' (fun g r => f (pos g r))]
  exact (Fintype.sum_equiv finProdFinEquiv (fun p => f (pos p.1 p.2)) f (fun _ => rfl)).symm

/-- If every term outside group `g` is zero, the whole sum is the sum over group `g`. -/
theorem sum_one_group {M : Type*} [AddCommMonoid M] {G R : Nat} (f : Fin (G * R) → M) (g : Fin G)
    (h0 : ∀ (g' : Fin G) (r : Fin R), g' ≠ g → f (pos g' r) = 0) :
    ∑ j : Fin (G * R), f j = ∑ r : Fin R, f (pos g r) := by
  rw [sum_groups]
  refine Finset.sum_eq_single_of_mem g (Finset.mem_univ g) fun g' _ hg' => ?_
  exact Finset.sum_eq_zero fun r _ => h0 g' r hg'

end Cert.LibGroupSum
-- ==== Proof.IdealArray0.lean ====
/-
  The first kernel region's two output arrays after the run, as the specification's functions of the
  argument arrays. The grid is 4 batch rows by 8 tiles of 1024 tokens; point `t` works on row `t / 8` and
  tile `t % 8`. The weights block written back at every point is that tile of the normalised weights, and
  the blocks tile the array. The scratch after the body at point `t` is the sum, over the tiles `0 … t % 8`
  of the row, of the tile's weightsᵀ · values; the splat block is a copy of it and is written back only after
  the row's last tile, when that sum runs over all 8192 tokens of the row.
-/
import proofs.«161355_j43224550867593_1_alg».proof.Proof.IdealRegion0Dat
import proofs.«161355_j43224550867593_1_alg».proof.Proof.PayloadA
import proofs.«161355_j43224550867593_1_alg».proof.Proof.PayloadB
import proofs.«161355_j43224550867593_1_alg».proof.Proof.Spec
import proofs.«161355_j43224550867593_1_alg».proof.Proof.LibGroupSum
import Idealize.ShloMosaic.Lib.Pipeline.Value
import Idealize.ShloMosaic.Lib.ValueIdx

set_option maxRecDepth 16384

noncomputable section

open scoped BigOperators

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.SplatAttention Cert.SplatAttention.Payload

variable (V : (c : Dev nD) → (b : Ref sig .tc) → Buf (Elt Ideal) ((c : Thread nD τ).loc b))

/-! ## The grid's points and the windows' block indices -/

/-- The batch row of grid point `t`. -/
def rowOf (t : Fin cfg0.N) : Fin 4 := ⟨t.val / 8, by have h := t.isLt; have hN : cfg0.N = 32 := N_0; omega⟩
/-- The tile of grid point `t` within its row. -/
def tileOf (t : Fin cfg0.N) : Fin 8 := ⟨t.val % 8, by omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 32 points: the token windows move with `(t / 8, t % 8)`, the splat
    window with `t / 8`, the five parameter windows stay. -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 8 ∧ win0_6.index t (1 : Fin 3) = t.val % 8 ∧ win0_6.index t (2 : Fin 3) = 0
    ∧ win0_7.index t (0 : Fin 3) = t.val / 8 ∧ win0_7.index t (1 : Fin 3) = 0 ∧ win0_7.index t (2 : Fin 3) = 0 :=
  (by decide +kernel : ∀ t : Fin grid0.N, _)

/-! ## The blocks read off their arrays, at a symbolic point -/

/-- The token tile at point `t`: rows `tok (t % 8) r` of batch row `t / 8`. -/
theorem blk0_apply (c : Dev nD) (t : Fin cfg0.N) (r : Fin 1024) (d : Fin 512) :
    iblk0 V c 0 t (ix3 (0 : Fin 1) r d) = V c main_arg0 (ix3 (rowOf t) (tok (tileOf t) r) d) := by
  obtain ⟨e0, e1, e2, -⟩ := idx_facts0 t
  show V c main_arg0 (((cfg0.win 0).blk t).view.emb (ix3 (0 : Fin 1) r d)) = _
  refine congrArg _ (funext fun a => Fin.ext ?_)
  match a with
  | ⟨0, _⟩ => show win0_0.index t (0 : Fin 3) * 1 + 1 * 0 = t.val / 8; omega
  | ⟨1, _⟩ => show win0_0.index t (1 : Fin 3) * 1024 + 1 * r.val = t.val % 8 * 1024 + r.val; omega
  | ⟨2, _⟩ => show win0_0.index t (2 : Fin 3) * 512 + 1 * d.val = d.val; omega

/-- The transposed centres, whole at every point. -/
theorem blk1_apply (c : Dev nD) (t : Fin cfg0.N) (d : Fin 512) (k : Fin 20) :
    iblk0 V c 1 t (ix2 d k) = V c main_v7 (ix2 d k) := by
  obtain ⟨-, -, -, e0, e1, -⟩ := idx_facts0 t
  show V c main_v7 (((cfg0.win 1).blk t).view.emb (ix2 d k)) = _
  refine congrArg _ (funext fun a => Fin.ext ?_)
  match a with
  | ⟨0, _⟩ => show win0_1.index t (0 : Fin 2) * 512 + 1 * d.val = d.val; omega
  | ⟨1, _⟩ => show win0_1.index t (1 : Fin 2) * 20 + 1 * k.val = k.val; omega

/-- The centres' squared norms, whole at every point. -/
theorem blk2_apply (c : Dev nD) (t : Fin cfg0.N) (k : Fin 20) :
    iblk0 V c 2 t (ix2 (0 : Fin 1) k) = V c main_v5 (ix2 (0 : Fin 1) k) := by
  obtain ⟨-, -, -, -, -, e0, e1, -⟩ := idx_facts0 t
  show V c main_v5 (((cfg0.win 2).blk t).view.emb (ix2 (0 : Fin 1) k)) = _
  refine congrArg _ (funext fun a => Fin.ext ?_)
  match a with
  | ⟨0, _⟩ => show win0_2.index t (0 : Fin 2) * 1 + 1 * 0 = 0; omega
  | ⟨1, _⟩ => show win0_2.index t (1 : Fin 2) * 20 + 1 * k.val = k.val; omega

/-- The squared scales, whole at every point. -/
theorem blk3_apply (c : Dev nD) (t : Fin cfg0.N) (k : Fin 20) :
    iblk0 V c 3 t (ix2 (0 : Fin 1) k) = V c main_v2 (ix2 (0 : Fin 1) k) := by
  obtain ⟨-, -, -, -, -, -, -, e0, e1, -⟩ := idx_facts0 t
  show V c main_v2 (((cfg0.win 3).blk t).view.emb (ix2 (0 : Fin 1) k)) = _
  refine congrArg _ (funext fun a => Fin.ext ?_)
  match a with
  | ⟨0, _⟩ => show win0_3.index t (0 : Fin 2) * 1 + 1 * 0 = 0; omega
  | ⟨1, _⟩ => show win0_3.index t (1 : Fin 2) * 20 + 1 * k.val = k.val; omega

/-- The amplitudes, whole at every point. -/
theorem blk4_apply (c : Dev nD) (t : Fin cfg0.N) (k : Fin 20) :
    iblk0 V c 4 t (ix2 (0 : Fin 1) k) = V c main_v6 (ix2 (0 : Fin 1) k) := by
  obtain ⟨-, -, -, -, -, -, -, -, -, e0, e1, -⟩ := idx_facts0 t
  show V c main_v6 (((cfg0.win 4).blk t).view.emb (ix2 (0 : Fin 1) k)) = _
  refine congrArg _ (funext fun a => Fin.ext ?_)
  match a with
  | ⟨0, _⟩ => show win0_4.index t (0 : Fin 2) * 1 + 1 * 0 = 0; omega
  | ⟨1, _⟩ => show win0_4.index t (1 : Fin 2) * 20 + 1 * k.val = k.val; omega

/-- The transposed value matrix, whole at every point. -/
theorem blk5_apply (c : Dev nD) (t : Fin cfg0.N) (d e : Fin 512) :
    iblk0 V c 5 t (ix2 d e) = V c main_v8 (ix2 d e) := by
  obtain ⟨-, -, -, -, -, -, -, -, -, -, -, e0, e1, -⟩ := idx_facts0 t
  show V c main_v8 (((cfg0.win 5).blk t).view.emb (ix2 d e)) = _
  refine congrArg _ (funext fun a => Fin.ext ?_)
  match a with
  | ⟨0, _⟩ => show win0_5.index t (0 : Fin 2) * 512 + 1 * d.val = d.val; omega
  | ⟨1, _⟩ => show win0_5.index t (1 : Fin 2) * 512 + 1 * e.val = e.val; omega

/-- Where the weights block of point `t` sits in its array. -/
theorem emb6 (t : Fin cfg0.N) (r : Fin 1024) (k : Fin 20) :
    (((cfg0.win 6).blk t).view.emb (ix3 (0 : Fin 1) r k) : S4x8192x20.Idx) = ix3 (rowOf t) (tok (tileOf t) r) k := by
  obtain ⟨-, -, -, -, -, -, -, -, -, -, -, -, -, e0, e1, e2, -⟩ := idx_facts0 t
  refine funext fun a => Fin.ext ?_
  match a with
  | ⟨0, _⟩ => show win0_6.index t (0 : Fin 3) * 1 + 1 * 0 = t.val / 8; omega
  | ⟨1, _⟩ => show win0_6.index t (1 : Fin 3) * 1024 + 1 * r.val = t.val % 8 * 1024 + r.val; omega
  | ⟨2, _⟩ => show win0_6.index t (2 : Fin 3) * 20 + 1 * k.val = k.val; omega

/-- Where the splat block of point `t` sits in its array. -/
theorem emb7 (t : Fin cfg0.N) (k : Fin 20) (d : Fin 512) :
    (((cfg0.win 7).blk t).view.emb (ix3 (0 : Fin 1) k d) : S4x20x512.Idx) = ix3 (rowOf t) k d := by
  obtain ⟨-, -, -, -, -, -, -, -, -, -, -, -, -, -, -, -, e0, e1, e2⟩ := idx_facts0 t
  refine funext fun a => Fin.ext ?_
  match a with
  | ⟨0, _⟩ => show win0_7.index t (0 : Fin 3) * 1 + 1 * 0 = t.val / 8; omega
  | ⟨1, _⟩ => show win0_7.index t (1 : Fin 3) * 20 + 1 * k.val = k.val; omega
  | ⟨2, _⟩ => show win0_7.index t (2 : Fin 3) * 512 + 1 * d.val = d.val; omega

/-! ## The body's payloads over blocks that hold a tile of the arguments -/

section Spec
variable (x : A3 4 8192 512) (pos : A2 20 512) (ls amp : A1 20) (wv : A2 512 512)

/-- One tile's contribution to the splat state `(b, k, d)`: the sum over the tile's 1024 tokens. -/
def tileSum (b : Fin 4) (j : Fin 8) (k : Fin 20) (d : Fin 512) : EReal :=
  ∑ r : Fin 1024, attn x pos ls amp b (tok j r) k * value x wv b (tok j r) d

/-- The contributions of the tiles `0 … m` of a row. -/
def partialSum (b : Fin 4) (m : Nat) (k : Fin 20) (d : Fin 512) : EReal :=
  ∑ j ∈ (Finset.univ : Finset (Fin 8)).filter (fun j => j.val ≤ m), tileSum x pos ls amp wv b j k d

/-- The weights payload over blocks holding tile `j` of row `b`. -/
theorem attnPay_apply (b : Fin 4) (j : Fin 8) (x0 : Vec Ideal S1x1024x512 .f32) (x1 : Vec Ideal S512x20 .f32) (x2 x3 x4 : Vec Ideal S1x20 .f32)
    (hx : ∀ (r : Fin 1024) (d : Fin 512), x0 (ix3 (0 : Fin 1) r d) = x (ix3 b (tok j r) d))
    (hp : ∀ (d : Fin 512) (k : Fin 20), x1 (ix2 d k) = pos (ix2 k d))
    (hc : ∀ k : Fin 20, x2 (ix2 (0 : Fin 1) k) = centre2 pos k)
    (hs : ∀ k : Fin 20, x3 (ix2 (0 : Fin 1) k) = scale2 ls k)
    (ha : ∀ k : Fin 20, x4 (ix2 (0 : Fin 1) k) = amp (ix1 k))
    (r : Fin 1024) (k : Fin 20) :
    attnPay x0 x1 x2 x3 x4 (ix3 (0 : Fin 1) r k) = attn x pos ls amp b (tok j r) k := by
  unfold attnPay
  simp only [View.ld_unit_zero (S := S1x1024x512) hz3, View.ld_unit_zero (S := S512x20) hz2,
    View.ld_unit_zero (S := S1x20) hz2]
  exact attn_tile x pos ls amp b j x0 x1 x2 x3 x4 hx hp hc hs ha r k

/-- The scratch payload over the same blocks: what the scratch held plus the tile's contribution. -/
theorem accPay_apply (b : Fin 4) (j : Fin 8) (x0 : Vec Ideal S1x1024x512 .f32) (x1 : Vec Ideal S512x20 .f32) (x2 x3 x4 : Vec Ideal S1x20 .f32)
    (hx : ∀ (r : Fin 1024) (d : Fin 512), x0 (ix3 (0 : Fin 1) r d) = x (ix3 b (tok j r) d))
    (hp : ∀ (d : Fin 512) (k : Fin 20), x1 (ix2 d k) = pos (ix2 k d))
    (hc : ∀ k : Fin 20, x2 (ix2 (0 : Fin 1) k) = centre2 pos k)
    (hs : ∀ k : Fin 20, x3 (ix2 (0 : Fin 1) k) = scale2 ls k)
    (ha : ∀ k : Fin 20, x4 (ix2 (0 : Fin 1) k) = amp (ix1 k))
    (x5 : Vec Ideal S512x512 .f32) (a : Vec Ideal S20x512 .f32)
    (hw : ∀ (d e : Fin 512), x5 (ix2 d e) = wv (ix2 e d))
    (k : Fin 20) (d : Fin 512) :
    accPay x0 x1 x2 x3 x4 x5 a (ix2 k d) = a (ix2 k d) + tileSum x pos ls amp wv b j k d := by
  unfold accPay
  simp only [View.ld_unit_zero (S := S1x1024x512) hz3, View.ld_unit_zero (S := S512x20) hz2,
    View.ld_unit_zero (S := S1x20) hz2, View.ld_unit_zero (S := S512x512) hz2]
  exact contrib_tile x pos ls amp b j x0 x1 x2 x3 x4 hx hp hc hs ha wv x5 a hw k d

/-! ## The weights array -/

/-- What point `t` writes back to the weights array is block `t` of the specification's normalised weights. -/
theorem flushed6_eq (c : Dev nD)
    (hx : ∀ i, V c main_arg0 i = x i)
    (hp : ∀ (d : Fin 512) (k : Fin 20), V c main_v7 (ix2 d k) = pos (ix2 k d))
    (hc : ∀ k : Fin 20, V c main_v5 (ix2 (0 : Fin 1) k) = centre2 pos k)
    (hs : ∀ k : Fin 20, V c main_v2 (ix2 (0 : Fin 1) k) = scale2 ls k)
    (ha : ∀ k : Fin 20, V c main_v6 (ix2 (0 : Fin 1) k) = amp (ix1 k))
    (t : Fin cfg0.N) :
    (dat0 (F := Ideal) V c).flushed 6 t = ((cfg0.win 6).blk t).view.read (Elt Ideal) (attnArr x pos ls amp) := by
  show (cfg0.win 6).cut (grid0.coords t) ((dat0 V c).after 6 t) = _
  rw [after0_6]
  unfold attnOut
  rw [View.canon_unit_zero hz3]
  funext y
  obtain ⟨u, r, k, rfl⟩ : ∃ (u : Fin 1) (r : Fin 1024) (k : Fin 20), y = ix3 u r k := ⟨y 0, y 1, y 2, eq_ix3 y⟩
  obtain rfl : u = 0 := Subsingleton.elim _ _
  show attnPay (iblk0 V c 0 t) (iblk0 V c 1 t) (iblk0 V c 2 t) (iblk0 V c 3 t) (iblk0 V c 4 t) (ix3 (0 : Fin 1) r k)
    = attnArr x pos ls amp (((cfg0.win 6).blk t).view.emb (ix3 (0 : Fin 1) r k))
  refine (attnPay_apply x pos ls amp (rowOf t) (tileOf t) (iblk0 V c 0 t) (iblk0 V c 1 t) (iblk0 V c 2 t) (iblk0 V c 3 t) (iblk0 V c 4 t)
      (fun r d => (blk0_apply V c t r d).trans (hx _)) (fun d k => (blk1_apply V c t d k).trans (hp d k))
      (fun k => (blk2_apply V c t k).trans (hc k)) (fun k => (blk3_apply V c t k).trans (hs k))
      (fun k => (blk4_apply V c t k).trans (ha k)) r k).trans ?_
  exact (congrArg (attnArr x pos ls amp) (emb6 t r k)).symm

/-- Every index of the weights array lies in the block of the point of its row and tile. -/
theorem cover6 (i : S4x8192x20.Idx) :
    ∃ t : Fin cfg0.N, (cfg0.win 6).flush t = true ∧ i ∈ ((cfg0.win 6).blk t).view.set := by
  obtain ⟨b, s, k, rfl⟩ : ∃ (b : Fin 4) (s : Fin 8192) (k : Fin 20), i = ix3 b s k := ⟨i 0, i 1, i 2, eq_ix3 i⟩
  have hN : cfg0.N = 32 := N_0
  have ht : 8 * b.val + s.val / 1024 < cfg0.N := by omega
  refine ⟨⟨8 * b.val + s.val / 1024, ht⟩, flush0_6 _, ?_⟩
  have hm := ((cfg0.win 6).blk ⟨8 * b.val + s.val / 1024, ht⟩).view.emb_mem_set
    (ix3 (0 : Fin 1) (⟨s.val % 1024, by omega⟩ : Fin 1024) k)
  have e : (((cfg0.win 6).blk ⟨8 * b.val + s.val / 1024, ht⟩).view.emb
      (ix3 (0 : Fin 1) (⟨s.val % 1024, by omega⟩ : Fin 1024) k) : S4x8192x20.Idx) = ix3 b s k := by
    refine (emb6 _ _ _).trans (funext fun a => Fin.ext ?_)
    match a with
    | ⟨0, _⟩ => show (8 * b.val + s.val / 1024) / 8 = b.val; omega
    | ⟨1, _⟩ => show (8 * b.val + s.val / 1024) % 8 * 1024 + s.val % 1024 = s.val; omega
    | ⟨2, _⟩ => rfl
  exact e ▸ hm

/-- THE WEIGHTS ARRAY after the region: the specification's normalised weights. -/
theorem final0_attn (c : Dev nD)
    (hx : ∀ i, V c main_arg0 i = x i)
    (hp : ∀ (d : Fin 512) (k : Fin 20), V c main_v7 (ix2 d k) = pos (ix2 k d))
    (hc : ∀ k : Fin 20, V c main_v5 (ix2 (0 : Fin 1) k) = centre2 pos k)
    (hs : ∀ k : Fin 20, V c main_v2 (ix2 (0 : Fin 1) k) = scale2 ls k)
    (ha : ∀ k : Fin 20, V c main_v6 (ix2 (0 : Fin 1) k) = amp (ix1 k)) :
    (dat0 (F := Ideal) V c).arrAt 6 cfg0.N = attnArr x pos ls amp :=
  (dat0 (F := Ideal) V c).arrAt_eq_of_cover 6 (attnArr x pos ls amp)
    (fun t _ => flushed6_eq V x pos ls amp c hx hp hc hs ha t) cover6

/-! ## The scratch after each point: the row's tiles so far -/

/-- Sums over the tiles `0 … m`: the first tile alone, one more tile, and all eight. -/
theorem sum_upto_zero (f : Fin 8 → EReal) (j : Fin 8) (h : j.val = 0) :
    ∑ i ∈ (Finset.univ : Finset (Fin 8)).filter (fun i => i.val ≤ 0), f i = f j := by
  have e : (Finset.univ : Finset (Fin 8)).filter (fun i => i.val ≤ 0) = {j} := by
    ext i
    simp only [Finset.mem_filter, Finset.mem_univ, true_and, Finset.mem_singleton, Fin.ext_iff]
    omega
  rw [e, Finset.sum_singleton]
theorem sum_upto_succ (f : Fin 8 → EReal) (j : Fin 8) (m : Nat) (h : j.val = m + 1) :
    ∑ i ∈ (Finset.univ : Finset (Fin 8)).filter (fun i => i.val ≤ m + 1), f i
      = ∑ i ∈ (Finset.univ : Finset (Fin 8)).filter (fun i => i.val ≤ m), f i + f j := by
  have e : (Finset.univ : Finset (Fin 8)).filter (fun i => i.val ≤ m + 1)
      = insert j ((Finset.univ : Finset (Fin 8)).filter (fun i => i.val ≤ m)) := by
    ext i
    simp only [Finset.mem_filter, Finset.mem_univ, true_and, Finset.mem_insert, Fin.ext_iff]
    omega
  have hj : j ∉ (Finset.univ : Finset (Fin 8)).filter (fun i => i.val ≤ m) := by
    simp only [Finset.mem_filter, Finset.mem_univ, true_and]
    omega
  rw [e, Finset.sum_insert hj, add_comm]
theorem sum_upto_all (f : Fin 8 → EReal) :
    ∑ i ∈ (Finset.univ : Finset (Fin 8)).filter (fun i => i.val ≤ 7), f i = ∑ i, f i := by
  rw [Finset.filter_true_of_mem fun i _ => by have := i.isLt; omega]

/-- The scratch after the body at position `n` holds, at `(k, d)`, the contributions of the tiles `0 … n % 8` of
    the row `n / 8`: at a row's first tile the zeroed scratch plus the tile's, afterwards what the point before left
    plus the tile's. -/
theorem scratch_at (c : Dev nD)
    (hx : ∀ i, V c main_arg0 i = x i)
    (hp : ∀ (d : Fin 512) (k : Fin 20), V c main_v7 (ix2 d k) = pos (ix2 k d))
    (hc : ∀ k : Fin 20, V c main_v5 (ix2 (0 : Fin 1) k) = centre2 pos k)
    (hs : ∀ k : Fin 20, V c main_v2 (ix2 (0 : Fin 1) k) = scale2 ls k)
    (ha : ∀ k : Fin 20, V c main_v6 (ix2 (0 : Fin 1) k) = amp (ix1 k))
    (hw : ∀ d e : Fin 512, V c main_v8 (ix2 d e) = wv (ix2 e d)) :
    ∀ (n : Nat) (hn : n < cfg0.N) (k : Fin 20) (d : Fin 512),
      (outsAt0 V c n hn).2 (ix2 k d) = partialSum x pos ls amp wv (rowOf ⟨n, hn⟩) (n % 8) k d := by
  intro n
  induction n with
  | zero =>
    intro hn k d
    have h0 : (⟨0, hn⟩ : Fin cfg0.N).val % 8 = 0 := rfl
    let t : Fin cfg0.N := ⟨0, hn⟩
    rw [show outsAt0 V c 0 hn = _ from outsAt0_first V c t h0]
    dsimp only
    unfold accFirst
    rw [View.canon_cons_unit_zero hz2]
    rw [accPay_apply x pos ls amp wv (rowOf t) (tileOf t) (iblk0 V c 0 t) (iblk0 V c 1 t) (iblk0 V c 2 t) (iblk0 V c 3 t) (iblk0 V c 4 t)
      (fun r d => (blk0_apply V c t r d).trans (hx _)) (fun d k => (blk1_apply V c t d k).trans (hp d k))
      (fun k => (blk2_apply V c t k).trans (hc k)) (fun k => (blk3_apply V c t k).trans (hs k))
      (fun k => (blk4_apply V c t k).trans (ha k))
      (iblk0 V c 5 t) (k0_pay5 (F := Ideal)) (fun d e => (blk5_apply V c t d e).trans (hw d e)) k d, zero_tile, zero_add]
    unfold partialSum
    exact (sum_upto_zero (fun j => tileSum x pos ls amp wv (rowOf t) j k d) (tileOf t) rfl).symm
  | succ n ih =>
    intro hn k d
    let t : Fin cfg0.N := ⟨n + 1, hn⟩
    by_cases h0 : (n + 1) % 8 = 0
    · rw [show outsAt0 V c (n + 1) hn = _ from outsAt0_first V c t h0]
      dsimp only
      unfold accFirst
      rw [View.canon_cons_unit_zero hz2]
      rw [accPay_apply x pos ls amp wv (rowOf t) (tileOf t) (iblk0 V c 0 t) (iblk0 V c 1 t) (iblk0 V c 2 t) (iblk0 V c 3 t) (iblk0 V c 4 t)
      (fun r d => (blk0_apply V c t r d).trans (hx _)) (fun d k => (blk1_apply V c t d k).trans (hp d k))
      (fun k => (blk2_apply V c t k).trans (hc k)) (fun k => (blk3_apply V c t k).trans (hs k))
      (fun k => (blk4_apply V c t k).trans (ha k))
        (iblk0 V c 5 t) (k0_pay5 (F := Ideal)) (fun d e => (blk5_apply V c t d e).trans (hw d e)) k d, zero_tile, zero_add, h0]
      unfold partialSum
      exact (sum_upto_zero (fun j => tileSum x pos ls amp wv (rowOf t) j k d) (tileOf t) h0).symm
    · rw [show outsAt0 V c (n + 1) hn = _ from outsAt0_next V c t h0]
      dsimp only
      unfold accNext
      rw [View.canon_unit_zero hz2, View.ld_unit_zero (S := S20x512) hz2]
      rw [accPay_apply x pos ls amp wv (rowOf t) (tileOf t) (iblk0 V c 0 t) (iblk0 V c 1 t) (iblk0 V c 2 t) (iblk0 V c 3 t) (iblk0 V c 4 t)
      (fun r d => (blk0_apply V c t r d).trans (hx _)) (fun d k => (blk1_apply V c t d k).trans (hp d k))
      (fun k => (blk2_apply V c t k).trans (hc k)) (fun k => (blk3_apply V c t k).trans (hs k))
      (fun k => (blk4_apply V c t k).trans (ha k))
        (iblk0 V c 5 t) _ (fun d e => (blk5_apply V c t d e).trans (hw d e)) k d]
      have hrow : rowOf ⟨n, Nat.lt_of_succ_lt hn⟩ = rowOf t := Fin.ext (by show n / 8 = (n + 1) / 8; omega)
      have hm : (n + 1) % 8 = n % 8 + 1 := by omega
      have ihn := ih (Nat.lt_of_succ_lt hn) k d
      rw [hrow] at ihn
      refine (congrArg (· + tileSum x pos ls amp wv (rowOf t) (tileOf t) k d) ihn).trans ?_
      rw [hm]
      unfold partialSum
      exact (sum_upto_succ (fun j => tileSum x pos ls amp wv (rowOf t) j k d) (tileOf t) (n % 8) hm).symm

/-- The splat block after the body is a copy of the scratch. -/
theorem splat_eq_scratch (c : Dev nD) (t : Fin cfg0.N) (k : Fin 20) (d : Fin 512) :
    (outsAt0 V c t.val t.isLt).1 (ix3 (0 : Fin 1) k d) = (outsAt0 V c t.val t.isLt).2 (ix2 k d) := by
  by_cases h0 : t.val % 8 = 0
  · rw [outsAt0_first V c t h0]
    dsimp only
    unfold splatFirst accFirst
    rw [View.canon_unit_zero hz3, View.canon_cons_unit_zero hz2, splat_cast]
  · rw [outsAt0_next V c t h0]
    dsimp only
    unfold splatNext accNext
    rw [View.canon_unit_zero hz3, View.canon_unit_zero hz2, splat_cast]

/-! ## The splat array -/

/-- A sum over a row's 8192 tokens, taken tile by tile. -/
theorem sum_tiles (f : Fin 8192 → EReal) : ∑ s : Fin 8192, f s = ∑ j : Fin 8, ∑ r : Fin 1024, f (tok j r) := by
  refine (Cert.LibGroupSum.sum_groups (G := 8) (R := 1024) f).trans
    (Finset.sum_congr rfl fun g _ => Finset.sum_congr rfl fun r _ => congrArg f (Fin.ext ?_))
  show r.val + 1024 * g.val = g.val * 1024 + r.val
  omega

/-- What a row's last point writes back to the splat array is that row's block of the specification's splat
    states: the scratch then holds all eight tiles' contributions, that is the sum over the row's 8192 tokens. -/
theorem flushed7_eq (c : Dev nD)
    (hx : ∀ i, V c main_arg0 i = x i)
    (hp : ∀ (d : Fin 512) (k : Fin 20), V c main_v7 (ix2 d k) = pos (ix2 k d))
    (hc : ∀ k : Fin 20, V c main_v5 (ix2 (0 : Fin 1) k) = centre2 pos k)
    (hs : ∀ k : Fin 20, V c main_v2 (ix2 (0 : Fin 1) k) = scale2 ls k)
    (ha : ∀ k : Fin 20, V c main_v6 (ix2 (0 : Fin 1) k) = amp (ix1 k))
    (hw : ∀ d e : Fin 512, V c main_v8 (ix2 d e) = wv (ix2 e d))
    (t : Fin cfg0.N) (hf : (cfg0.win 7).flush t = true) :
    (dat0 (F := Ideal) V c).flushed 7 t = ((cfg0.win 7).blk t).view.read (Elt Ideal) (splatArr x pos ls amp wv) := by
  have h7 : t.val % 8 = 7 := (flush0_7 t).mp hf
  show (cfg0.win 7).cut (grid0.coords t) ((dat0 V c).after 7 t) = _
  rw [after0_7]
  funext y
  obtain ⟨u, k, d, rfl⟩ : ∃ (u : Fin 1) (k : Fin 20) (d : Fin 512), y = ix3 u k d := ⟨y 0, y 1, y 2, eq_ix3 y⟩
  obtain rfl : u = 0 := Subsingleton.elim _ _
  show (outsAt0 V c t.val t.isLt).1 (ix3 (0 : Fin 1) k d)
    = splatArr x pos ls amp wv (((cfg0.win 7).blk t).view.emb (ix3 (0 : Fin 1) k d))
  rw [splat_eq_scratch, scratch_at V x pos ls amp wv c hx hp hc hs ha hw t.val t.isLt k d, h7]
  refine Eq.trans ?_ (congrArg (splatArr x pos ls amp wv) (emb7 t k d)).symm
  show partialSum x pos ls amp wv (rowOf t) 7 k d = splat x pos ls amp wv (rowOf t) k d
  unfold partialSum splat
  rw [sum_upto_all, sum_tiles]
  rfl

/-- Every index of the splat array lies in the block of its row's last point, which writes back. -/
theorem cover7 (i : S4x20x512.Idx) :
    ∃ t : Fin cfg0.N, (cfg0.win 7).flush t = true ∧ i ∈ ((cfg0.win 7).blk t).view.set := by
  obtain ⟨b, k, d, rfl⟩ : ∃ (b : Fin 4) (k : Fin 20) (d : Fin 512), i = ix3 b k d := ⟨i 0, i 1, i 2, eq_ix3 i⟩
  have hN : cfg0.N = 32 := N_0
  have ht : 8 * b.val + 7 < cfg0.N := by omega
  refine ⟨⟨8 * b.val + 7, ht⟩, (flush0_7 _).mpr (by show (8 * b.val + 7) % 8 = 7; omega), ?_⟩
  have hm := ((cfg0.win 7).blk ⟨8 * b.val + 7, ht⟩).view.emb_mem_set (ix3 (0 : Fin 1) k d)
  have e : (((cfg0.win 7).blk ⟨8 * b.val + 7, ht⟩).view.emb (ix3 (0 : Fin 1) k d) : S4x20x512.Idx) = ix3 b k d := by
    refine (emb7 _ _ _).trans (funext fun a => Fin.ext ?_)
    match a with
    | ⟨0, _⟩ => show (8 * b.val + 7) / 8 = b.val; omega
    | ⟨1, _⟩ => rfl
    | ⟨2, _⟩ => rfl
  exact e ▸ hm

/-- THE SPLAT ARRAY after the region: the specification's splat states. -/
theorem final0_splat (c : Dev nD)
    (hx : ∀ i, V c main_arg0 i = x i)
    (hp : ∀ (d : Fin 512) (k : Fin 20), V c main_v7 (ix2 d k) = pos (ix2 k d))
    (hc : ∀ k : Fin 20, V c main_v5 (ix2 (0 : Fin 1) k) = centre2 pos k)
    (hs : ∀ k : Fin 20, V c main_v2 (ix2 (0 : Fin 1) k) = scale2 ls k)
    (ha : ∀ k : Fin 20, V c main_v6 (ix2 (0 : Fin 1) k) = amp (ix1 k))
    (hw : ∀ d e : Fin 512, V c main_v8 (ix2 d e) = wv (ix2 e d)) :
    (dat0 (F := Ideal) V c).arrAt 7 cfg0.N = splatArr x pos ls amp wv :=
  (dat0 (F := Ideal) V c).arrAt_eq_of_cover 7 (splatArr x pos ls amp wv)
    (fun t hf => flushed7_eq V x pos ls amp wv c hx hp hc hs ha hw t hf) cover7

end Spec

end Cert.KernelIdeal.HandValue

end
-- ==== Proof.IdealArray1.lean ====
/-
  The second kernel region's output array, as one function of the three arrays the region finds.

  The region runs over a grid of 4 × 8 points. At point (b, g) it reads the block of normalised weights of the
  1024 tokens 1024·g … 1024·g + 1023 of batch row b, the splat states of batch row b, and the whole 512 × 512 matrix, and
  writes the block of the output for those 1024 tokens. The block written holds, at token r of the block and column e,
  the sum over d of (the sum over the 20 centres k of weight (r, k) times state (k, d)) times the matrix entry (d, e).
  Every block read sits where the output block sits (same batch row, same group of tokens), so each point writes its
  block of ONE whole-array function; the 32 blocks tile the output array, so the array ends holding that function.
-/
import proofs.«161355_j43224550867593_1_alg».proof.Proof.IdealRegion1
import proofs.«161355_j43224550867593_1_alg».proof.Proof.PayloadB
import Idealize.ShloMosaic.Lib.Pipeline.Value

set_option maxRecDepth 16384

noncomputable section

open scoped BigOperators

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The function the output array ends holding -/

/-- Entry (b, q, e): the sum over d of (the sum over the centres k of weight (b, q, k) times state (b, k, d)) times
    the matrix entry (d, e). -/
def g1 (a : S4x8192x20.Idx → EReal) (s : S4x20x512.Idx → EReal) (w : S512x512.Idx → EReal)
    (b : Fin 4) (q : Fin 8192) (e : Fin 512) : EReal :=
  ∑ d : Fin 512, (∑ k : Fin 20, a (ix3 b q k) * s (ix3 b k d)) * w (ix2 d e)

/-- The same, as an array. -/
def G1 (a : S4x8192x20.Idx → EReal) (s : S4x20x512.Idx → EReal) (w : S512x512.Idx → EReal) : S4x8192x512.Idx → EReal :=
  fun i => g1 a s w (i 0) (i 1) (i 2)

/-! ## Where the blocks sit -/

/-- The block indices at grid point t, decided over the 32 points: the output and the weights at (t / 8, t % 8, 0),
    the splat states at (t / 8, 0, 0), the matrix at (0, 0). -/
theorem idx_facts1 : ∀ t : Fin cfg1.N,
    win1_3.index t (0 : Fin 3) = t.val / 8 ∧ win1_3.index t (1 : Fin 3) = t.val % 8 ∧ win1_3.index t (2 : Fin 3) = 0
    ∧ win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 2) = 0 ∧ win1_2.index t (1 : Fin 2) = 0 :=
  (by decide +kernel : ∀ t : Fin grid1.N, _)

/-! ## The block written at a point -/

/-- The stored tile at (z, r, e), z the only value of the unit axis. -/
theorem tile_eq (a0 : Vec Ideal S1x1024x20 .f32) (s0 : Vec Ideal S1x20x512 .f32) (w0 : Vec Ideal S512x512 .f32)
    (z : Fin 1) (r : Fin 1024) (e : Fin 512) :
    k1_pay1 a0 s0 w0 (ix3 z r e)
      = ∑ d : Fin 512, (∑ k : Fin 20, a0 (ix3 (0 : Fin 1) r k) * s0 (ix3 (0 : Fin 1) k d)) * w0 (ix2 d e) := by
  obtain rfl : z = 0 := Subsingleton.elim _ _
  exact Cert.SplatAttention.Payload.out_tile a0 s0 w0 r e

/-- The weights' block at point t holds, at (0, r, k), the array's entry (t / 8, (t % 8) · 1024 + r, k). -/
theorem read_a (c : Dev nD) (t : Fin cfg1.N) (r : Fin 1024) (k : Fin 20) (b : Fin 4) (q : Fin 8192)
    (hb : b.val = t.val / 8) (hq : q.val = t.val % 8 * 1024 + r.val) :
    iblk1 V c 0 t (ix3 (0 : Fin 1) r k) = V c main_v10_0 (ix3 b q k) := by
  show V c main_v10_0 (((cfg1.win 0).blk t).view.emb (ix3 (0 : Fin 1) r k)) = V c main_v10_0 (ix3 b q k)
  obtain ⟨-, -, -, e0, e1, e2, -⟩ := idx_facts1 t
  refine congrArg (V c main_v10_0) (funext fun a => Fin.ext ?_)
  match a with
  | ⟨0, _⟩ => show win1_0.index t (0 : Fin 3) * 1 + 1 * 0 = b.val; omega
  | ⟨1, _⟩ => show win1_0.index t (1 : Fin 3) * 1024 + 1 * r.val = q.val; omega
  | ⟨2, _⟩ => show win1_0.index t (2 : Fin 3) * 20 + 1 * k.val = k.val; omega

/-- The splat states' block at point t holds, at (0, k, d), the array's entry (t / 8, k, d). -/
theorem read_s (c : Dev nD) (t : Fin cfg1.N) (k : Fin 20) (d : Fin 512) (b : Fin 4)
    (hb : b.val = t.val / 8) :
    iblk1 V c 1 t (ix3 (0 : Fin 1) k d) = V c main_v10_1 (ix3 b k d) := by
  show V c main_v10_1 (((cfg1.win 1).blk t).view.emb (ix3 (0 : Fin 1) k d)) = V c main_v10_1 (ix3 b k d)
  obtain ⟨-, -, -, -, -, -, e0, e1, e2, -⟩ := idx_facts1 t
  refine congrArg (V c main_v10_1) (funext fun a => Fin.ext ?_)
  match a with
  | ⟨0, _⟩ => show win1_1.index t (0 : Fin 3) * 1 + 1 * 0 = b.val; omega
  | ⟨1, _⟩ => show win1_1.index t (1 : Fin 3) * 20 + 1 * k.val = k.val; omega
  | ⟨2, _⟩ => show win1_1.index t (2 : Fin 3) * 512 + 1 * d.val = d.val; omega

/-- The matrix's block at every point is the whole matrix. -/
theorem read_w (c : Dev nD) (t : Fin cfg1.N) (d e e' : Fin 512) (he : e'.val = e.val) :
    iblk1 V c 2 t (ix2 d e) = V c main_v9 (ix2 d e') := by
  show V c main_v9 (((cfg1.win 2).blk t).view.emb (ix2 d e)) = V c main_v9 (ix2 d e')
  obtain ⟨-, -, -, -, -, -, -, -, -, e0, e1⟩ := idx_facts1 t
  refine congrArg (V c main_v9) (funext fun a => Fin.ext ?_)
  match a with
  | ⟨0, _⟩ => show win1_2.index t (0 : Fin 2) * 512 + 1 * d.val = d.val; omega
  | ⟨1, _⟩ => show win1_2.index t (1 : Fin 2) * 512 + 1 * e.val = e'.val; omega

/-- A tile whose three blocks read the arrays a, s, w at row b, token q and column e' is the function's entry there. -/
theorem point_eq (a0 : Vec Ideal S1x1024x20 .f32) (s0 : Vec Ideal S1x20x512 .f32) (w0 : Vec Ideal S512x512 .f32)
    (a : S4x8192x20.Idx → EReal) (s : S4x20x512.Idx → EReal) (w : S512x512.Idx → EReal)
    (r : Fin 1024) (e : Fin 512) (b : Fin 4) (q : Fin 8192) (e' : Fin 512)
    (ha : ∀ k : Fin 20, a0 (ix3 (0 : Fin 1) r k) = a (ix3 b q k))
    (hs : ∀ (k : Fin 20) (d : Fin 512), s0 (ix3 (0 : Fin 1) k d) = s (ix3 b k d))
    (hw : ∀ d : Fin 512, w0 (ix2 d e) = w (ix2 d e')) :
    ∑ d : Fin 512, (∑ k : Fin 20, a0 (ix3 (0 : Fin 1) r k) * s0 (ix3 (0 : Fin 1) k d)) * w0 (ix2 d e)
      = g1 a s w b q e' := by
  unfold g1
  refine Finset.sum_congr rfl fun d _ => ?_
  rw [hw d]
  refine congrArg (· * w (ix2 d e')) (Finset.sum_congr rfl fun k _ => ?_)
  rw [ha k, hs k d]

/-- What grid point t writes back is its block of the one whole-array function. -/
theorem flushed1_eq (c : Dev nD) (t : Fin cfg1.N) :
    (dat1 (F := Ideal) V c).flushed 3 t
      = ((cfg1.win 3).blk t).view.read (Elt Ideal) (G1 (V c main_v10_0) (V c main_v10_1) (V c main_v9)) := by
  show (cfg1.win 3).cut (grid1.coords t) ((dat1 V c).after 3 t) = _
  rw [after1_3]
  unfold out1_3
  rw [View.canon_unit_zero hz3]
  simp only [View.ld_unit_zero (S := S1x1024x20) hz3, View.ld_unit_zero (S := S1x20x512) hz3, View.ld_unit_zero (S := S512x512) hz2]
  funext j
  obtain ⟨z, r, e, rfl⟩ : ∃ (z : Fin 1) (r : Fin 1024) (e : Fin 512), j = (ix3 z r e : S1x1024x512.Idx) :=
    ⟨j 0, j 1, j 2, funext fun a => by match a with | ⟨0, _⟩ => rfl | ⟨1, _⟩ => rfl | ⟨2, _⟩ => rfl⟩
  show k1_pay1 (iblk1 V c 0 t) (iblk1 V c 1 t) (iblk1 V c 2 t) (ix3 z r e)
    = G1 (V c main_v10_0) (V c main_v10_1) (V c main_v9) (((cfg1.win 3).blk t).view.emb (ix3 z r e))
  rw [tile_eq]
  obtain ⟨f0, f1, f2, -⟩ := idx_facts1 t
  have h0 : ((((cfg1.win 3).blk t).view.emb (ix3 z r e)) 0).val = t.val / 8 := by
    show win1_3.index t (0 : Fin 3) * 1 + 1 * z.val = t.val / 8; omega
  have h1 : ((((cfg1.win 3).blk t).view.emb (ix3 z r e)) 1).val = t.val % 8 * 1024 + r.val := by
    show win1_3.index t (1 : Fin 3) * 1024 + 1 * r.val = t.val % 8 * 1024 + r.val; omega
  have h2 : ((((cfg1.win 3).blk t).view.emb (ix3 z r e)) 2).val = e.val := by
    show win1_3.index t (2 : Fin 3) * 512 + 1 * e.val = e.val; omega
  exact point_eq (iblk1 V c 0 t) (iblk1 V c 1 t) (iblk1 V c 2 t) (V c main_v10_0) (V c main_v10_1) (V c main_v9) r e _ _ _
    (fun k => read_a V c t r k _ _ h0 h1) (fun k d => read_s V c t k d _ h0) (fun d => read_w V c t d e _ h2)

/-! ## The blocks tile the array -/

/-- An index of the array is in point t's block iff each coordinate is in the block's range on its axis. -/
theorem mem_blk1 (t : Fin cfg1.N) (i : S4x8192x512.Idx) :
    i ∈ ((cfg1.win 3).blk t).view.set ↔ ∀ a : Fin 3, win1_3.index t a * S1x1024x512.size a ≤ (i a).val
      ∧ (i a).val < win1_3.index t a * S1x1024x512.size a + S1x1024x512.size a := by
  show i ∈ ((View.whole main_v11).slice (win1_3.rect t)).set ↔ _
  rw [View.set_slice_whole, Rect.mem_set_unit]
  exact Iff.rfl

/-- Entry (b, q, e) of the array is in the block of point 8 · b + q / 1024, and every point writes its block back. -/
theorem cover1 (i : S4x8192x512.Idx) :
    ∃ t : Fin cfg1.N, (cfg1.win 3).flush t = true ∧ i ∈ ((cfg1.win 3).blk t).view.set := by
  have hi0 : (i 0).val < 4 := (i 0).isLt
  have hi1 : (i 1).val < 8192 := (i 1).isLt
  have hi2 : (i 2).val < 512 := (i 2).isLt
  let t : Fin cfg1.N := ⟨8 * (i 0).val + (i 1).val / 1024, Nat.lt_of_lt_of_eq (by omega) N_1.symm⟩
  have ht : t.val = 8 * (i 0).val + (i 1).val / 1024 := rfl
  obtain ⟨f0, f1, f2, -⟩ := idx_facts1 t
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 512 ≤ (i 2).val ∧ (i 2).val < win1_3.index t (2 : Fin 3) * 512 + 512; omega

/-! ## The array after the region -/

/-- The output array after the region's last point is the one function of the three arrays the region finds. -/
theorem final1 (c : Dev nD) :
    (dat1 (F := Ideal) V c).arrAt 3 cfg1.N = G1 (V c main_v10_0) (V c main_v10_1) (V c main_v9) :=
  (dat1 (F := Ideal) V c).arrAt_eq_of_cover 3 (G1 (V c main_v10_0) (V c main_v10_1) (V c main_v9))
    (fun t _ => flushed1_eq V c t) cover1

end Cert.KernelIdeal.HandValue

end
-- ==== Proof.IdealHost.lean ====
/-
  What the operations before the first kernel region leave in the buffers the regions read.

  Before the first region the program prepares seven arrays from its six arguments: the tokens (untouched), the
  centres transposed, the two weight matrices transposed, the amplitudes with a leading unit axis, the squared
  scales exp(ls) · exp(ls) with a leading unit axis, and the centres' squared norms (the row sums of the squared
  entries, started from the zero word) with a leading unit axis. Each is read here at an index given by its
  coordinates, in terms of the argument arrays and the specification's quantities.
-/
import proofs.«161355_j43224550867593_1_alg».proof.Proof.IdealRun
import proofs.«161355_j43224550867593_1_alg».proof.Proof.Spec
import Idealize.ShloMosaic.Lib.Pipeline.Value
import Idealize.ShloMosaic.Lib.StableHlo.Run
import Idealize.ShloMosaic.PureOps.Ideal.Laws
import Idealize.ShloMosaic.Lib.ValueLayout
import Idealize.ShloMosaic.Lib.ValueIdx

set_option maxRecDepth 16384

noncomputable section

open scoped BigOperators

namespace Cert.KernelIdeal.HandValue

open Cert.KernelIdeal Cert.KernelIdeal.Gen Cert.KernelIdeal.Hand Cert.SplatAttention
open Idealize.ShloMosaic Idealize.ShloMosaic.TcCoe Idealize.SL.Sem Idealize.ShloMosaic.ValueIdx Idealize.ShloMosaic.StableHlo

variable (m : (ℓ : Loc nD τ sig) → Buf (Elt Ideal) ℓ) (c : Dev nD)

/-! ## What each buffer holds after the operations before the first region, as one term -/

/-- The transposed centres: the buffer holds the transpose of the centres' array. -/
theorem term_p : (Vh m c main_v7 : S512x20.Idx → EReal)
    = transpose S512x20 [1, 0] (m (c, Proc.tc.devRef main_arg1)) transposes_S20x512_S512x20_1_0 := by
  dsimp only [Vh, Wh, hostOps0]; after_results

/-- The transposed value weights. -/
theorem term_w : (Vh m c main_v8 : S512x512.Idx → EReal)
    = transpose S512x512 [1, 0] (m (c, Proc.tc.devRef main_arg4)) transposes_S512x512_S512x512_1_0 := by
  dsimp only [Vh, Wh, hostOps0]; after_results

/-- The transposed output weights. -/
theorem term_o : (Vh m c main_v9 : S512x512.Idx → EReal)
    = transpose S512x512 [1, 0] (m (c, Proc.tc.devRef main_arg5)) transposes_S512x512_S512x512_1_0 := by
  dsimp only [Vh, Wh, hostOps0]; after_results

/-- The amplitudes, given a leading unit axis. -/
theorem term_a : (Vh m c main_v6 : S1x20.Idx → EReal)
    = shapeCast S1x20 (m (c, Proc.tc.devRef main_arg3)) shapeCasts_S20_S1x20 := by
  dsimp only [Vh, Wh, hostOps0]; after_results; rfl

/-- The squared scales: the exponential of the log-scales times itself, given a leading unit axis. -/
theorem term_s : (Vh m c main_v2 : S1x20.Idx → EReal)
    = shapeCast S1x20 (mulf (Host.exp (F := Ideal) (s := S20) (φ := .f32) (m (c, Proc.tc.devRef main_arg2)))
        (Host.exp (F := Ideal) (s := S20) (φ := .f32) (m (c, Proc.tc.devRef main_arg2)))) shapeCasts_S20_S1x20 := by
  dsimp only [Vh, Wh, hostOps0]; after_results; rfl

/-- The centres' squared norms: the row sums of the squared entries from the zero word, given a leading unit axis. -/
theorem term_c : (Vh m c main_v5 : S1x20.Idx → EReal)
    = shapeCast S1x20 (Host.reduceAdd (F := Ideal) (mulf (m (c, Proc.tc.devRef main_arg1)) (m (c, Proc.tc.devRef main_arg1)))
        (constant (F := Ideal) S_ .f32 0x00000000#32) reducesTo_S20x512_S20_d1 h_S_) shapeCasts_S20_S1x20 := by
  dsimp only [Vh, Wh, hostOps0]; after_results; rfl

/-! ## The arithmetic of the two computed rows -/

/-- A row sum from the zero word is the plain finite sum over the row. -/
theorem reduce_rows (y : S20x512.Idx → EReal) (k : Fin 20) :
    Host.reduceAdd (F := Ideal) (φ := .f32) y (constant (F := Ideal) S_ .f32 0x00000000#32) reducesTo_S20x512_S20_d1 h_S_ (ix1 k)
      = ∑ d : Fin 512, y (ix2 k d) := by
  simp only [Host.reduceAdd, Ideal.hostReduceAdd_def]
  rw [Ideal.hostReduceAdd_single reducesTo_S20x512_S20_d1 (by decide)]
  rw [constant_apply, Ideal.ofBits_zero_f32, zero_add]
  refine Finset.sum_congr rfl fun d _ => ?_
  exact congrArg y (funext fun a => Fin.ext (by match a with | ⟨0, _⟩ => rfl | ⟨1, _⟩ => rfl))

/-- The row sum of the squares of a centre's entries is its squared norm. -/
theorem reduce_rows_sq (y : S20x512.Idx → EReal) (k : Fin 20) :
    Host.reduceAdd (F := Ideal) (φ := .f32) (mulf y y) (constant (F := Ideal) S_ .f32 0x00000000#32) reducesTo_S20x512_S20_d1 h_S_ (ix1 k)
      = centre2 y k := by
  rw [reduce_rows]
  unfold centre2
  exact Finset.sum_congr rfl fun d _ => mulf_apply y y (ix2 k d)

/-- The exponential of a log-scale times itself is the squared scale. -/
theorem exp_sq (y : S20.Idx → EReal) (k : Fin 20) :
    mulf (Host.exp (F := Ideal) (s := S20) (φ := .f32) y) (Host.exp (F := Ideal) (s := S20) (φ := .f32) y) (ix1 k) = scale2 y k := by
  rw [mulf_apply]
  simp only [Host.exp, Ideal.hostUnary_exp_def]
  rfl

/-! ## The buffers read at an index -/

/-- No operation before the first region writes the tokens' array. -/
theorem host_x (i : S4x8192x512.Idx) : Vh m c main_arg0 i = m ((c.tc : Thread nD τ).loc main_arg0) i :=
  congrFun (V1_of m c main_arg0 (by decide)) i

/-- Entry (d, k) of the transposed centres is entry (k, d) of the centres. -/
theorem host_p (d : Fin 512) (k : Fin 20) :
    (Vh m c main_v7 : S512x20.Idx → EReal) (ix2 d k) = m ((c.tc : Thread nD τ).loc main_arg1) (ix2 k d) := by
  rw [term_p]
  exact transpose_ix2_apply _ _ d k

/-- Entry (d, e) of the transposed value weights is entry (e, d) of the value weights. -/
theorem host_w (d e : Fin 512) :
    (Vh m c main_v8 : S512x512.Idx → EReal) (ix2 d e) = m ((c.tc : Thread nD τ).loc main_arg4) (ix2 e d) := by
  rw [term_w]
  exact transpose_ix2_apply _ _ d e

/-- Entry (d, e) of the transposed output weights is entry (e, d) of the output weights. -/
theorem host_o (d e : Fin 512) :
    (Vh m c main_v9 : S512x512.Idx → EReal) (ix2 d e) = m ((c.tc : Thread nD τ).loc main_arg5) (ix2 e d) := by
  rw [term_o]
  exact transpose_ix2_apply _ _ d e

/-- Entry (0, k) of the reshaped amplitudes is amplitude k. -/
theorem host_a (k : Fin 20) :
    (Vh m c main_v6 : S1x20.Idx → EReal) (ix2 (0 : Fin 1) k) = m ((c.tc : Thread nD τ).loc main_arg3) (ix1 k) := by
  rw [term_a]
  exact shapeCast_a_1a_apply _ _ 0 k

/-- Entry (0, k) of the reshaped squared scales is the squared scale of centre k. -/
theorem host_s (k : Fin 20) :
    (Vh m c main_v2 : S1x20.Idx → EReal) (ix2 (0 : Fin 1) k) = scale2 (m ((c.tc : Thread nD τ).loc main_arg2)) k := by
  rw [term_s, shapeCast_a_1a_apply]
  exact exp_sq _ k

/-- Entry (0, k) of the reshaped squared norms is the squared norm of centre k. -/
theorem host_c (k : Fin 20) :
    (Vh m c main_v5 : S1x20.Idx → EReal) (ix2 (0 : Fin 1) k) = centre2 (m ((c.tc : Thread nD τ).loc main_arg1)) k := by
  rw [term_c, shapeCast_a_1a_apply]
  exact reduce_rows_sq _ k

end Cert.KernelIdeal.HandValue

end
-- ==== Proof.RefValue.lean ====
/-
  The reference program computes the Gaussian-splat attention of the specification.

  The reference is read one operation at a time. Each named quantity of the specification
  (squared norms, inner products, clamped squared distance, Gaussian weight, normaliser,
  normalised weight, token values, splat states, tokens mixed back, output projection) is
  identified with the stage of the reference that computes it, read at an index given by its
  coordinates. A broadcast reads its operand at the index with the broadcast axes dropped, a
  float sum into the zero word is the plain finite sum, and a contraction over one axis is the
  finite sum of the products over that axis.
-/
import proofs.«161355_j43224550867593_1_alg».proof.Proof.Gen.ReferenceIdeal.Read
import proofs.«161355_j43224550867593_1_alg».proof.Proof.Spec
import Idealize.ShloMosaic.Lib.ValueIdx
import Idealize.ShloMosaic.PureOps.Ideal
import Idealize.ShloMosaic.PureOps.Ideal.Laws

noncomputable section

open scoped BigOperators

namespace Cert.SplatAttention.Ref

open Cert.ReferenceIdeal Cert.ReferenceIdeal.Read Idealize.ShloMosaic Idealize.ShloMosaic.ValueIdx
open Cert.SplatAttention

variable (x0 : (⟨S4x8192x512, .f32⟩ : BufTy).Contents (Elt Ideal)) (x1 : (⟨S20x512, .f32⟩ : BufTy).Contents (Elt Ideal))
  (x2 x3 : (⟨S20, .f32⟩ : BufTy).Contents (Elt Ideal)) (x4 x5 : (⟨S512x512, .f32⟩ : BufTy).Contents (Elt Ideal))

/-! ## Squared norms and inner products -/

/-- The sum of the squares of a token's entries is its squared norm. -/
theorem v2_eq (b : Fin 4) (s : Fin 8192) :
    val_main_v2 (F := Ideal) x0 (ix2 b s) = norm2 x0 b s := by
  rw [val_main_v2_apply, val_main_cst_apply, Ideal.ofBits_def, Ideal.ofBits_zero_f32, zero_add]
  unfold norm2
  refine Finset.sum_congr rfl fun d _ => ?_
  have e : idx_main_v2 (ix2 b s) d = ix3 b s d :=
    funext fun a => Fin.ext (by match a with | ⟨0, _⟩ => rfl | ⟨1, _⟩ => rfl | ⟨2, _⟩ => rfl)
  rw [e, val_main_v1_apply, Ideal.mulf_def]

/-- The squared norm, broadcast along the centres. -/
theorem v9_eq (b : Fin 4) (s : Fin 8192) (k : Fin 20) :
    val_main_v9 (F := Ideal) x0 (ix3 b s k) = norm2 x0 b s := by
  rw [val_main_v9_apply, val_main_v3_apply]
  have e : idx_main_v3 (idx_main_v9 (ix3 b s k)) = ix2 b s :=
    funext fun a => Fin.ext (by match a with | ⟨0, _⟩ => rfl | ⟨1, _⟩ => rfl)
  rw [e, v2_eq]

/-- The sum of the squares of a centre's entries is its squared norm. -/
theorem v5_eq (k : Fin 20) :
    val_main_v5 (F := Ideal) x1 (ix1 k) = centre2 x1 k := by
  rw [val_main_v5_apply, val_main_cst_0_apply, Ideal.ofBits_def, Ideal.ofBits_zero_f32, zero_add]
  unfold centre2
  refine Finset.sum_congr rfl fun d _ => ?_
  have e : idx_main_v5 (ix1 k) d = ix2 k d :=
    funext fun a => Fin.ext (by match a with | ⟨0, _⟩ => rfl | ⟨1, _⟩ => rfl)
  rw [e, val_main_v4_apply, Ideal.mulf_def]

/-- The centre's squared norm, broadcast along the tokens. -/
theorem v12_eq (b : Fin 4) (s : Fin 8192) (k : Fin 20) :
    val_main_v12 (F := Ideal) x1 (ix3 b s k) = centre2 x1 k := by
  rw [val_main_v12_apply, val_main_v11_apply]
  have e : idx_main_v11 (idx_main_v12 (ix3 b s k)) = ix1 k :=
    funext fun a => Fin.ext (by match a with | ⟨0, _⟩ => rfl)
  rw [e, v5_eq]

/-- The contraction of a token with a centre is their inner product. -/
theorem v6_eq (b : Fin 4) (s : Fin 8192) (k : Fin 20) :
    val_main_v6 (F := Ideal) x0 x1 (ix3 b s k) = cross x0 x1 b s k := by
  rw [val_main_v6_apply]
  unfold cross
  refine Finset.sum_congr rfl fun d _ => ?_
  have el : lidx_main_v6 (ix3 b s k) d = ix3 b s d :=
    funext fun a => Fin.ext (by match a with | ⟨0, _⟩ => rfl | ⟨1, _⟩ => rfl | ⟨2, _⟩ => rfl)
  have er : ridx_main_v6 (ix3 b s k) d = ix2 k d :=
    funext fun a => Fin.ext (by match a with | ⟨0, _⟩ => rfl | ⟨1, _⟩ => rfl)
  rw [el, er]

/-! ## The clamped squared distance -/

/-- Squared norm of the token, minus twice the inner product, plus the squared norm of the centre, clamped at zero. -/
theorem v15_eq (b : Fin 4) (s : Fin 8192) (k : Fin 20) :
    val_main_v15 (F := Ideal) x0 x1 (ix3 b s k) = dist2 x0 x1 b s k := by
  rw [val_main_v15_apply, val_main_v13_apply, val_main_v10_apply, val_main_v8_apply, val_main_v7_apply,
    val_main_v14_apply, val_main_cst_1_apply, val_main_cst_2_apply, v9_eq, v6_eq, v12_eq]
  simp only [Ideal.maximumf_def, Ideal.addf_def, Ideal.subf_def, Ideal.mulf_def, Ideal.ofBits_def,
    Ideal.ofBits_zero_f32]
  rfl

/-! ## The squared scale -/

/-- The square of the exponential of a centre's log-scale. -/
theorem v18_eq (k : Fin 20) :
    val_main_v18 (F := Ideal) x2 (ix1 k) = scale2 x2 k := by
  rw [val_main_v18_apply, val_main_v0_apply, Ideal.mulf_def, Ideal.hostUnary_exp_def]
  rfl

/-- The squared scale, broadcast along the tokens. -/
theorem v20_eq (b : Fin 4) (s : Fin 8192) (k : Fin 20) :
    val_main_v20 (F := Ideal) x2 (ix3 b s k) = scale2 x2 k := by
  rw [val_main_v20_apply, val_main_v19_apply]
  have e : idx_main_v19 (idx_main_v20 (ix3 b s k)) = ix1 k :=
    funext fun a => Fin.ext (by match a with | ⟨0, _⟩ => rfl)
  rw [e, v18_eq]

/-! ## The Gaussian weight -/

/-- The amplitude of a centre, broadcast along the tokens. -/
theorem v24_eq (b : Fin 4) (s : Fin 8192) (k : Fin 20) :
    val_main_v24 (F := Ideal) x3 (ix3 b s k) = x3 (ix1 k) := by
  rw [val_main_v24_apply, val_main_v23_apply]
  have e : idx_main_v23 (idx_main_v24 (ix3 b s k)) = ix1 k :=
    funext fun a => Fin.ext (by match a with | ⟨0, _⟩ => rfl)
  rw [e]

/-- The amplitude times the exponential of minus half the squared distance over the squared scale. -/
theorem v25_eq (b : Fin 4) (s : Fin 8192) (k : Fin 20) :
    val_main_v25 (F := Ideal) x0 x1 x2 x3 (ix3 b s k) = gauss x0 x1 x2 x3 b s k := by
  rw [val_main_v25_apply, val_main_v22_apply, val_main_v21_apply, val_main_v17_apply, val_main_v16_apply,
    val_main_cst_3_apply, v24_eq, v15_eq, v20_eq]
  simp only [Ideal.mulf_def, Ideal.hostDivf_def, Ideal.hostUnary_exp_def, Ideal.ofBits_def]
  rfl

/-! ## The normaliser and the normalised weight -/

/-- The sum of a token's Gaussian weights over the centres. -/
theorem v26_eq (b : Fin 4) (s : Fin 8192) :
    val_main_v26 (F := Ideal) x0 x1 x2 x3 (ix2 b s) = ∑ k : Fin 20, gauss x0 x1 x2 x3 b s k := by
  rw [val_main_v26_apply, val_main_cst_4_apply, Ideal.ofBits_def, Ideal.ofBits_zero_f32, zero_add]
  refine Finset.sum_congr rfl fun k _ => ?_
  have e : idx_main_v26 (ix2 b s) k = ix3 b s k :=
    funext fun a => Fin.ext (by match a with | ⟨0, _⟩ => rfl | ⟨1, _⟩ => rfl | ⟨2, _⟩ => rfl)
  rw [e, v25_eq]

/-- The normaliser: that sum plus the small constant, broadcast along the centres. -/
theorem v30_eq (b : Fin 4) (s : Fin 8192) (k : Fin 20) :
    val_main_v30 (F := Ideal) x0 x1 x2 x3 (ix3 b s k) = denom x0 x1 x2 x3 b s := by
  rw [val_main_v30_apply, val_main_v29_apply, val_main_v27_apply, val_main_v28_apply, val_main_cst_5_apply]
  have e : idx_main_v27 (idx_main_v30 (ix3 b s k)) = ix2 b s :=
    funext fun a => Fin.ext (by match a with | ⟨0, _⟩ => rfl | ⟨1, _⟩ => rfl)
  rw [e, v26_eq, Ideal.addf_def, Ideal.ofBits_def]
  rfl

/-- The Gaussian weight divided by the normaliser. -/
theorem v31_eq (b : Fin 4) (s : Fin 8192) (k : Fin 20) :
    val_main_v31 (F := Ideal) x0 x1 x2 x3 (ix3 b s k) = attn x0 x1 x2 x3 b s k := by
  rw [val_main_v31_apply, v25_eq, v30_eq, Ideal.hostDivf_def]
  rfl

/-! ## Token values, splat states, tokens mixed back, output projection -/

/-- The contraction of a token with a row of the value weights. -/
theorem v32_eq (b : Fin 4) (s : Fin 8192) (e : Fin 512) :
    val_main_v32 (F := Ideal) x0 x4 (ix3 b s e) = value x0 x4 b s e := by
  rw [val_main_v32_apply]
  unfold value
  refine Finset.sum_congr rfl fun d _ => ?_
  have el : lidx_main_v32 (ix3 b s e) d = ix3 b s d :=
    funext fun a => Fin.ext (by match a with | ⟨0, _⟩ => rfl | ⟨1, _⟩ => rfl | ⟨2, _⟩ => rfl)
  have er : ridx_main_v32 (ix3 b s e) d = ix2 e d :=
    funext fun a => Fin.ext (by match a with | ⟨0, _⟩ => rfl | ⟨1, _⟩ => rfl)
  rw [el, er]

/-- The contraction over the tokens of a batch row: normalised weight times token value. -/
theorem v33_eq (b : Fin 4) (k : Fin 20) (d : Fin 512) :
    val_main_v33 (F := Ideal) x0 x1 x2 x3 x4 (ix3 b k d) = splat x0 x1 x2 x3 x4 b k d := by
  rw [val_main_v33_apply]
  unfold splat
  refine Finset.sum_congr rfl fun s _ => ?_
  have el : lidx_main_v33 (ix3 b k d) s = ix3 b s k :=
    funext fun a => Fin.ext (by match a with | ⟨0, _⟩ => rfl | ⟨1, _⟩ => rfl | ⟨2, _⟩ => rfl)
  have er : ridx_main_v33 (ix3 b k d) s = ix3 b s d :=
    funext fun a => Fin.ext (by match a with | ⟨0, _⟩ => rfl | ⟨1, _⟩ => rfl | ⟨2, _⟩ => rfl)
  rw [el, er, v31_eq, v32_eq]

/-- The contraction over the centres: normalised weight times splat state. -/
theorem v34_eq (b : Fin 4) (s : Fin 8192) (d : Fin 512) :
    val_main_v34 (F := Ideal) x0 x1 x2 x3 x4 (ix3 b s d) = mixed x0 x1 x2 x3 x4 b s d := by
  rw [val_main_v34_apply]
  unfold mixed
  refine Finset.sum_congr rfl fun k _ => ?_
  have el : lidx_main_v34 (ix3 b s d) k = ix3 b s k :=
    funext fun a => Fin.ext (by match a with | ⟨0, _⟩ => rfl | ⟨1, _⟩ => rfl | ⟨2, _⟩ => rfl)
  have er : ridx_main_v34 (ix3 b s d) k = ix3 b k d :=
    funext fun a => Fin.ext (by match a with | ⟨0, _⟩ => rfl | ⟨1, _⟩ => rfl | ⟨2, _⟩ => rfl)
  rw [el, er, v31_eq, v33_eq]

/-- The contraction of a mixed token with a row of the output weights. -/
theorem v35_eq (b : Fin 4) (s : Fin 8192) (e : Fin 512) :
    val_main_v35 (F := Ideal) x0 x1 x2 x3 x4 x5 (ix3 b s e) = result x0 x1 x2 x3 x4 x5 b s e := by
  rw [val_main_v35_apply]
  unfold result
  refine Finset.sum_congr rfl fun d _ => ?_
  have el : lidx_main_v35 (ix3 b s e) d = ix3 b s d :=
    funext fun a => Fin.ext (by match a with | ⟨0, _⟩ => rfl | ⟨1, _⟩ => rfl | ⟨2, _⟩ => rfl)
  have er : ridx_main_v35 (ix3 b s e) d = ix2 e d :=
    funext fun a => Fin.ext (by match a with | ⟨0, _⟩ => rfl | ⟨1, _⟩ => rfl)
  rw [el, er, v34_eq]

/-! ## The reference is the specification -/

/-- The reference's result array is the specification's, index by index. -/
theorem reference_eq
    (x0 : (⟨Cert.ReferenceIdeal.S4x8192x512, .f32⟩ : BufTy).Contents (Elt Ideal)) (x1 : (⟨Cert.ReferenceIdeal.S20x512, .f32⟩ : BufTy).Contents (Elt Ideal))
    (x2 x3 : (⟨Cert.ReferenceIdeal.S20, .f32⟩ : BufTy).Contents (Elt Ideal)) (x4 x5 : (⟨Cert.ReferenceIdeal.S512x512, .f32⟩ : BufTy).Contents (Elt Ideal)) :
    Cert.ReferenceIdeal.Read.val_main_v35 (F := Ideal) x0 x1 x2 x3 x4 x5 = Cert.SplatAttention.resultArr x0 x1 x2 x3 x4 x5 := by
  funext i
  obtain ⟨b, s, e, rfl⟩ : ∃ (b : Fin 4) (s : Fin 8192) (e : Fin 512), i = ix3 b s e :=
    ⟨i 0, i 1, i 2, eq_ix3 i⟩
  rw [v35_eq]
  rfl

end Cert.SplatAttention.Ref

end
-- ==== Proof.IdealValue.lean ====
/-
  The kernel program's result is the Gaussian-splat attention of its arguments.

  After the run the result array holds what the second region's write-backs leave. The second region's output array
  is, index by index, (weights · splat states) · woᵀ of the arrays it finds; the arrays it finds are the first
  region's two output arrays — the normalised weights and the splat states of the arguments, the latter summed
  over the 8 tiles of each batch row — and the transposed output projection the host stretch wrote. Put together,
  that is the specification's `resultArr`; the reference's run ends at the same function of the same arguments.
-/
import proofs.«161355_j43224550867593_1_alg».proof.Proof.IdealRun
import proofs.«161355_j43224550867593_1_alg».proof.Proof.IdealArray0
import proofs.«161355_j43224550867593_1_alg».proof.Proof.IdealArray1
import proofs.«161355_j43224550867593_1_alg».proof.Proof.IdealHost
import proofs.«161355_j43224550867593_1_alg».proof.Proof.RefValue
import proofs.«161355_j43224550867593_1_alg».proof.Proof.Gen.ReferenceIdeal.Run
import proofs.«161355_j43224550867593_1_alg».proof.Proof.Gen.ReferenceIdeal.Read

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand Cert.SplatAttention
open scoped BigOperators

variable (m : (ℓ : Loc nD τ sig) → Buf (Elt Ideal) ℓ) (c : Dev nD)

/-- The weights the second region finds are the specification's, of the launch contents. -/
theorem entry_attn : (Va m c main_v10_0 : S4x8192x20.Idx → EReal)
    = attnArr (m ((c.tc : Thread nD τ).loc main_arg0)) (m ((c.tc : Thread nD τ).loc main_arg1)) (m ((c.tc : Thread nD τ).loc main_arg2)) (m ((c.tc : Thread nD τ).loc main_arg3)) :=
  (hF0 m c 6).symm.trans (final0_attn (Vh m) _ _ _ _ c (host_x m c) (host_p m c) (host_c m c) (host_s m c) (host_a m c))

/-- The splat states the second region finds are the specification's. -/
theorem entry_splat : (Va m c main_v10_1 : S4x20x512.Idx → EReal)
    = splatArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (hF0 m c 7).symm.trans (final0_splat (Vh m) _ _ _ _ _ c (host_x m c) (host_p m c) (host_c m c) (host_s m c) (host_a m c) (host_w m c))

/-- The output projection the second region finds is the transposed argument: the first region does not touch it. -/
theorem entry_wo (d e : Fin 512) : (Va m c main_v9 : S512x512.Idx → EReal) (ix2 d e) = (m ((c.tc : Thread nD τ).loc main_arg5)) (ix2 e d) :=
  (congrFun (Wa_of_ne m c main_v9 (by decide)) (ix2 d e)).trans (host_o m c d e)

/-- The result array after the run is the specification's result of the launch contents. -/
theorem result_eq : (dat1 (F := Ideal) (Va m) c).arrAt 3 cfg1.N
    = resultArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [final1 (Va m) c, entry_attn m c, entry_splat m c]
  funext i
  obtain ⟨b, s, e, rfl⟩ : ∃ (b : Fin 4) (s : Fin 8192) (e : Fin 512), i = ix3 b s e := ⟨i 0, i 1, i 2, eq_ix3 i⟩
  show g1 _ _ _ b s e = result _ _ _ _ _ _ b s e
  unfold g1 result mixed
  refine Finset.sum_congr rfl fun d _ => ?_
  rw [entry_wo m c d e]
  rfl

end Cert.KernelIdeal.HandValue

end
-- ==== Proof.lean ====
/-
  The certificate: the tiled Gaussian-splat attention kernel (two kernel regions joined by the weights and the
  splat states) against the plain reference, over the extended reals.

  * The three frames. The kernel program and its idealization run one stretch of host operations and two kernel
    regions; each region's body is run at every grid point (the first carries a scratch accumulator from point to
    point, zeroed at the first tile of each batch row), and no argument array is written. The reference is host
    operations only.
  * The idealization rewrote nothing, so there is nothing to preserve.
  * At the extended reals both programs end with `Cert.SplatAttention.resultArr` of the arguments: the kernel's tiles
    of 1024 tokens regroup the reference's sum over 8192 tokens (addition is commutative and associative on the
    extended reals; no law that needs finiteness is used, so the precondition is never opened).
-/
import proofs.«161355_j43224550867593_1_alg».proof.Defs
import proofs.«161355_j43224550867593_1_alg».proof.Proof.Gen.Kernel
import proofs.«161355_j43224550867593_1_alg».proof.Proof.Gen.KernelIdeal
import proofs.«161355_j43224550867593_1_alg».proof.Proof.Gen.ReferenceIdeal
import proofs.«161355_j43224550867593_1_alg».proof.Proof.Gen.ReferenceIdeal.Run
import proofs.«161355_j43224550867593_1_alg».proof.Proof.Gen.ReferenceIdeal.Read
import proofs.«161355_j43224550867593_1_alg».proof.Proof.Gen.Pre_finite_inputs
import proofs.«161355_j43224550867593_1_alg».proof.Proof.BitsRun
import proofs.«161355_j43224550867593_1_alg».proof.Proof.IdealRun
import proofs.«161355_j43224550867593_1_alg».proof.Proof.IdealValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with the specification's result of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.SplatAttention.resultArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.KernelIdeal.HandValue.result_eq m c), (h c).2⟩)
      (Cert.KernelIdeal.Hand.run_result (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v35_eq, Cert.SplatAttention.Ref.reference_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
